-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2x4096x512 .f32) (main_arg1 : FVec F S512x512 .f32) (main_arg2 : FVec F S512x512 .f32) (main_arg3 : FVec F S512x512 .f32) (main_arg4 : FVec F S512x512 .f32) (main_arg5 : FVec F S512 .f32) (main_arg6 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S2x4096x512 : Shape := ⟨3, ![2, 4096, 512]⟩
abbrev S512x512 : Shape := ⟨2, ![512, 512]⟩
abbrev S512 : Shape := ⟨1, ![512]⟩
abbrev S8192x512 : Shape := ⟨2, ![8192, 512]⟩
abbrev S1024x512 : Shape := ⟨2, ![1024, 512]⟩
abbrev S1024x128 : Shape := ⟨2, ![1024, 128]⟩
abbrev S4096x128 : Shape := ⟨2, ![4096, 128]⟩
abbrev S1024x1 : Shape := ⟨2, ![1024, 1]⟩
abbrev S1024x64 : Shape := ⟨2, ![1024, 64]⟩
abbrev S512x128 : Shape := ⟨2, ![512, 128]⟩
abbrev S512x64 : Shape := ⟨2, ![512, 64]⟩
abbrev S64x512 : Shape := ⟨2, ![64, 512]⟩
abbrev S1024 : Shape := ⟨1, ![1024]⟩
abbrev S1x512 : Shape := ⟨2, ![1, 512]⟩

abbrev nBuf : Space → Nat
  | .hbm => 24
  | .vmem => 34
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S8192x512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x512, .bf16⟩
  | .hbm, ⟨20, _⟩ => ⟨S1x512, .f32⟩
  | .hbm, ⟨21, _⟩ => ⟨S1x512, .f32⟩
  | .hbm, ⟨22, _⟩ => ⟨S8192x512, .f32⟩
  | .hbm, ⟨23, _⟩ => ⟨S2x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x128, .bf16⟩
  | .local _ .vmem, ⟨12, _⟩ => ⟨S1024x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S1024x128, .bf16⟩
  | .local _ .vmem, ⟨18, _⟩ => ⟨S1024x128, .bf16⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | .local _ .vmem, ⟨22, _⟩ => ⟨S1024x1, .f32⟩
  | .local _ .vmem, ⟨23, _⟩ => ⟨S1024x1, .f32⟩
  | .local _ .vmem, ⟨24, _⟩ => ⟨S1024x64, .f32⟩
  | .local _ .vmem, ⟨25, _⟩ => ⟨S1024x512, .bf16⟩
  | .local _ .vmem, ⟨26, _⟩ => ⟨S1024x512, .bf16⟩
  | .local _ .vmem, ⟨27, _⟩ => ⟨S1024x512, .f32⟩
  | .local _ .vmem, ⟨28, _⟩ => ⟨S1024x512, .f32⟩
  | .local _ .vmem, ⟨29, _⟩ => ⟨S512x512, .bf16⟩
  | .local _ .vmem, ⟨30, _⟩ => ⟨S1x512, .f32⟩
  | .local _ .vmem, ⟨31, _⟩ => ⟨S1x512, .f32⟩
  | .local _ .vmem, ⟨32, _⟩ => ⟨S1024x512, .f32⟩
  | .local _ .vmem, ⟨33, _⟩ => ⟨S1024x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![2, 4, 4], ![false, false, false]⟩

@[reducible] def k1_t1_loop : Scf.Loop 32 :=
  let c0_i32 : BitVec 32 := 0#32
  let c8_i32 : BitVec 32 := 8#32
  let v28 : BitVec 32 := Scalar.addi c0_i32 c8_i32
  let c1_i32 : BitVec 32 := 1#32
  ⟨c0_i32, v28, c1_i32⟩
def k1_mult1 (k1_t1 : Fin k1_t1_loop.trips) : BitVec 32 :=
  let c0_i32_33 : BitVec 32 := 0#32
  let c0_i32 : BitVec 32 := 0#32
  let c1_i32 : BitVec 32 := 1#32
  let arg13 : BitVec 32 := Scf.iv c0_i32 c1_i32 k1_t1
  let c1_i32_32 : BitVec 32 := 1#32
  let v45 : BitVec 32 := Scalar.muli arg13 c1_i32_32
  let v46 : BitVec 32 := Scalar.addi c0_i32_33 v45
  let c512_i32 : BitVec 32 := 512#32
  let v47 : BitVec 32 := Scalar.muli v46 c512_i32
  v47
def k1_off1 (k1_t1 : Fin k1_t1_loop.trips) : Fin 2 → Nat :=
  let c0_i32_33 : BitVec 32 := 0#32
  let c0_i32 : BitVec 32 := 0#32
  let c1_i32 : BitVec 32 := 1#32
  let arg13 : BitVec 32 := Scf.iv c0_i32 c1_i32 k1_t1
  let c1_i32_32 : BitVec 32 := 1#32
  let v45 : BitVec 32 := Scalar.muli arg13 c1_i32_32
  let v46 : BitVec 32 := Scalar.addi c0_i32_33 v45
  let c512_i32 : BitVec 32 := 512#32
  let v47 : BitVec 32 := Scalar.muli v46 c512_i32
  let v48 : BitVec 32 := v47
  let v49 : Index := Scalar.indexCast v48
  let c0_34 : Index := 0#32
  ![v49.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S2x4096x512_S8192x512 : S2x4096x512.ShapeCasts S8192x512
  transposes_S512x512_S512x512_1_0 : S512x512.Transposes [1, 0] S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  slices_S1024x128_o0_64_S1024x64 : S1024x128.Slices ![0, 64] S1024x64
  h_S512x128 : 0 < S512x128.numel
  shapeCasts_S512x128_S512x128 : S512x128.ShapeCasts S512x128
  slices_S512x128_o0_0_S512x64 : S512x128.Slices ![0, 0] S512x64
  slices_S512x128_o0_64_S512x64 : S512x128.Slices ![0, 64] S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  inb_S1024x128_S1024x64_0_0 : ∀ a, (![0, 0] : Fin 2 → Nat) a + S1024x64.size a ≤ S1024x128.size a
  packedbf16_S1024x128_S1024x64_0_0 : (Rect.unit (s := S1024x128) ![0, 0] S1024x64.size inb_S1024x128_S1024x64_0_0).PackedRows (EltTy.packing .bf16)
  inb_S1024x128_S1024x64_0_64 : ∀ a, (![0, 64] : Fin 2 → Nat) a + S1024x64.size a ≤ S1024x128.size a
  packedbf16_S1024x128_S1024x64_0_64 : (Rect.unit (s := S1024x128) ![0, 64] S1024x64.size inb_S1024x128_S1024x64_0_64).PackedRows (EltTy.packing .bf16)
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x512_S2x4096x512 : S8192x512.ShapeCasts S2x4096x512
  dot_S1024x512_S512x512_S1024x512_1_0_0_1_n_n_wf : DotDims.WF S1024x512 S512x512 S1024x512 [1] [0] [0] [1] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x512.size a
  hwx1_0 : ∀ i : grid1.Coords, EltTy.bits .bf16 = 32 ∨ (Rect.block (s := S8192x512) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x512.size a
  hwx1_1 : ∀ i : grid1.Coords, EltTy.bits .bf16 = 32 ∨ (Rect.block (s := S8192x512) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S8192x512.size a
  hwx1_2 : ∀ i : grid1.Coords, EltTy.bits .bf16 = 32 ∨ (Rect.block (s := S8192x512) S4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x512.size a
  hwx1_3 : ∀ i : grid1.Coords, EltTy.bits .bf16 = 32 ∨ (Rect.block (s := S8192x512) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .f32 = 32 ∨ (Rect.block (s := S8192x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S8192x512.size a
  hwx2_5 : ∀ i : grid2.Coords, EltTy.bits .f32 = 32 ∨ (Rect.block (s := S8192x512) S1024x512.size (cc2_transform_5 i) (hinb2_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x4096x512 : Shape := ⟨3, ![2, 4096, 512]⟩
abbrev S512x512 : Shape := ⟨2, ![512, 512]⟩
abbrev S512 : Shape := ⟨1, ![512]⟩
abbrev S_ : Shape := ⟨0, ![]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x4096 : Shape := ⟨2, ![2, 4096]⟩
abbrev S2x4096x1 : Shape := ⟨3, ![2, 4096, 1]⟩
abbrev S1x1x512 : Shape := ⟨3, ![1, 1, 512]⟩

abbrev nBuf : Space → Nat
  | .hbm => 84
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S2x4096x512, .f32⟩
  | .hbm, ⟨10, _⟩ => ⟨S2x4096x8x64, .f32⟩
  | .hbm, ⟨11, _⟩ => ⟨S2x8x4096x64, .f32⟩
  | .hbm, ⟨12, _⟩ => ⟨S2x4096x512, .f32⟩
  | .hbm, ⟨13, _⟩ => ⟨S2x4096x8x64, .f32⟩
  | .hbm, ⟨14, _⟩ => ⟨S2x8x4096x64, .f32⟩
  | .hbm, ⟨15, _⟩ => ⟨S2x4096x512, .f32⟩
  | .hbm, ⟨16, _⟩ => ⟨S2x4096x8x64, .f32⟩
  | .hbm, ⟨17, _⟩ => ⟨S2x8x4096x64, .f32⟩
  | .hbm, ⟨18, _⟩ => ⟨S2x8x4096x4096, .f32⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S2x8x4096, .f32⟩
  | .hbm, ⟨23, _⟩ => ⟨S_, .f32⟩
  | .hbm, ⟨24, _⟩ => ⟨S2x8x4096, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x64, .f32⟩
  | .hbm, ⟨36, _⟩ => ⟨S2x4096x8x64, .f32⟩
  | .hbm, ⟨37, _⟩ => ⟨S2x4096x512, .f32⟩
  | .hbm, ⟨38, _⟩ => ⟨S2x4096x512, .f32⟩
  | .hbm, ⟨39, _⟩ => ⟨S2x4096x512, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S_, .i32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x512, .f32⟩
  | .hbm, ⟨54, _⟩ => ⟨S2x4096x512, .f32⟩
  | .hbm, ⟨55, _⟩ => ⟨S2x4096x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2x4096, .f32⟩
  | .hbm, ⟨61, _⟩ => ⟨S2x4096x1, .f32⟩
  | .hbm, ⟨62, _⟩ => ⟨S2x4096x1, .f32⟩
  | .hbm, ⟨63, _⟩ => ⟨S2x4096x1, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S2x4096x1, .f32⟩
  | .hbm, ⟨69, _⟩ => ⟨S2x4096x1, .f32⟩
  | .hbm, ⟨70, _⟩ => ⟨S2x4096x512, .f32⟩
  | .hbm, ⟨71, _⟩ => ⟨S2x4096x512, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S2x4096x1, .f32⟩
  | .hbm, ⟨76, _⟩ => ⟨S2x4096x512, .f32⟩
  | .hbm, ⟨77, _⟩ => ⟨S2x4096x512, .f32⟩
  | .hbm, ⟨78, _⟩ => ⟨S1x1x512, .f32⟩
  | .hbm, ⟨79, _⟩ => ⟨S2x4096x512, .f32⟩
  | .hbm, ⟨80, _⟩ => ⟨S2x4096x512, .f32⟩
  | .hbm, ⟨81, _⟩ => ⟨S1x1x512, .f32⟩
  | .hbm, ⟨82, _⟩ => ⟨S2x4096x512, .f32⟩
  | .hbm, ⟨83, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]

class Facts₀ : Prop where
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  reducesTo_S2x4096x512_S2x4096_d2 : S2x4096x512.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x512_0_1_2 : S2x4096x1.BroadcastsInDim S2x4096x512 (![0, 1, 2] : Fin 3 → Fin S2x4096x512.rank)
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  dot_S2x4096x512_S512x512_S2x4096x512_2_1_01_0_n_n_wf : DotDims.WF S2x4096x512 S512x512 S2x4096x512 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.K.Region0.lean ====
import proofs.«129024_j24481313587606_2_alg».proof.Proof.Gen.Kernel.Launch
import proofs.«129024_j24481313587606_2_alg».proof.Proof.Gen.Kernel.Skeleton
import proofs.«129024_j24481313587606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 x 512: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The QKV projection: one activation block against three weight matrices, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the pipeline does not fetch, the block
    index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: where the pipeline does not fetch, the block
    index has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: where the pipeline does not fetch, the block
    index has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: where the pipeline does not fetch, the block
    index has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 x 512 block (the activation block and each of the three results). -/
abbrev r0_x : Rect S1024x512 := Rect.unit (s := S1024x512) ![0, 0] S1024x512.size inb_S1024x512_S1024x512_0_0
/-- The whole 512 x 512 weight matrix. -/
abbrev r0_w : Rect S512x512 := Rect.unit (s := S512x512) ![0, 0] S512x512.size inb_S512x512_S512x512_0_0

/-! ## What the body leaves in each output window's buffer -/

/-- Window 4's staging buffer after the body: its one store, of the activation block times the first weight matrix. -/
def out0_4 (x : Vec F S1024x512 .f32) (w : Vec F S512x512 .bf16) : Vec F S1024x512 .bf16 :=
  View.canon [⟨r0_x, k0_pay2 (View.ld x r0_x) (View.ld w r0_w)⟩]
/-- Window 5's staging buffer after the body: its one store, of the activation block times the second weight matrix. -/
def out0_5 (x : Vec F S1024x512 .f32) (w : Vec F S512x512 .bf16) : Vec F S1024x512 .bf16 :=
  View.canon [⟨r0_x, k0_pay3 (View.ld x r0_x) (View.ld w r0_w)⟩]
/-- Window 6's staging buffer after the body: its one store, of the activation block times the third weight matrix. -/
def out0_6 (x : Vec F S1024x512 .f32) (w : Vec F S512x512 .bf16) : Vec F S1024x512 .bf16 :=
  View.canon [⟨r0_x, k0_pay4 (View.ld x r0_x) (View.ld w r0_w)⟩]

/-- The one store of each output is of the whole buffer, so it covers it. -/
theorem cover0_out (p0 : Vec F S1024x512 .bf16) (y : S1024x512.Idx) :
    ∃ pc ∈ ([⟨r0_x, p0⟩] : List (View.Piece (Elt F) S1024x512 .bf16)), y ∈ pc.1.set :=
  View.cover_of_tiled [⟨r0_x, p0⟩] S1024x512.size (by rfl) y

/-! ## The body's triple -/

set_option maxHeartbeats 1000000 in
/-- The kernel body on whole staging memrefs, the inputs' at read contents `x`, `w1`, `w2`, `w3` and the outputs' at
    anything, runs to the continuation holding the inputs' as they were and each output's at `out0_W` of the inputs'.
    Each output buffer is read once before it is stored into; what is read there is not used. -/
theorem sound_kernel0 (c : Dev nD) (E : Set ℕ) (i : grid0.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x : Vec F S1024x512 .f32) (w1 w2 w3 : Vec F S512x512 .bf16) (K : PUnit → sProp 𝕄) :
    iprop(owns (c : Thread nD τ) arg1 fullShare x ∗ owns (c : Thread nD τ) arg2 fullShare w1 ∗ owns (c : Thread nD τ) arg3 fullShare w2
        ∗ owns (c : Thread nD τ) arg4 fullShare w3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w1 ∗ owns (c : Thread nD τ) arg3 fullShare w2
            ∗ owns (c : Thread nD τ) arg4 fullShare w3
            ∗ owns (c : Thread nD τ) arg5 fullShare (out0_4 x w1) ∗ owns (c : Thread nD τ) arg6 fullShare (out0_5 x w2)
            ∗ owns (c : Thread nD τ) arg7 fullShare (out0_6 x w3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of the projection's pipeline on core `c`: the arrays as the region finds them (`V`); after the
    body at point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the attention block: the flash kernel over (batch, head pair, query tile).

  One grid point handles a tile of 1024 query rows for two heads that share a 128-lane column block. For each head the
  kernel keeps three running quantities in scratch buffers: the running row maximum m, the running denominator l and
  the running numerator a (an un-normalised weighted sum of value rows). They start at minus infinity, 0, 0; each of
  the eight trips reads the next 512 key and value rows and replaces (m, l, a) by
  (m', exp(m - m') l + sum exp(s - m'), exp(m - m') a + sum exp(s - m') v) with m' = max(m, max s); after the last trip
  the tile's output is a (1 / l), head 0 in lanes 0 to 63 and head 1 in lanes 64 to 127.

  This module states that recurrence over the kernel's own named payloads (flashStep, stateAt), says what the output
  block holds (outTile), proves the body's triple on whole staging memrefs and scratch buffers (sound_flash: every store
  into a scratch buffer is of the whole buffer, so each buffer reads back as the last value stored), and packages the
  pipeline's proof data and body obligation (dat1, body_obligation1).
-/
import proofs.«129024_j24481313587606_2_alg».proof.Proof.Gen.Kernel.Launch
import proofs.«129024_j24481313587606_2_alg».proof.Proof.Gen.Kernel.Skeleton
import proofs.«129024_j24481313587606_2_alg».proof.Proof.Gen.Kernel.Points
import proofs.«129024_j24481313587606_2_alg».proof.Proof.Gen.Kernel.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The running state of the online softmax -/

/-- The six running quantities: per head the row maximum, the denominator and the numerator. -/
structure FlashState (F : FTy → Type) where
  m0 : Vec F S1024x1 .f32
  l0 : Vec F S1024x1 .f32
  a0 : Vec F S1024x64 .f32
  m1 : Vec F S1024x1 .f32
  l1 : Vec F S1024x1 .f32
  a1 : Vec F S1024x64 .f32

/-- Before the first trip: maxima at minus infinity, denominators and numerators at zero. -/
def flashInit : FlashState F :=
  ⟨k1_pay24 (F := F), k1_pay25 (F := F), k1_pay26 (F := F), k1_pay27 (F := F), k1_pay28 (F := F), k1_pay29 (F := F)⟩

/-- The rows of the key (or value) tile that trip k reads: 512 rows from row 512 k, all 128 lanes. -/
abbrev chunkRect (k : Fin k1_t1_loop.trips) : Rect S4096x128 :=
  Rect.unit (s := S4096x128) (k1_off1 k) S512x128.size (k1_off1_inb k)

/-- One trip: from the two heads' query tiles q0 and q1, the trip's key rows kc and value rows vc (both heads side by
    side), the state after the trip. -/
def flashStep (q0 q1 : FVec F S1024x64 .bf16) (kc vc : Vec F S512x128 .bf16) (s : FlashState F) : FlashState F where
  l0 := k1_pay14 q0 kc s.m0 s.m0 s.l0
  a0 := k1_pay16 (k1_pay8 vc) (k1_pay13 q0 kc s.m0) (k1_pay15 q0 kc s.m0 s.m0 s.a0)
  m0 := k1_pay17 (k1_pay11 q0 kc s.m0)
  l1 := k1_pay22 q1 (k1_pay7 kc) s.m1 s.m1 s.l1
  a1 := k1_pay1 (k1_pay23 q1 (k1_pay7 kc) (k1_pay9 vc) s.m1 s.m1 s.a1)
  m1 := k1_pay2 (k1_pay19 q1 (k1_pay7 kc) s.m1)

/-- The state before trip n (after n trips), for the heads' query tiles and the key and value tiles kk, vv. -/
def stateAt (q0 q1 : FVec F S1024x64 .bf16) (kk vv : Vec F S4096x128 .bf16) : ℕ → FlashState F
  | 0 => flashInit
  | n + 1 => if h : n < k1_t1_loop.trips then
      flashStep q0 q1 (View.ld kk (chunkRect ⟨n, h⟩)) (View.ld vv (chunkRect ⟨n, h⟩)) (stateAt q0 q1 kk vv n)
    else stateAt q0 q1 kk vv n

theorem stateAt_succ (q0 q1 : FVec F S1024x64 .bf16) (kk vv : Vec F S4096x128 .bf16) (k : Fin k1_t1_loop.trips) :
    stateAt q0 q1 kk vv (k.val + 1)
      = flashStep q0 q1 (View.ld kk (chunkRect k)) (View.ld vv (chunkRect k)) (stateAt q0 q1 kk vv k.val) := by
  rw [stateAt]; exact dif_pos k.isLt

/-! ## What the body leaves in the output block -/

abbrev rOutLo : Rect S1024x128 := Rect.unit (s := S1024x128) ![0, 0] S1024x64.size inb_S1024x128_S1024x64_0_0
abbrev rOutHi : Rect S1024x128 := Rect.unit (s := S1024x128) ![0, 64] S1024x64.size inb_S1024x128_S1024x64_0_64

/-- The state after the last trip, from the whole query tile (head 0 in its lanes 0 to 63, head 1 in lanes 64 to 127). -/
def finalState (q : Vec F S1024x128 .bf16) (kk vv : Vec F S4096x128 .bf16) : FlashState F :=
  stateAt (k1_pay31 q) (k1_pay32 q) kk vv k1_t1_loop.trips

/-- The output block: head 0's normalised numerator in lanes 0 to 63, head 1's in lanes 64 to 127 (the later store first). -/
def outTile (q : Vec F S1024x128 .bf16) (kk vv : Vec F S4096x128 .bf16) : Vec F S1024x128 .bf16 :=
  View.canon [⟨rOutHi, k1_pay4 (finalState q kk vv).a1 (finalState q kk vv).l1⟩,
    ⟨rOutLo, k1_pay3 (finalState q kk vv).a0 (finalState q kk vv).l0⟩]

/-- The two half-width stores tile the block. -/
theorem cover_out (p0 p1 : Vec F S1024x64 .bf16) (y : S1024x128.Idx) :
    ∃ pc ∈ ([⟨rOutHi, p1⟩, ⟨rOutLo, p0⟩] : List (View.Piece (Elt F) S1024x128 .bf16)), y ∈ pc.1.set :=
  View.cover_of_tiled [⟨rOutHi, p1⟩, ⟨rOutLo, p0⟩] S1024x64.size (by rfl) y

/-! ## A buffer stored whole, read whole -/

theorem zero2 : (![0, 0] : Fin 2 → ℕ) = fun _ => 0 := funext fun a => by fin_cases a <;> rfl

section WholeBuffer
variable {sig' : RefSig} {κ' : Kind} {sp' : Space} {S : Shape} {e : EltTy} {Val : EltTy → Type} [∀ e, Nonempty (Val e)]

/-- After one store through the rectangle that is the whole buffer, the buffer reads as the stored value. -/
theorem read_store_whole (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton.mpr rfl, View.mem_set_unit_zero h inb y⟩)).trans
    (View.canon_unit_zero h inb w)

end WholeBuffer

/-- A load through the whole-buffer rectangle of a column reads the column. -/
theorem ld_whole_col {Val : EltTy → Type} {e : EltTy} (X : S1024x1.Idx → Val e) :
    View.ld X (Rect.unit (s := S1024x1) ![0, 0] S1024x1.size inb_S1024x1_S1024x1_0_0) = X :=
  View.ld_unit_zero (S := S1024x1) zero2 _ X

/-- A load through the whole-buffer rectangle of a 64-lane tile reads the tile. -/
theorem ld_whole_tile {Val : EltTy → Type} {e : EltTy} (X : S1024x64.Idx → Val e) :
    View.ld X (Rect.unit (s := S1024x64) ![0, 0] S1024x64.size inb_S1024x64_S1024x64_0_0) = X :=
  View.ld_unit_zero (S := S1024x64) zero2 _ X

theorem read_store_col [∀ e, Nonempty (Elt F e)] {sig' : RefSig} {κ' : Kind} {sp' : Space} {e : EltTy} (v : View sig' κ' sp' S1024x1 e) (f : v.ty.Contents (Elt F)) (w : S1024x1.Idx → Elt F e) :
    v.read (Elt F) (v.writes (Elt F) f [(⟨Rect.unit (s := S1024x1) ![0, 0] S1024x1.size inb_S1024x1_S1024x1_0_0, w⟩ : View.Piece (Elt F) S1024x1 e)]) = w :=
  read_store_whole (S := S1024x1) v f zero2 _ w

theorem read_store_tile [∀ e, Nonempty (Elt F e)] {sig' : RefSig} {κ' : Kind} {sp' : Space} {e : EltTy} (v : View sig' κ' sp' S1024x64 e) (f : v.ty.Contents (Elt F)) (w : S1024x64.Idx → Elt F e) :
    v.read (Elt F) (v.writes (Elt F) f [(⟨Rect.unit (s := S1024x64) ![0, 0] S1024x64.size inb_S1024x64_S1024x64_0_0, w⟩ : View.Piece (Elt F) S1024x64 e)]) = w :=
  read_store_whole (S := S1024x64) v f zero2 _ w

/-- The same loads with the sizes spelt as numerals. -/
theorem ld_whole_col' {Val : EltTy → Type} {e : EltTy} (X : S1024x1.Idx → Val e)
    (inb : ∀ a, (![0, 0] : Fin S1024x1.rank → ℕ) a + (![1024, 1] : Fin S1024x1.rank → ℕ) a ≤ S1024x1.size a) :
    View.ld X (Rect.unit (s := S1024x1) ![0, 0] ![1024, 1] inb) = X :=
  View.ld_unit_zero (S := S1024x1) zero2 inb X

theorem ld_whole_tile' {Val : EltTy → Type} {e : EltTy} (X : S1024x64.Idx → Val e)
    (inb : ∀ a, (![0, 0] : Fin S1024x64.rank → ℕ) a + (![1024, 64] : Fin S1024x64.rank → ℕ) a ≤ S1024x64.size a) :
    View.ld X (Rect.unit (s := S1024x64) ![0, 0] ![1024, 64] inb) = X :=
  View.ld_unit_zero (S := S1024x64) zero2 inb X

/-- A load through the whole-buffer rectangle of the query tile reads the tile. -/
theorem ld_whole_q {Val : EltTy → Type} {e : EltTy} (X : S1024x128.Idx → Val e) :
    View.ld X (Rect.unit (s := S1024x128) ![0, 0] S1024x128.size inb_S1024x128_S1024x128_0_0) = X :=
  View.ld_unit_zero (S := S1024x128) zero2 _ X

theorem ld_whole_q' {Val : EltTy → Type} {e : EltTy} (X : S1024x128.Idx → Val e)
    (inb : ∀ a, (![0, 0] : Fin S1024x128.rank → ℕ) a + (![1024, 128] : Fin S1024x128.rank → ℕ) a ≤ S1024x128.size a) :
    View.ld X (Rect.unit (s := S1024x128) ![0, 0] ![1024, 128] inb) = X :=
  View.ld_unit_zero (S := S1024x128) zero2 inb X

/-! ## The body's triple -/

/-- The loop's invariant before trip n: the three input tiles as read, the output block at anything, the six
    scratch buffers at the state after n trips. -/
def flashInv (c : Dev nD)
    (arg3 : Memref sig .tc .vmem S1024x128 .bf16) (arg4 : Memref sig .tc .vmem S4096x128 .bf16)
    (arg5 : Memref sig .tc .vmem S4096x128 .bf16) (arg6 : Memref sig .tc .vmem S1024x128 .bf16)
    (arg7 : Memref sig .tc .vmem S1024x1 .f32) (arg8 : Memref sig .tc .vmem S1024x1 .f32)
    (arg9 : Memref sig .tc .vmem S1024x64 .f32) (arg10 : Memref sig .tc .vmem S1024x1 .f32)
    (arg11 : Memref sig .tc .vmem S1024x1 .f32) (arg12 : Memref sig .tc .vmem S1024x64 .f32)
    (q : Vec F S1024x128 .bf16) (q0 q1 : FVec F S1024x64 .bf16) (kk vv : Vec F S4096x128 .bf16) (n : ℕ) (_u : Unit) : sProp 𝕄 :=
  iprop(owns (c : Thread nD τ) arg3 fullShare q ∗ owns (c : Thread nD τ) arg4 fullShare kk ∗ owns (c : Thread nD τ) arg5 fullShare vv
    ∗ (∃ d, owns (c : Thread nD τ) arg6 fullShare d)
    ∗ owns (c : Thread nD τ) arg7 fullShare (stateAt q0 q1 kk vv n).m0
    ∗ owns (c : Thread nD τ) arg8 fullShare (stateAt q0 q1 kk vv n).l0
    ∗ owns (c : Thread nD τ) arg9 fullShare (stateAt q0 q1 kk vv n).a0
    ∗ owns (c : Thread nD τ) arg10 fullShare (stateAt q0 q1 kk vv n).m1
    ∗ owns (c : Thread nD τ) arg11 fullShare (stateAt q0 q1 kk vv n).l1
    ∗ owns (c : Thread nD τ) arg12 fullShare (stateAt q0 q1 kk vv n).a1)

set_option maxHeartbeats 4000000 in
/-- One trip: from the invariant before trip k the loop's region runs to the invariant before trip k + 1. -/
theorem flash_trip (c : Dev nD) (E : Set ℕ) (i : grid1.Coords)
    (arg3 : Memref sig .tc .vmem S1024x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S1024x128 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (arg10 : Memref sig .tc .vmem S1024x1 .f32) (harg10 : arg10.IsWhole)
    (arg11 : Memref sig .tc .vmem S1024x1 .f32) (harg11 : arg11.IsWhole) (arg12 : Memref sig .tc .vmem S1024x64 .f32) (harg12 : arg12.IsWhole)
    (q : Vec F S1024x128 .bf16) (q0 q1 : FVec F S1024x64 .bf16) (kk vv : Vec F S4096x128 .bf16) (k : Fin k1_t1_loop.trips) (u : Unit) :
    flashInv (F := F) c arg3 arg4 arg5 arg6 arg7 arg8 arg9 arg10 arg11 arg12 q q0 q1 kk vv k.val u
      ⊢ wp frame (wpE (defs₀ (F := F)) Variants.none (c : Thread nD τ) none) E
          (k1_t1_body (F := F) i arg3 harg3 arg4 harg4 arg5 harg5 arg6 harg6 arg7 harg7 arg8 harg8 arg9 harg9 arg10 harg10 arg11 harg11 arg12 harg12 q0 q1 0#32 k u)
          (flashInv (F := F) c arg3 arg4 arg5 arg6 arg7 arg8 arg9 arg10 arg11 arg12 q q0 q1 kk vv (k.val + 1)) := by
  unfold flashInv k1_t1_body
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _, f6; isplitr; · ipureintro; rfl
    iexact H6
  isplitl [H7]
  · iexists _; isplitr; swap; · iexact H7
    ipureintro
    rw [read_store_col, stateAt_succ]
    (try sl_unfold_run_names)
    simp only [View.readAt_eq_ld, hf4, hf5, hf7, ld_whole_col, ld_whole_tile, ld_whole_col', ld_whole_tile']
    rfl
  isplitl [H8]
  · iexists _; isplitr; swap; · iexact H8
    ipureintro
    rw [read_store_col, stateAt_succ]
    (try sl_unfold_run_names)
    simp only [View.readAt_eq_ld, hf4, hf5, hf7, hf8, ld_whole_col, ld_whole_tile, ld_whole_col', ld_whole_tile']
    rfl
  isplitl [H9]
  · iexists _; isplitr; swap; · iexact H9
    ipureintro
    rw [read_store_tile, stateAt_succ]
    (try sl_unfold_run_names)
    simp only [View.readAt_eq_ld, hf4, hf5, hf7, hf9, ld_whole_col, ld_whole_tile, ld_whole_col', ld_whole_tile']
    rfl
  isplitl [H10]
  · iexists _; isplitr; swap; · iexact H10
    ipureintro
    rw [read_store_col, stateAt_succ]
    (try sl_unfold_run_names)
    simp only [View.readAt_eq_ld, hf4, hf5, hf10, ld_whole_col, ld_whole_tile, ld_whole_col', ld_whole_tile']
    rfl
  isplitl [H11]
  · iexists _; isplitr; swap; · iexact H11
    ipureintro
    rw [read_store_col, stateAt_succ]
    (try sl_unfold_run_names)
    simp only [View.readAt_eq_ld, hf4, hf5, hf10, hf11, ld_whole_col, ld_whole_tile, ld_whole_col', ld_whole_tile']
    rfl
  · iexists _; isplitr; swap; · iexact H12
    ipureintro
    rw [read_store_tile, stateAt_succ]
    (try sl_unfold_run_names)
    simp only [View.readAt_eq_ld, hf4, hf5, hf10, hf12, ld_whole_col, ld_whole_tile, ld_whole_col', ld_whole_tile']
    rfl

set_option maxHeartbeats 8000000 in
/-- The body on whole staging memrefs and scratch: the query, key and value tiles at read contents, the output block and
    the six scratch buffers at anything; it runs to the continuation holding the inputs as they were, the output block at
    outTile of them, the scratch at some contents. -/
theorem sound_flash (c : Dev nD) (E : Set ℕ) (i : grid1.Coords)
    (arg3 : Memref sig .tc .vmem S1024x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S1024x128 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (arg10 : Memref sig .tc .vmem S1024x1 .f32) (harg10 : arg10.IsWhole)
    (arg11 : Memref sig .tc .vmem S1024x1 .f32) (harg11 : arg11.IsWhole) (arg12 : Memref sig .tc .vmem S1024x64 .f32) (harg12 : arg12.IsWhole)
    (q : Vec F S1024x128 .bf16) (kk vv : Vec F S4096x128 .bf16) (K : PUnit → sProp 𝕄) :
    iprop(owns (c : Thread nD τ) arg3 fullShare q ∗ owns (c : Thread nD τ) arg4 fullShare kk ∗ owns (c : Thread nD τ) arg5 fullShare vv
        ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare q ∗ owns (c : Thread nD τ) arg4 fullShare kk ∗ owns (c : Thread nD τ) arg5 fullShare vv
            ∗ owns (c : Thread nD τ) arg6 fullShare (outTile q kk vv)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc1__flash_pair_kernel (F := F) i arg3 harg3 arg4 harg4 arg5 harg5 arg6 harg6 arg7 harg7 arg8 harg8 arg9 harg9 arg10 harg10 arg11 harg11 arg12 harg12) K := by
  simp only [cc1__flash_pair_kernel_eq_skeleton]; unfold cc1__flash_pair_kernel_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec
  sl_for (flashInv (F := F) c arg3 arg4 arg5 arg6 arg7 arg8 arg9 arg10 arg11 arg12 q (k1_pay31 (View.readAt (Elt F) arg3.view (Rect.unit (s := S1024x128) ![0, 0] S1024x128.size inb_S1024x128_S1024x128_0_0).toLoadRect f3)) (k1_pay32 (View.readAt (Elt F) arg3.view (Rect.unit (s := S1024x128) ![0, 0] S1024x128.size inb_S1024x128_S1024x128_0_0).toLoadRect f3)) kk vv) $$ [H3 H4 H5 H6 H7 H8 H9 H10 H11 H12]
  · intro k acc
    exact flash_trip c E i arg3 harg3 arg4 harg4 arg5 harg5 arg6 harg6 arg7 harg7 arg8 harg8 arg9 harg9 arg10 harg10 arg11 harg11 arg12 harg12 q _ _ kk vv k acc
  · unfold flashInv owns
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists _, f6; isplitr; · ipureintro; rfl
      iexact H6
    isplitl [H7]
    · iexists _; isplitr; swap; · iexact H7
      ipureintro
      (try sl_unfold_run_names)
      rw [read_store_col]
      rfl
    isplitl [H8]
    · iexists _; isplitr; swap; · iexact H8
      ipureintro
      (try sl_unfold_run_names)
      rw [read_store_col]
      rfl
    isplitl [H9]
    · iexists _; isplitr; swap; · iexact H9
      ipureintro
      (try sl_unfold_run_names)
      rw [read_store_tile]
      rfl
    isplitl [H10]
    · iexists _; isplitr; swap; · iexact H10
      ipureintro
      (try sl_unfold_run_names)
      rw [read_store_col]
      rfl
    isplitl [H11]
    · iexists _; isplitr; swap; · iexact H11
      ipureintro
      (try sl_unfold_run_names)
      rw [read_store_col]
      rfl
    · iexists _; isplitr; swap; · iexact H12
      ipureintro
      (try sl_unfold_run_names)
      rw [read_store_tile]
      rfl
  · iintro %acc HI
    unfold flashInv owns
    icases HI with ⟨⟨%g3, %hg3, H3⟩, ⟨%g4, %hg4, H4⟩, ⟨%g5, %hg5, H5⟩, ⟨%e6, %g6, -, H6⟩, ⟨%g7, %hg7, H7⟩, ⟨%g8, %hg8, H8⟩, ⟨%g9, %hg9, H9⟩, ⟨%g10, %hg10, H10⟩, ⟨%g11, %hg11, H11⟩, ⟨%g12, %hg12, H12⟩⟩
    sl_exec
    sl_step
    iapply Hk
    isplitl [H3]
    · iexists g3; isplitr; · ipureintro; exact hg3
      iexact H3
    isplitl [H4]
    · iexists g4; isplitr; · ipureintro; exact hg4
      iexact H4
    isplitl [H5]
    · iexists g5; isplitr; · ipureintro; exact hg5
      iexact H5
    isplitl [H6]
    · iexists _; isplitr; swap; · iexact H6
      ipureintro
      rw [View.read_writes_eq_canon _ _ _ (cover_out _ _)]
      unfold outTile finalState
      (try sl_unfold_run_names)
      simp only [View.readAt_eq_ld, hf3, hg8, hg9, hg11, hg12, ld_whole_col, ld_whole_tile, ld_whole_col', ld_whole_tile', ld_whole_q, ld_whole_q']
      try rfl
    isplitl [H7]
    · iexists _, g7; isplitr; · ipureintro; rfl
      iexact H7
    isplitl [H8]
    · iexists _, g8; isplitr; · ipureintro; rfl
      iexact H8
    isplitl [H9]
    · iexists _, g9; isplitr; · ipureintro; rfl
      iexact H9
    isplitl [H10]
    · iexists _, g10; isplitr; · ipureintro; rfl
      iexact H10
    isplitl [H11]
    · iexists _, g11; isplitr; · ipureintro; rfl
      iexact H11
    · iexists _, g12; isplitr; · ipureintro; rfl
      iexact H12

/-! # The pipeline's proof data, at the entry contents V -/

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch, the block index has not moved and the buffer still holds the previous point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the pipeline
    does not fetch, the block index has not moved and the buffer still holds the previous point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the pipeline
    does not fetch, the block index has not moved and the buffer still holds the previous point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core c: the arrays as the region finds them; after the body at point t each input's
    buffer at its block and the output's at outTile of the three input blocks; the invariant the scoped rest (the six
    scratch buffers among it, at anything between points) and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTile (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outTile (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The scratch buffers out of the invariant and back -/

/-- The invariant with the six scratch operands as memrefs owned at some contents, the other scoped buffers unopened. -/
theorem PhiA1_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d)
            ∗ (∃ d, owns (c : Thread nD τ) (Memref.whole cc1_scratch2) fullShare d) ∗ (∃ d, owns (c : Thread nD τ) (Memref.whole cc1_scratch3) fullShare d)
            ∗ (∃ d, owns (c : Thread nD τ) (Memref.whole cc1_scratch4) fullShare d) ∗ (∃ d, owns (c : Thread nD τ) (Memref.whole cc1_scratch5) fullShare d))
          ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5])
        ∗ (∃ r, prngReg c r)) := by
  unfold Pipeline.ΦA; rw [scopedRest1_split]; simp only [owns_whole]; try rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' memrefs hold their blocks, the six scratch buffers come out of the invariant at
    some contents, the body's triple applies, and the scratch buffers go back into the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, after1_3, PhiA1_eq]
  iintro ⟨⟨⟨⟨S0, S1, S2, S3, S4, S5⟩, Hrest⟩, Hg⟩, Ho, ⟨%d0, H0⟩, ⟨%d1, H1⟩, ⟨%d2, H2⟩, ⟨%d3, H3⟩⟩
  iapply (sound_flash c Set.univ _ _ _ _ _ _ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hrest Hg]
  · isplitl [S0 S1 S2 S3 S4 S5 Hrest]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hrest
    iexact Hg
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«129024_j24481313587606_2_alg».proof.Proof.Gen.Kernel.Launch
import proofs.«129024_j24481313587606_2_alg».proof.Proof.Gen.Kernel.Skeleton
import proofs.«129024_j24481313587606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 x 512: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The output projection, the residual and the layer normalisation, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the pipeline does not fetch, the block
    index has not moved, and the buffer still holds the previous point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: where the pipeline does not fetch, the block
    index has not moved, and the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: where the pipeline does not fetch, the block
    index has not moved, and the buffer still holds the previous point's block, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: where the pipeline does not fetch, the block
    index has not moved, and the buffer still holds the previous point's block, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: where the pipeline does not fetch, the block
    index has not moved, and the buffer still holds the previous point's block, which is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024 x 512 block (the attention block, the residual block and the result). -/
abbrev r2_x : Rect S1024x512 := Rect.unit (s := S1024x512) ![0, 0] S1024x512.size inb_S1024x512_S1024x512_0_0
/-- The whole 512 x 512 weight matrix. -/
abbrev r2_w : Rect S512x512 := Rect.unit (s := S512x512) ![0, 0] S512x512.size inb_S512x512_S512x512_0_0
/-- The whole 1 x 512 row (the scale and the shift). -/
abbrev r2_v : Rect S1x512 := Rect.unit (s := S1x512) ![0, 0] S1x512.size inb_S1x512_S1x512_0_0

/-! ## What the body leaves in the output window's buffer -/

/-- Window 5's staging buffer after the body: its one store, of the normalised rows of the attention block times the
    weight matrix plus the residual block, scaled and shifted. -/
def out2_5 (ctx : Vec F S1024x512 .bf16) (x : Vec F S1024x512 .f32) (wo : Vec F S512x512 .bf16) (g bt : Vec F S1x512 .f32) : Vec F S1024x512 .f32 :=
  View.canon [⟨r2_x, k2_pay1 (View.ld ctx r2_x) (View.ld wo r2_w) (View.ld x r2_x) (View.ld g r2_v) (View.ld bt r2_v)⟩]

/-- The one store is of the whole buffer, so it covers it. -/
theorem cover2_5 (p0 : Vec F S1024x512 .f32) (y : S1024x512.Idx) :
    ∃ pc ∈ ([⟨r2_x, p0⟩] : List (View.Piece (Elt F) S1024x512 .f32)), y ∈ pc.1.set :=
  View.cover_of_tiled [⟨r2_x, p0⟩] S1024x512.size (by rfl) y

/-! ## The body's triple -/

set_option maxHeartbeats 1000000 in
/-- The kernel body on whole staging memrefs, the inputs' at read contents `ctx`, `x`, `wo`, `g`, `bt` and the output's at
    anything, runs to the continuation holding the inputs' as they were and the output's at `out2_5` of the inputs'.
    The output buffer is read once before it is stored into; what is read there is not used. -/
theorem sound_kernel2 (c : Dev nD) (E : Set ℕ) (i : grid2.Coords)
    (arg1 : Memref sig .tc .vmem S1024x512 .bf16) (harg1 : arg1.IsWhole) (arg2 : Memref sig .tc .vmem S1024x512 .f32) (harg2 : arg2.IsWhole)
    (arg3 : Memref sig .tc .vmem S512x512 .bf16) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1024x512 .f32) (harg6 : arg6.IsWhole)
    (ctx : Vec F S1024x512 .bf16) (x : Vec F S1024x512 .f32) (wo : Vec F S512x512 .bf16) (g bt : Vec F S1x512 .f32) (K : PUnit → sProp 𝕄) :
    iprop(owns (c : Thread nD τ) arg1 fullShare ctx ∗ owns (c : Thread nD τ) arg2 fullShare x ∗ owns (c : Thread nD τ) arg3 fullShare wo
        ∗ owns (c : Thread nD τ) arg4 fullShare g ∗ owns (c : Thread nD τ) arg5 fullShare bt
        ∗ (∃ d, owns (c : Thread nD τ) arg6 fullShare d)
        ∗ (iprop(owns (c : Thread nD τ) arg1 fullShare ctx ∗ owns (c : Thread nD τ) arg2 fullShare x ∗ owns (c : Thread nD τ) arg3 fullShare wo
            ∗ owns (c : Thread nD τ) arg4 fullShare g ∗ owns (c : Thread nD τ) arg5 fullShare bt
            ∗ owns (c : Thread nD τ) arg6 fullShare (out2_5 ctx x wo g bt)) -∗ K ⟨⟩))
      ⊢ wp frame (wpE (defs₀ (F := F)) Variants.none c none) E (cc2__out_ln_kernel i arg1 harg1 arg2 harg2 arg3 harg3 arg4 harg4 arg5 harg5 arg6 harg6) K := by
  simp only [cc2__out_ln_kernel_eq_skeleton]; unfold cc2__out_ln_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The pipeline's proof data -/

/-- The proof data of this pipeline on core `c`: the arrays as the region finds them (`V`); after the body at point
    `t` each input's buffer at its block and the output's at `out2_5` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Assembly.lean ====
import proofs.«129024_j24481313587606_2_alg».proof.Proof.K.Region0
import proofs.«129024_j24481313587606_2_alg».proof.Proof.K.Region1
import proofs.«129024_j24481313587606_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: six segments from the launch to the return

@main is a stretch of nine host operations, the QKV projection, the attention kernel (entered from what the
projection leaves, no host operation between them), a stretch of two host operations, the output projection with its
normalisation, and a last reshape.

## The buffer contents at each segment boundary: a fold through @main -/

/-- Core `c`'s buffers at launch. -/
abbrev W0 : Dev nD → Valuation τ sig (Elt F) := fun c b => (s₀ m ρ).mem ((c : Dev nD), b)
/-- After the first host stretch (the projection's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the projection's exit contents, which the attention kernel is entered from. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the attention kernel's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (the output projection's entry). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b
/-- At the output projection's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references (the output projection's exit contents). -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host stretch: what the launch reads at the end. -/
abbrev W6 : Dev nD → Valuation τ sig (Elt F) := fun c => StableHlo.after hostOps3 (W5 m ρ c)

/-! ### The arguments end as launched: no host operation writes one and no window stages one, so the fold at an
    argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The QKV projection (pipeline 0) over the thread state: entered from every unscoped buffer at `W1`, left at `W2`. Its arrays are split out of the
    unscoped buffers and put back at the exit contents; the generator register goes into the invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel (pipeline 1) over the thread state: entered from every unscoped buffer at `W2`, left at `W3`. Its arrays are split out of the
    unscoped buffers and put back at the exit contents; the generator register goes into the invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection with its normalisation (pipeline 2) over the thread state: entered from every unscoped buffer at `W4`, left at `W5`. Its arrays are split out of the
    unscoped buffers and put back at the exit contents; the generator register goes into the invariant and comes out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch leaves the last thread state beside the dues (a regrouping). -/
theorem hlast (c : Dev nD) :
    iprop(StableHlo.held (c : Thread nD τ) (Pipeline.ucRefs τ sig) (W6 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of @main on the
    TensorCores terminates, nothing faulting, and every final state holds every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩

end Cert.Kernel.Hand

end
-- ==== Proof.KI.Region0.lean ====
import proofs.«129024_j24481313587606_2_alg».proof.Proof.Gen.KernelIdeal.Launch
import proofs.«129024_j24481313587606_2_alg».proof.Proof.Gen.KernelIdeal.Skeleton
import proofs.«129024_j24481313587606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 x 512: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The QKV projection: one activation block against three weight matrices, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the pipeline does not fetch, the block
    index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: where the pipeline does not fetch, the block
    index has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: where the pipeline does not fetch, the block
    index has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: where the pipeline does not fetch, the block
    index has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 x 512 block (the activation block and each of the three results). -/
abbrev r0_x : Rect S1024x512 := Rect.unit (s := S1024x512) ![0, 0] S1024x512.size inb_S1024x512_S1024x512_0_0
/-- The whole 512 x 512 weight matrix. -/
abbrev r0_w : Rect S512x512 := Rect.unit (s := S512x512) ![0, 0] S512x512.size inb_S512x512_S512x512_0_0

/-! ## What the body leaves in each output window's buffer -/

/-- Window 4's staging buffer after the body: its one store, of the activation block times the first weight matrix. -/
def out0_4 (x : Vec F S1024x512 .f32) (w : Vec F S512x512 .bf16) : Vec F S1024x512 .bf16 :=
  View.canon [⟨r0_x, k0_pay2 (View.ld x r0_x) (View.ld w r0_w)⟩]
/-- Window 5's staging buffer after the body: its one store, of the activation block times the second weight matrix. -/
def out0_5 (x : Vec F S1024x512 .f32) (w : Vec F S512x512 .bf16) : Vec F S1024x512 .bf16 :=
  View.canon [⟨r0_x, k0_pay3 (View.ld x r0_x) (View.ld w r0_w)⟩]
/-- Window 6's staging buffer after the body: its one store, of the activation block times the third weight matrix. -/
def out0_6 (x : Vec F S1024x512 .f32) (w : Vec F S512x512 .bf16) : Vec F S1024x512 .bf16 :=
  View.canon [⟨r0_x, k0_pay4 (View.ld x r0_x) (View.ld w r0_w)⟩]

/-- The one store of each output is of the whole buffer, so it covers it. -/
theorem cover0_out (p0 : Vec F S1024x512 .bf16) (y : S1024x512.Idx) :
    ∃ pc ∈ ([⟨r0_x, p0⟩] : List (View.Piece (Elt F) S1024x512 .bf16)), y ∈ pc.1.set :=
  View.cover_of_tiled [⟨r0_x, p0⟩] S1024x512.size (by rfl) y

/-! ## The body's triple -/

set_option maxHeartbeats 1000000 in
/-- The kernel body on whole staging memrefs, the inputs' at read contents `x`, `w1`, `w2`, `w3` and the outputs' at
    anything, runs to the continuation holding the inputs' as they were and each output's at `out0_W` of the inputs'.
    Each output buffer is read once before it is stored into; what is read there is not used. -/
theorem sound_kernel0 (c : Dev nD) (E : Set ℕ) (i : grid0.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x : Vec F S1024x512 .f32) (w1 w2 w3 : Vec F S512x512 .bf16) (K : PUnit → sProp 𝕄) :
    iprop(owns (c : Thread nD τ) arg1 fullShare x ∗ owns (c : Thread nD τ) arg2 fullShare w1 ∗ owns (c : Thread nD τ) arg3 fullShare w2
        ∗ owns (c : Thread nD τ) arg4 fullShare w3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w1 ∗ owns (c : Thread nD τ) arg3 fullShare w2
            ∗ owns (c : Thread nD τ) arg4 fullShare w3
            ∗ owns (c : Thread nD τ) arg5 fullShare (out0_4 x w1) ∗ owns (c : Thread nD τ) arg6 fullShare (out0_5 x w2)
            ∗ owns (c : Thread nD τ) arg7 fullShare (out0_6 x w3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of the projection's pipeline on core `c`: the arrays as the region finds them (`V`); after the
    body at point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the attention block: the flash kernel over (batch, head pair, query tile).

  One grid point handles a tile of 1024 query rows for two heads that share a 128-lane column block. For each head the
  kernel keeps three running quantities in scratch buffers: the running row maximum m, the running denominator l and
  the running numerator a (an un-normalised weighted sum of value rows). They start at minus infinity, 0, 0; each of
  the eight trips reads the next 512 key and value rows and replaces (m, l, a) by
  (m', exp(m - m') l + sum exp(s - m'), exp(m - m') a + sum exp(s - m') v) with m' = max(m, max s); after the last trip
  the tile's output is a (1 / l), head 0 in lanes 0 to 63 and head 1 in lanes 64 to 127.

  This module states that recurrence over the kernel's own named payloads (flashStep, stateAt), says what the output
  block holds (outTile), proves the body's triple on whole staging memrefs and scratch buffers (sound_flash: every store
  into a scratch buffer is of the whole buffer, so each buffer reads back as the last value stored), and packages the
  pipeline's proof data and body obligation (dat1, body_obligation1).
-/
import proofs.«129024_j24481313587606_2_alg».proof.Proof.Gen.KernelIdeal.Launch
import proofs.«129024_j24481313587606_2_alg».proof.Proof.Gen.KernelIdeal.Skeleton
import proofs.«129024_j24481313587606_2_alg».proof.Proof.Gen.KernelIdeal.Points
import proofs.«129024_j24481313587606_2_alg».proof.Proof.Gen.KernelIdeal.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The running state of the online softmax -/

/-- The six running quantities: per head the row maximum, the denominator and the numerator. -/
structure FlashState (F : FTy → Type) where
  m0 : Vec F S1024x1 .f32
  l0 : Vec F S1024x1 .f32
  a0 : Vec F S1024x64 .f32
  m1 : Vec F S1024x1 .f32
  l1 : Vec F S1024x1 .f32
  a1 : Vec F S1024x64 .f32

/-- Before the first trip: maxima at minus infinity, denominators and numerators at zero. -/
def flashInit : FlashState F :=
  ⟨k1_pay24 (F := F), k1_pay25 (F := F), k1_pay26 (F := F), k1_pay27 (F := F), k1_pay28 (F := F), k1_pay29 (F := F)⟩

/-- The rows of the key (or value) tile that trip k reads: 512 rows from row 512 k, all 128 lanes. -/
abbrev chunkRect (k : Fin k1_t1_loop.trips) : Rect S4096x128 :=
  Rect.unit (s := S4096x128) (k1_off1 k) S512x128.size (k1_off1_inb k)

/-- One trip: from the two heads' query tiles q0 and q1, the trip's key rows kc and value rows vc (both heads side by
    side), the state after the trip. -/
def flashStep (q0 q1 : FVec F S1024x64 .bf16) (kc vc : Vec F S512x128 .bf16) (s : FlashState F) : FlashState F where
  l0 := k1_pay14 q0 kc s.m0 s.m0 s.l0
  a0 := k1_pay16 (k1_pay8 vc) (k1_pay13 q0 kc s.m0) (k1_pay15 q0 kc s.m0 s.m0 s.a0)
  m0 := k1_pay17 (k1_pay11 q0 kc s.m0)
  l1 := k1_pay22 q1 (k1_pay7 kc) s.m1 s.m1 s.l1
  a1 := k1_pay1 (k1_pay23 q1 (k1_pay7 kc) (k1_pay9 vc) s.m1 s.m1 s.a1)
  m1 := k1_pay2 (k1_pay19 q1 (k1_pay7 kc) s.m1)

/-- The state before trip n (after n trips), for the heads' query tiles and the key and value tiles kk, vv. -/
def stateAt (q0 q1 : FVec F S1024x64 .bf16) (kk vv : Vec F S4096x128 .bf16) : ℕ → FlashState F
  | 0 => flashInit
  | n + 1 => if h : n < k1_t1_loop.trips then
      flashStep q0 q1 (View.ld kk (chunkRect ⟨n, h⟩)) (View.ld vv (chunkRect ⟨n, h⟩)) (stateAt q0 q1 kk vv n)
    else stateAt q0 q1 kk vv n

theorem stateAt_succ (q0 q1 : FVec F S1024x64 .bf16) (kk vv : Vec F S4096x128 .bf16) (k : Fin k1_t1_loop.trips) :
    stateAt q0 q1 kk vv (k.val + 1)
      = flashStep q0 q1 (View.ld kk (chunkRect k)) (View.ld vv (chunkRect k)) (stateAt q0 q1 kk vv k.val) := by
  rw [stateAt]; exact dif_pos k.isLt

/-! ## What the body leaves in the output block -/

abbrev rOutLo : Rect S1024x128 := Rect.unit (s := S1024x128) ![0, 0] S1024x64.size inb_S1024x128_S1024x64_0_0
abbrev rOutHi : Rect S1024x128 := Rect.unit (s := S1024x128) ![0, 64] S1024x64.size inb_S1024x128_S1024x64_0_64

/-- The state after the last trip, from the whole query tile (head 0 in its lanes 0 to 63, head 1 in lanes 64 to 127). -/
def finalState (q : Vec F S1024x128 .bf16) (kk vv : Vec F S4096x128 .bf16) : FlashState F :=
  stateAt (k1_pay31 q) (k1_pay32 q) kk vv k1_t1_loop.trips

/-- The output block: head 0's normalised numerator in lanes 0 to 63, head 1's in lanes 64 to 127 (the later store first). -/
def outTile (q : Vec F S1024x128 .bf16) (kk vv : Vec F S4096x128 .bf16) : Vec F S1024x128 .bf16 :=
  View.canon [⟨rOutHi, k1_pay4 (finalState q kk vv).a1 (finalState q kk vv).l1⟩,
    ⟨rOutLo, k1_pay3 (finalState q kk vv).a0 (finalState q kk vv).l0⟩]

/-- The two half-width stores tile the block. -/
theorem cover_out (p0 p1 : Vec F S1024x64 .bf16) (y : S1024x128.Idx) :
    ∃ pc ∈ ([⟨rOutHi, p1⟩, ⟨rOutLo, p0⟩] : List (View.Piece (Elt F) S1024x128 .bf16)), y ∈ pc.1.set :=
  View.cover_of_tiled [⟨rOutHi, p1⟩, ⟨rOutLo, p0⟩] S1024x64.size (by rfl) y

/-! ## A buffer stored whole, read whole -/

theorem zero2 : (![0, 0] : Fin 2 → ℕ) = fun _ => 0 := funext fun a => by fin_cases a <;> rfl

section WholeBuffer
variable {sig' : RefSig} {κ' : Kind} {sp' : Space} {S : Shape} {e : EltTy} {Val : EltTy → Type} [∀ e, Nonempty (Val e)]

/-- After one store through the rectangle that is the whole buffer, the buffer reads as the stored value. -/
theorem read_store_whole (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton.mpr rfl, View.mem_set_unit_zero h inb y⟩)).trans
    (View.canon_unit_zero h inb w)

end WholeBuffer

/-- A load through the whole-buffer rectangle of a column reads the column. -/
theorem ld_whole_col {Val : EltTy → Type} {e : EltTy} (X : S1024x1.Idx → Val e) :
    View.ld X (Rect.unit (s := S1024x1) ![0, 0] S1024x1.size inb_S1024x1_S1024x1_0_0) = X :=
  View.ld_unit_zero (S := S1024x1) zero2 _ X

/-- A load through the whole-buffer rectangle of a 64-lane tile reads the tile. -/
theorem ld_whole_tile {Val : EltTy → Type} {e : EltTy} (X : S1024x64.Idx → Val e) :
    View.ld X (Rect.unit (s := S1024x64) ![0, 0] S1024x64.size inb_S1024x64_S1024x64_0_0) = X :=
  View.ld_unit_zero (S := S1024x64) zero2 _ X

theorem read_store_col [∀ e, Nonempty (Elt F e)] {sig' : RefSig} {κ' : Kind} {sp' : Space} {e : EltTy} (v : View sig' κ' sp' S1024x1 e) (f : v.ty.Contents (Elt F)) (w : S1024x1.Idx → Elt F e) :
    v.read (Elt F) (v.writes (Elt F) f [(⟨Rect.unit (s := S1024x1) ![0, 0] S1024x1.size inb_S1024x1_S1024x1_0_0, w⟩ : View.Piece (Elt F) S1024x1 e)]) = w :=
  read_store_whole (S := S1024x1) v f zero2 _ w

theorem read_store_tile [∀ e, Nonempty (Elt F e)] {sig' : RefSig} {κ' : Kind} {sp' : Space} {e : EltTy} (v : View sig' κ' sp' S1024x64 e) (f : v.ty.Contents (Elt F)) (w : S1024x64.Idx → Elt F e) :
    v.read (Elt F) (v.writes (Elt F) f [(⟨Rect.unit (s := S1024x64) ![0, 0] S1024x64.size inb_S1024x64_S1024x64_0_0, w⟩ : View.Piece (Elt F) S1024x64 e)]) = w :=
  read_store_whole (S := S1024x64) v f zero2 _ w

/-- The same loads with the sizes spelt as numerals. -/
theorem ld_whole_col' {Val : EltTy → Type} {e : EltTy} (X : S1024x1.Idx → Val e)
    (inb : ∀ a, (![0, 0] : Fin S1024x1.rank → ℕ) a + (![1024, 1] : Fin S1024x1.rank → ℕ) a ≤ S1024x1.size a) :
    View.ld X (Rect.unit (s := S1024x1) ![0, 0] ![1024, 1] inb) = X :=
  View.ld_unit_zero (S := S1024x1) zero2 inb X

theorem ld_whole_tile' {Val : EltTy → Type} {e : EltTy} (X : S1024x64.Idx → Val e)
    (inb : ∀ a, (![0, 0] : Fin S1024x64.rank → ℕ) a + (![1024, 64] : Fin S1024x64.rank → ℕ) a ≤ S1024x64.size a) :
    View.ld X (Rect.unit (s := S1024x64) ![0, 0] ![1024, 64] inb) = X :=
  View.ld_unit_zero (S := S1024x64) zero2 inb X

/-- A load through the whole-buffer rectangle of the query tile reads the tile. -/
theorem ld_whole_q {Val : EltTy → Type} {e : EltTy} (X : S1024x128.Idx → Val e) :
    View.ld X (Rect.unit (s := S1024x128) ![0, 0] S1024x128.size inb_S1024x128_S1024x128_0_0) = X :=
  View.ld_unit_zero (S := S1024x128) zero2 _ X

theorem ld_whole_q' {Val : EltTy → Type} {e : EltTy} (X : S1024x128.Idx → Val e)
    (inb : ∀ a, (![0, 0] : Fin S1024x128.rank → ℕ) a + (![1024, 128] : Fin S1024x128.rank → ℕ) a ≤ S1024x128.size a) :
    View.ld X (Rect.unit (s := S1024x128) ![0, 0] ![1024, 128] inb) = X :=
  View.ld_unit_zero (S := S1024x128) zero2 inb X

/-! ## The body's triple -/

/-- The loop's invariant before trip n: the three input tiles as read, the output block at anything, the six
    scratch buffers at the state after n trips. -/
def flashInv (c : Dev nD)
    (arg3 : Memref sig .tc .vmem S1024x128 .bf16) (arg4 : Memref sig .tc .vmem S4096x128 .bf16)
    (arg5 : Memref sig .tc .vmem S4096x128 .bf16) (arg6 : Memref sig .tc .vmem S1024x128 .bf16)
    (arg7 : Memref sig .tc .vmem S1024x1 .f32) (arg8 : Memref sig .tc .vmem S1024x1 .f32)
    (arg9 : Memref sig .tc .vmem S1024x64 .f32) (arg10 : Memref sig .tc .vmem S1024x1 .f32)
    (arg11 : Memref sig .tc .vmem S1024x1 .f32) (arg12 : Memref sig .tc .vmem S1024x64 .f32)
    (q : Vec F S1024x128 .bf16) (q0 q1 : FVec F S1024x64 .bf16) (kk vv : Vec F S4096x128 .bf16) (n : ℕ) (_u : Unit) : sProp 𝕄 :=
  iprop(owns (c : Thread nD τ) arg3 fullShare q ∗ owns (c : Thread nD τ) arg4 fullShare kk ∗ owns (c : Thread nD τ) arg5 fullShare vv
    ∗ (∃ d, owns (c : Thread nD τ) arg6 fullShare d)
    ∗ owns (c : Thread nD τ) arg7 fullShare (stateAt q0 q1 kk vv n).m0
    ∗ owns (c : Thread nD τ) arg8 fullShare (stateAt q0 q1 kk vv n).l0
    ∗ owns (c : Thread nD τ) arg9 fullShare (stateAt q0 q1 kk vv n).a0
    ∗ owns (c : Thread nD τ) arg10 fullShare (stateAt q0 q1 kk vv n).m1
    ∗ owns (c : Thread nD τ) arg11 fullShare (stateAt q0 q1 kk vv n).l1
    ∗ owns (c : Thread nD τ) arg12 fullShare (stateAt q0 q1 kk vv n).a1)

set_option maxHeartbeats 4000000 in
/-- One trip: from the invariant before trip k the loop's region runs to the invariant before trip k + 1. -/
theorem flash_trip (c : Dev nD) (E : Set ℕ) (i : grid1.Coords)
    (arg3 : Memref sig .tc .vmem S1024x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S1024x128 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (arg10 : Memref sig .tc .vmem S1024x1 .f32) (harg10 : arg10.IsWhole)
    (arg11 : Memref sig .tc .vmem S1024x1 .f32) (harg11 : arg11.IsWhole) (arg12 : Memref sig .tc .vmem S1024x64 .f32) (harg12 : arg12.IsWhole)
    (q : Vec F S1024x128 .bf16) (q0 q1 : FVec F S1024x64 .bf16) (kk vv : Vec F S4096x128 .bf16) (k : Fin k1_t1_loop.trips) (u : Unit) :
    flashInv (F := F) c arg3 arg4 arg5 arg6 arg7 arg8 arg9 arg10 arg11 arg12 q q0 q1 kk vv k.val u
      ⊢ wp frame (wpE (defs₀ (F := F)) Variants.none (c : Thread nD τ) none) E
          (k1_t1_body (F := F) i arg3 harg3 arg4 harg4 arg5 harg5 arg6 harg6 arg7 harg7 arg8 harg8 arg9 harg9 arg10 harg10 arg11 harg11 arg12 harg12 q0 q1 0#32 k u)
          (flashInv (F := F) c arg3 arg4 arg5 arg6 arg7 arg8 arg9 arg10 arg11 arg12 q q0 q1 kk vv (k.val + 1)) := by
  unfold flashInv k1_t1_body
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _, f6; isplitr; · ipureintro; rfl
    iexact H6
  isplitl [H7]
  · iexists _; isplitr; swap; · iexact H7
    ipureintro
    rw [read_store_col, stateAt_succ]
    (try sl_unfold_run_names)
    simp only [View.readAt_eq_ld, hf4, hf5, hf7, ld_whole_col, ld_whole_tile, ld_whole_col', ld_whole_tile']
    rfl
  isplitl [H8]
  · iexists _; isplitr; swap; · iexact H8
    ipureintro
    rw [read_store_col, stateAt_succ]
    (try sl_unfold_run_names)
    simp only [View.readAt_eq_ld, hf4, hf5, hf7, hf8, ld_whole_col, ld_whole_tile, ld_whole_col', ld_whole_tile']
    rfl
  isplitl [H9]
  · iexists _; isplitr; swap; · iexact H9
    ipureintro
    rw [read_store_tile, stateAt_succ]
    (try sl_unfold_run_names)
    simp only [View.readAt_eq_ld, hf4, hf5, hf7, hf9, ld_whole_col, ld_whole_tile, ld_whole_col', ld_whole_tile']
    rfl
  isplitl [H10]
  · iexists _; isplitr; swap; · iexact H10
    ipureintro
    rw [read_store_col, stateAt_succ]
    (try sl_unfold_run_names)
    simp only [View.readAt_eq_ld, hf4, hf5, hf10, ld_whole_col, ld_whole_tile, ld_whole_col', ld_whole_tile']
    rfl
  isplitl [H11]
  · iexists _; isplitr; swap; · iexact H11
    ipureintro
    rw [read_store_col, stateAt_succ]
    (try sl_unfold_run_names)
    simp only [View.readAt_eq_ld, hf4, hf5, hf10, hf11, ld_whole_col, ld_whole_tile, ld_whole_col', ld_whole_tile']
    rfl
  · iexists _; isplitr; swap; · iexact H12
    ipureintro
    rw [read_store_tile, stateAt_succ]
    (try sl_unfold_run_names)
    simp only [View.readAt_eq_ld, hf4, hf5, hf10, hf12, ld_whole_col, ld_whole_tile, ld_whole_col', ld_whole_tile']
    rfl

set_option maxHeartbeats 8000000 in
/-- The body on whole staging memrefs and scratch: the query, key and value tiles at read contents, the output block and
    the six scratch buffers at anything; it runs to the continuation holding the inputs as they were, the output block at
    outTile of them, the scratch at some contents. -/
theorem sound_flash (c : Dev nD) (E : Set ℕ) (i : grid1.Coords)
    (arg3 : Memref sig .tc .vmem S1024x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S1024x128 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (arg10 : Memref sig .tc .vmem S1024x1 .f32) (harg10 : arg10.IsWhole)
    (arg11 : Memref sig .tc .vmem S1024x1 .f32) (harg11 : arg11.IsWhole) (arg12 : Memref sig .tc .vmem S1024x64 .f32) (harg12 : arg12.IsWhole)
    (q : Vec F S1024x128 .bf16) (kk vv : Vec F S4096x128 .bf16) (K : PUnit → sProp 𝕄) :
    iprop(owns (c : Thread nD τ) arg3 fullShare q ∗ owns (c : Thread nD τ) arg4 fullShare kk ∗ owns (c : Thread nD τ) arg5 fullShare vv
        ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare q ∗ owns (c : Thread nD τ) arg4 fullShare kk ∗ owns (c : Thread nD τ) arg5 fullShare vv
            ∗ owns (c : Thread nD τ) arg6 fullShare (outTile q kk vv)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc1__flash_pair_kernel (F := F) i arg3 harg3 arg4 harg4 arg5 harg5 arg6 harg6 arg7 harg7 arg8 harg8 arg9 harg9 arg10 harg10 arg11 harg11 arg12 harg12) K := by
  simp only [cc1__flash_pair_kernel_eq_skeleton]; unfold cc1__flash_pair_kernel_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec
  sl_for (flashInv (F := F) c arg3 arg4 arg5 arg6 arg7 arg8 arg9 arg10 arg11 arg12 q (k1_pay31 (View.readAt (Elt F) arg3.view (Rect.unit (s := S1024x128) ![0, 0] S1024x128.size inb_S1024x128_S1024x128_0_0).toLoadRect f3)) (k1_pay32 (View.readAt (Elt F) arg3.view (Rect.unit (s := S1024x128) ![0, 0] S1024x128.size inb_S1024x128_S1024x128_0_0).toLoadRect f3)) kk vv) $$ [H3 H4 H5 H6 H7 H8 H9 H10 H11 H12]
  · intro k acc
    exact flash_trip c E i arg3 harg3 arg4 harg4 arg5 harg5 arg6 harg6 arg7 harg7 arg8 harg8 arg9 harg9 arg10 harg10 arg11 harg11 arg12 harg12 q _ _ kk vv k acc
  · unfold flashInv owns
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists _, f6; isplitr; · ipureintro; rfl
      iexact H6
    isplitl [H7]
    · iexists _; isplitr; swap; · iexact H7
      ipureintro
      (try sl_unfold_run_names)
      rw [read_store_col]
      rfl
    isplitl [H8]
    · iexists _; isplitr; swap; · iexact H8
      ipureintro
      (try sl_unfold_run_names)
      rw [read_store_col]
      rfl
    isplitl [H9]
    · iexists _; isplitr; swap; · iexact H9
      ipureintro
      (try sl_unfold_run_names)
      rw [read_store_tile]
      rfl
    isplitl [H10]
    · iexists _; isplitr; swap; · iexact H10
      ipureintro
      (try sl_unfold_run_names)
      rw [read_store_col]
      rfl
    isplitl [H11]
    · iexists _; isplitr; swap; · iexact H11
      ipureintro
      (try sl_unfold_run_names)
      rw [read_store_col]
      rfl
    · iexists _; isplitr; swap; · iexact H12
      ipureintro
      (try sl_unfold_run_names)
      rw [read_store_tile]
      rfl
  · iintro %acc HI
    unfold flashInv owns
    icases HI with ⟨⟨%g3, %hg3, H3⟩, ⟨%g4, %hg4, H4⟩, ⟨%g5, %hg5, H5⟩, ⟨%e6, %g6, -, H6⟩, ⟨%g7, %hg7, H7⟩, ⟨%g8, %hg8, H8⟩, ⟨%g9, %hg9, H9⟩, ⟨%g10, %hg10, H10⟩, ⟨%g11, %hg11, H11⟩, ⟨%g12, %hg12, H12⟩⟩
    sl_exec
    sl_step
    iapply Hk
    isplitl [H3]
    · iexists g3; isplitr; · ipureintro; exact hg3
      iexact H3
    isplitl [H4]
    · iexists g4; isplitr; · ipureintro; exact hg4
      iexact H4
    isplitl [H5]
    · iexists g5; isplitr; · ipureintro; exact hg5
      iexact H5
    isplitl [H6]
    · iexists _; isplitr; swap; · iexact H6
      ipureintro
      rw [View.read_writes_eq_canon _ _ _ (cover_out _ _)]
      unfold outTile finalState
      (try sl_unfold_run_names)
      simp only [View.readAt_eq_ld, hf3, hg8, hg9, hg11, hg12, ld_whole_col, ld_whole_tile, ld_whole_col', ld_whole_tile', ld_whole_q, ld_whole_q']
      try rfl
    isplitl [H7]
    · iexists _, g7; isplitr; · ipureintro; rfl
      iexact H7
    isplitl [H8]
    · iexists _, g8; isplitr; · ipureintro; rfl
      iexact H8
    isplitl [H9]
    · iexists _, g9; isplitr; · ipureintro; rfl
      iexact H9
    isplitl [H10]
    · iexists _, g10; isplitr; · ipureintro; rfl
      iexact H10
    isplitl [H11]
    · iexists _, g11; isplitr; · ipureintro; rfl
      iexact H11
    · iexists _, g12; isplitr; · ipureintro; rfl
      iexact H12

/-! # The pipeline's proof data, at the entry contents V -/

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch, the block index has not moved and the buffer still holds the previous point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the pipeline
    does not fetch, the block index has not moved and the buffer still holds the previous point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the pipeline
    does not fetch, the block index has not moved and the buffer still holds the previous point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core c: the arrays as the region finds them; after the body at point t each input's
    buffer at its block and the output's at outTile of the three input blocks; the invariant the scoped rest (the six
    scratch buffers among it, at anything between points) and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTile (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outTile (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The scratch buffers out of the invariant and back -/

/-- The invariant with the six scratch operands as memrefs owned at some contents, the other scoped buffers unopened. -/
theorem PhiA1_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d)
            ∗ (∃ d, owns (c : Thread nD τ) (Memref.whole cc1_scratch2) fullShare d) ∗ (∃ d, owns (c : Thread nD τ) (Memref.whole cc1_scratch3) fullShare d)
            ∗ (∃ d, owns (c : Thread nD τ) (Memref.whole cc1_scratch4) fullShare d) ∗ (∃ d, owns (c : Thread nD τ) (Memref.whole cc1_scratch5) fullShare d))
          ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5])
        ∗ (∃ r, prngReg c r)) := by
  unfold Pipeline.ΦA; rw [scopedRest1_split]; simp only [owns_whole]; try rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' memrefs hold their blocks, the six scratch buffers come out of the invariant at
    some contents, the body's triple applies, and the scratch buffers go back into the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, after1_3, PhiA1_eq]
  iintro ⟨⟨⟨⟨S0, S1, S2, S3, S4, S5⟩, Hrest⟩, Hg⟩, Ho, ⟨%d0, H0⟩, ⟨%d1, H1⟩, ⟨%d2, H2⟩, ⟨%d3, H3⟩⟩
  iapply (sound_flash c Set.univ _ _ _ _ _ _ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hrest Hg]
  · isplitl [S0 S1 S2 S3 S4 S5 Hrest]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hrest
    iexact Hg
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«129024_j24481313587606_2_alg».proof.Proof.Gen.KernelIdeal.Launch
import proofs.«129024_j24481313587606_2_alg».proof.Proof.Gen.KernelIdeal.Skeleton
import proofs.«129024_j24481313587606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 x 512: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The output projection, the residual and the layer normalisation, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the pipeline does not fetch, the block
    index has not moved, and the buffer still holds the previous point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: where the pipeline does not fetch, the block
    index has not moved, and the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: where the pipeline does not fetch, the block
    index has not moved, and the buffer still holds the previous point's block, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: where the pipeline does not fetch, the block
    index has not moved, and the buffer still holds the previous point's block, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: where the pipeline does not fetch, the block
    index has not moved, and the buffer still holds the previous point's block, which is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024 x 512 block (the attention block, the residual block and the result). -/
abbrev r2_x : Rect S1024x512 := Rect.unit (s := S1024x512) ![0, 0] S1024x512.size inb_S1024x512_S1024x512_0_0
/-- The whole 512 x 512 weight matrix. -/
abbrev r2_w : Rect S512x512 := Rect.unit (s := S512x512) ![0, 0] S512x512.size inb_S512x512_S512x512_0_0
/-- The whole 1 x 512 row (the scale and the shift). -/
abbrev r2_v : Rect S1x512 := Rect.unit (s := S1x512) ![0, 0] S1x512.size inb_S1x512_S1x512_0_0

/-! ## What the body leaves in the output window's buffer -/

/-- Window 5's staging buffer after the body: its one store, of the normalised rows of the attention block times the
    weight matrix plus the residual block, scaled and shifted. -/
def out2_5 (ctx : Vec F S1024x512 .bf16) (x : Vec F S1024x512 .f32) (wo : Vec F S512x512 .bf16) (g bt : Vec F S1x512 .f32) : Vec F S1024x512 .f32 :=
  View.canon [⟨r2_x, k2_pay1 (View.ld ctx r2_x) (View.ld wo r2_w) (View.ld x r2_x) (View.ld g r2_v) (View.ld bt r2_v)⟩]

/-- The one store is of the whole buffer, so it covers it. -/
theorem cover2_5 (p0 : Vec F S1024x512 .f32) (y : S1024x512.Idx) :
    ∃ pc ∈ ([⟨r2_x, p0⟩] : List (View.Piece (Elt F) S1024x512 .f32)), y ∈ pc.1.set :=
  View.cover_of_tiled [⟨r2_x, p0⟩] S1024x512.size (by rfl) y

/-! ## The body's triple -/

set_option maxHeartbeats 1000000 in
/-- The kernel body on whole staging memrefs, the inputs' at read contents `ctx`, `x`, `wo`, `g`, `bt` and the output's at
    anything, runs to the continuation holding the inputs' as they were and the output's at `out2_5` of the inputs'.
    The output buffer is read once before it is stored into; what is read there is not used. -/
theorem sound_kernel2 (c : Dev nD) (E : Set ℕ) (i : grid2.Coords)
    (arg1 : Memref sig .tc .vmem S1024x512 .bf16) (harg1 : arg1.IsWhole) (arg2 : Memref sig .tc .vmem S1024x512 .f32) (harg2 : arg2.IsWhole)
    (arg3 : Memref sig .tc .vmem S512x512 .bf16) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1024x512 .f32) (harg6 : arg6.IsWhole)
    (ctx : Vec F S1024x512 .bf16) (x : Vec F S1024x512 .f32) (wo : Vec F S512x512 .bf16) (g bt : Vec F S1x512 .f32) (K : PUnit → sProp 𝕄) :
    iprop(owns (c : Thread nD τ) arg1 fullShare ctx ∗ owns (c : Thread nD τ) arg2 fullShare x ∗ owns (c : Thread nD τ) arg3 fullShare wo
        ∗ owns (c : Thread nD τ) arg4 fullShare g ∗ owns (c : Thread nD τ) arg5 fullShare bt
        ∗ (∃ d, owns (c : Thread nD τ) arg6 fullShare d)
        ∗ (iprop(owns (c : Thread nD τ) arg1 fullShare ctx ∗ owns (c : Thread nD τ) arg2 fullShare x ∗ owns (c : Thread nD τ) arg3 fullShare wo
            ∗ owns (c : Thread nD τ) arg4 fullShare g ∗ owns (c : Thread nD τ) arg5 fullShare bt
            ∗ owns (c : Thread nD τ) arg6 fullShare (out2_5 ctx x wo g bt)) -∗ K ⟨⟩))
      ⊢ wp frame (wpE (defs₀ (F := F)) Variants.none c none) E (cc2__out_ln_kernel i arg1 harg1 arg2 harg2 arg3 harg3 arg4 harg4 arg5 harg5 arg6 harg6) K := by
  simp only [cc2__out_ln_kernel_eq_skeleton]; unfold cc2__out_ln_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The pipeline's proof data -/

/-- The proof data of this pipeline on core `c`: the arrays as the region finds them (`V`); after the body at point
    `t` each input's buffer at its block and the output's at `out2_5` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Assembly.lean ====
import proofs.«129024_j24481313587606_2_alg».proof.Proof.KI.Region0
import proofs.«129024_j24481313587606_2_alg».proof.Proof.KI.Region1
import proofs.«129024_j24481313587606_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: six segments from the launch to the return

@main is a stretch of nine host operations, the QKV projection, the attention kernel (entered from what the
projection leaves, no host operation between them), a stretch of two host operations, the output projection with its
normalisation, and a last reshape.

## The buffer contents at each segment boundary: a fold through @main -/

/-- Core `c`'s buffers at launch. -/
abbrev W0 : Dev nD → Valuation τ sig (Elt F) := fun c b => (s₀ m ρ).mem ((c : Dev nD), b)
/-- After the first host stretch (the projection's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the projection's exit contents, which the attention kernel is entered from. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the attention kernel's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (the output projection's entry). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b
/-- At the output projection's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references (the output projection's exit contents). -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host stretch: what the launch reads at the end. -/
abbrev W6 : Dev nD → Valuation τ sig (Elt F) := fun c => StableHlo.after hostOps3 (W5 m ρ c)

/-! ### The arguments end as launched: no host operation writes one and no window stages one, so the fold at an
    argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The QKV projection (pipeline 0) over the thread state: entered from every unscoped buffer at `W1`, left at `W2`. Its arrays are split out of the
    unscoped buffers and put back at the exit contents; the generator register goes into the invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel (pipeline 1) over the thread state: entered from every unscoped buffer at `W2`, left at `W3`. Its arrays are split out of the
    unscoped buffers and put back at the exit contents; the generator register goes into the invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection with its normalisation (pipeline 2) over the thread state: entered from every unscoped buffer at `W4`, left at `W5`. Its arrays are split out of the
    unscoped buffers and put back at the exit contents; the generator register goes into the invariant and comes out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch leaves the last thread state beside the dues (a regrouping). -/
theorem hlast (c : Dev nD) :
    iprop(StableHlo.held (c : Thread nD τ) (Pipeline.ucRefs τ sig) (W6 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of @main on the
    TensorCores terminates, nothing faulting, and every final state holds every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩

/-! ## What each region finds, and the result

Each region's entry contents at the arrays it reads, traced back through the fold: to the host operations' terms of the
launch memory, or to what an earlier region's pipeline left. -/

/-- The projection reads the activations reshaped to rows, -/
theorem V1_main_v0 (c : Dev nD) :
    V1 m ρ c main_v0 = shapeCast S8192x512 (m ((c : Thread nD τ).loc main_arg0) : S2x4096x512.Idx → Elt F .f32) shapeCasts_S2x4096x512_S8192x512 := by
  show StableHlo.after hostOps0 (W0 m ρ c) (Proc.devRef .tc main_v0) = _
  after_results
  rfl
/-- and each weight matrix transposed and rounded to the narrow format. -/
theorem V1_main_v2 (c : Dev nD) :
    V1 m ρ c main_v2 = truncf .bf16 (transpose S512x512 [1, 0] (m ((c : Thread nD τ).loc main_arg1) : S512x512.Idx → Elt F .f32) transposes_S512x512_S512x512_1_0) bitsLt_bf16_f32 := by
  show StableHlo.after hostOps0 (W0 m ρ c) (Proc.devRef .tc main_v2) = _
  after_results
/-- The same for the next weight matrix. -/
theorem V1_main_v4 (c : Dev nD) :
    V1 m ρ c main_v4 = truncf .bf16 (transpose S512x512 [1, 0] (m ((c : Thread nD τ).loc main_arg2) : S512x512.Idx → Elt F .f32) transposes_S512x512_S512x512_1_0) bitsLt_bf16_f32 := by
  show StableHlo.after hostOps0 (W0 m ρ c) (Proc.devRef .tc main_v4) = _
  after_results
/-- The same for the next weight matrix. -/
theorem V1_main_v6 (c : Dev nD) :
    V1 m ρ c main_v6 = truncf .bf16 (transpose S512x512 [1, 0] (m ((c : Thread nD τ).loc main_arg3) : S512x512.Idx → Elt F .f32) transposes_S512x512_S512x512_1_0) bitsLt_bf16_f32 := by
  show StableHlo.after hostOps0 (W0 m ρ c) (Proc.devRef .tc main_v6) = _
  after_results
/-- The same for the next weight matrix. -/
theorem V1_main_v8 (c : Dev nD) :
    V1 m ρ c main_v8 = truncf .bf16 (transpose S512x512 [1, 0] (m ((c : Thread nD τ).loc main_arg4) : S512x512.Idx → Elt F .f32) transposes_S512x512_S512x512_1_0) bitsLt_bf16_f32 := by
  show StableHlo.after hostOps0 (W0 m ρ c) (Proc.devRef .tc main_v8) = _
  after_results
/-- The attention kernel reads what the projection's pipeline left in its output 0. -/
theorem V2_main_v9_0 (c : Dev nD) : V2 m ρ c main_v9_0 = (dat0 (V1 m ρ) c).arrAt 4 cfg0.N := W2_arr m ρ c 4
/-- The attention kernel reads what the projection's pipeline left in its output 1. -/
theorem V2_main_v9_1 (c : Dev nD) : V2 m ρ c main_v9_1 = (dat0 (V1 m ρ) c).arrAt 5 cfg0.N := W2_arr m ρ c 5
/-- The attention kernel reads what the projection's pipeline left in its output 2. -/
theorem V2_main_v9_2 (c : Dev nD) : V2 m ρ c main_v9_2 = (dat0 (V1 m ρ) c).arrAt 6 cfg0.N := W2_arr m ρ c 6
/-- What the attention kernel's pipeline left in its output, -/
theorem V3_main_v10 (c : Dev nD) : V3 m ρ c main_v10 = (dat1 (V2 m ρ) c).arrAt 3 cfg1.N := W3_arr m ρ c 3
/-- which the output projection reads: the second host stretch does not write it. -/
theorem V4_main_v10 (c : Dev nD) : V4 m ρ c main_v10 = (dat1 (V2 m ρ) c).arrAt 3 cfg1.N :=
  calc W4 m ρ c (Proc.devRef .tc main_v10)
    _ = W3 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V2 m ρ) c).arrAt 3 cfg1.N := W3_arr m ρ c 3
/-- The output projection reads the reshaped activations as the first host stretch left them: the projection only read
    them, the attention kernel does not stage them, the second host stretch does not write them. -/
theorem V4_main_v0 (c : Dev nD) : V4 m ρ c main_v0 = V1 m ρ c main_v0 :=
  calc W4 m ρ c (Proc.devRef .tc main_v0)
    _ = W3 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := W3_of_ne m ρ c main_v0 (by decide)
    _ = W1 m ρ c (Proc.devRef .tc main_v0) := (W2_arr m ρ c 0).trans (((dat0 (V1 m ρ) c).arrAt_in 0 rfl _).trans (A_eq0 (V1 m ρ) c 0))
/-- The same for the fourth weight matrix, which no earlier region stages. -/
theorem V4_main_v8 (c : Dev nD) : V4 m ρ c main_v8 = V1 m ρ c main_v8 :=
  calc W4 m ρ c (Proc.devRef .tc main_v8)
    _ = W3 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v8) := W3_of_ne m ρ c main_v8 (by decide)
    _ = W1 m ρ c (Proc.devRef .tc main_v8) := W2_of_ne m ρ c main_v8 (by decide)
/-- Argument 5 is still as launched when the second host stretch reads it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
/-- Argument 6 is still as launched when the second host stretch reads it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
/-- The output projection reads the normalisation's scale as one row. -/
theorem V4_main_v11 (c : Dev nD) :
    V4 m ρ c main_v11 = shapeCast S1x512 (m ((c : Thread nD τ).loc main_arg5) : S512.Idx → Elt F .f32) shapeCasts_S512_S1x512 := by
  show StableHlo.after hostOps2 (W3 m ρ c) (Proc.devRef .tc main_v11) = _
  after_results
  rw [W3_main_arg5 m ρ c]
  rfl
/-- The output projection reads the normalisation's shift as one row. -/
theorem V4_main_v12 (c : Dev nD) :
    V4 m ρ c main_v12 = shapeCast S1x512 (m ((c : Thread nD τ).loc main_arg6) : S512.Idx → Elt F .f32) shapeCasts_S512_S1x512 := by
  show StableHlo.after hostOps2 (W3 m ρ c) (Proc.devRef .tc main_v12) = _
  after_results
  rw [W3_main_arg6 m ρ c]
  rfl
/-- The result: the last boundary's contents at the result are what the output projection's pipeline left in its
    output, reshaped. -/
theorem result_eq (c : Dev nD) :
    W6 m ρ c (Proc.devRef .tc main_v14)
      = shapeCast S2x4096x512 ((dat2 (V4 m ρ) c).arrAt 5 cfg2.N : S8192x512.Idx → Elt F .f32) shapeCasts_S8192x512_S2x4096x512 := by
  show StableHlo.after hostOps3 (W5 m ρ c) (Proc.devRef .tc main_v14) = _
  after_results
  rw [show W5 m ρ c (Proc.devRef .tc main_v13) = (dat2 (V4 m ρ) c).arrAt 5 cfg2.N from W5_arr m ρ c 5]
  rfl

end Cert.KernelIdeal.Hand

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.KI.Value2.lean ====
import proofs.«129024_j24481313587606_2_alg».proof.Proof.KI.Region2
import proofs.«129024_j24481313587606_2_alg».proof.Proof.LibMatmulPlain
import proofs.«129024_j24481313587606_2_alg».proof.Proof.LibRowStat
import proofs.«129024_j24481313587606_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-! # The output projection, the residual and the layer normalisation at the ideal values -/

/-- The offset of every access of the body: the origin. -/
theorem off2_zero : (![0, 0] : Fin 2 → Nat) = fun _ => 0 := funext fun a => by fin_cases a <;> rfl

/-- The body's dimension numbers are the plain ones: rows of the left operand against columns of the right. -/
theorem dot2_plain : dot_S1024x512_S512x512_S1024x512_1_0_0_1_n_n = DotDims.plain 1024 512 512 := rfl

/-- Row `p` of what is normalised: the attention block times the weight matrix, plus the residual block. -/
def ln_y (ctx : Vec Ideal S1024x512 .bf16) (x : Vec Ideal S1024x512 .f32) (wo : Vec Ideal S512x512 .bf16) (p : Fin 1024) (k : Fin 512) : EReal :=
  (∑ c : Fin 512, (ctx (ix2 p c) : EReal) * (wo (ix2 c k) : EReal)) + (x (ix2 p k) : EReal)

/-- The mean of a row: its sum over the 512 lanes divided by the constant 512. -/
def ln_mean (y : Fin 512 → EReal) : EReal := Ideal.div (∑ k : Fin 512, y k) (Ideal.ofBits .f32 0x44000000#32)

/-- The variance of a row: the mean of the squared deviations from the row's mean. -/
def ln_var (y : Fin 512 → EReal) : EReal :=
  Ideal.div (∑ k : Fin 512, (y k - ln_mean y) * (y k - ln_mean y)) (Ideal.ofBits .f32 0x44000000#32)

/-- The reciprocal square root of a vector is taken entry by entry. -/
theorem rsqrt_apply' {s : Shape} {φ : FTy} (a : FVec Ideal s φ) (i : s.Idx) : (rsqrt a : FVec Ideal s φ) i = Ideal.rsqrt (a i) := rfl

/-- The sum of a 1024 x 512 array over its lanes, at row `p`. -/
theorem sum_lanes2 (src : FVec Ideal S1024x512 .f32) (p : Fin 1024) :
    multiReduction .add [1] S1024 src 0x00000000#32 reduces_S1024x512_S1024 (.inl rfl) rfl (ix1 p) = ∑ k : Fin 512, src (ix2 p k) :=
  Cert.LibRowStat.sum_lanes_apply src _ _ _ _ p

/-- The stored payload at `(p, q)`: the deviation of the entry from its row's mean, times the reciprocal square root of
    the row's variance plus the constant, scaled by the entry `q` of the one row `g` and shifted by that of `bt`. -/
theorem k2_pay1_apply (ctx : Vec Ideal S1024x512 .bf16) (wo : Vec Ideal S512x512 .bf16) (x : Vec Ideal S1024x512 .f32)
    (g bt : Vec Ideal S1x512 .f32) (p : Fin 1024) (q : Fin 512) :
    (k2_pay1 (F := Ideal) ctx wo x g bt (ix2 p q) : EReal)
      = (ln_y ctx x wo p q - ln_mean (ln_y ctx x wo p)) * Ideal.rsqrt (ln_var (ln_y ctx x wo p) + Ideal.ofBits .f32 0x3727C5AC#32)
          * (g (ix2 (0 : Fin 1) q) : EReal) + (bt (ix2 (0 : Fin 1) q) : EReal) := by
  unfold k2_pay1
  simp only [shapeCast_self]
  simp only [addf_apply, mulf_apply, subf_apply, divf_apply, rsqrt_apply', broadcast_apply,
    broadcastTo_1b_ab_apply, Cert.LibRowStat.broadcastTo_a1_ab_apply, Cert.LibKeepdims.shapeCast_a_a1_apply,
    dot2_plain, Cert.LibMatmulPlain.matmul_plain_zero_apply]
  rw [sum_lanes2, sum_lanes2]
  simp only [addf_apply, mulf_apply, subf_apply, divf_apply, rsqrt_apply', broadcast_apply,
    broadcastTo_1b_ab_apply, Cert.LibRowStat.broadcastTo_a1_ab_apply, Cert.LibKeepdims.shapeCast_a_a1_apply,
    dot2_plain, Cert.LibMatmulPlain.matmul_plain_zero_apply]
  rw [sum_lanes2]
  simp only [addf_apply, mulf_apply, subf_apply, divf_apply, rsqrt_apply', broadcast_apply,
    broadcastTo_1b_ab_apply, Cert.LibRowStat.broadcastTo_a1_ab_apply, Cert.LibKeepdims.shapeCast_a_a1_apply,
    dot2_plain, Cert.LibMatmulPlain.matmul_plain_zero_apply]
  simp only [ln_y, ln_mean, ln_var, Ideal.ofBits_def]

/-- What the body leaves in the output buffer is the payload of its one store, of the whole input blocks. -/
theorem out2_5_eq (ctx : Vec Ideal S1024x512 .bf16) (x : Vec Ideal S1024x512 .f32) (wo : Vec Ideal S512x512 .bf16) (g bt : Vec Ideal S1x512 .f32) :
    out2_5 (F := Ideal) ctx x wo g bt = k2_pay1 (F := Ideal) ctx wo x g bt := by
  unfold out2_5
  rw [View.canon_unit_zero off2_zero]
  simp only [View.ld_unit_zero (S := S1024x512) off2_zero, View.ld_unit_zero (S := S512x512) off2_zero,
    View.ld_unit_zero (S := S1x512) off2_zero]

/-- The output block at `(p, q)`: the layer normalisation of row `p` of the projected block plus the residual. -/
theorem out2_5_apply (ctx : Vec Ideal S1024x512 .bf16) (x : Vec Ideal S1024x512 .f32) (wo : Vec Ideal S512x512 .bf16) (g bt : Vec Ideal S1x512 .f32)
    (p : Fin 1024) (q : Fin 512) :
    (out2_5 (F := Ideal) ctx x wo g bt (ix2 p q) : EReal)
      = (ln_y ctx x wo p q - ln_mean (ln_y ctx x wo p)) * Ideal.rsqrt (ln_var (ln_y ctx x wo p) + Ideal.ofBits .f32 0x3727C5AC#32)
          * (g (ix2 (0 : Fin 1) q) : EReal) + (bt (ix2 (0 : Fin 1) q) : EReal) := by
  rw [out2_5_eq, k2_pay1_apply]

end Cert.KernelIdeal.Hand

end
-- ==== Proof.KI.Array2.lean ====
import proofs.«129024_j24481313587606_2_alg».proof.Proof.KI.Region2
import proofs.«129024_j24481313587606_2_alg».proof.Proof.KI.Value2
import Idealize.ShloMosaic.PureOps.Ideal.Laws
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-! # The output projection, the residual and the layer normalisation: from the blocks the points write back to the
    result array, at the ideal values -/

/-- Row `r` of what is normalised: the attention array times the weight matrix, plus the residual array. -/
def lnRow (A X : S8192x512.Idx → EReal) (B : S512x512.Idx → EReal) (r : Fin 8192) (k : Fin 512) : EReal :=
  (∑ j : Fin 512, A (ix2 r j) * B (ix2 j k)) + X (ix2 r k)

/-- The result array, entry by entry: the deviation of the entry from its row's mean, times the reciprocal square root
    of the row's variance plus the constant, scaled by the entry of the one row `g` in its column and shifted by that of `bt`. -/
def G2 (A X : S8192x512.Idx → EReal) (B : S512x512.Idx → EReal) (g bt : S1x512.Idx → EReal) : S8192x512.Idx → EReal :=
  fun i => (lnRow A X B (i 0) (i 1) - ln_mean (lnRow A X B (i 0)))
      * Ideal.rsqrt (ln_var (lnRow A X B (i 0)) + Ideal.ofBits .f32 0x3727C5AC#32)
      * g (ix2 (n0 := 1) (n1 := 512) (0 : Fin 1) (i 1)) + bt (ix2 (n0 := 1) (n1 := 512) (0 : Fin 1) (i 1))

/-- The result at row `r` and column `e`. -/
theorem G2_apply (A X : S8192x512.Idx → EReal) (B : S512x512.Idx → EReal) (g bt : S1x512.Idx → EReal) (r : Fin 8192) (e : Fin 512) :
    G2 A X B g bt (ix2 r e) = (lnRow A X B r e - ln_mean (lnRow A X B r))
      * Ideal.rsqrt (ln_var (lnRow A X B r) + Ideal.ofBits .f32 0x3727C5AC#32)
      * g (ix2 (0 : Fin 1) e) + bt (ix2 (0 : Fin 1) e) := rfl

/-- The printed index maps, decided over the grid's 8 points: the attention window, the residual window and the result
    window are at block `(t, 0)`; the weight window and the two row windows at block `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The attention window's block at point `t` is rows `1024 t … 1024 t + 1023` of its array. -/
theorem iblk2_0_apply (c : Dev nD) (t : Fin cfg2.N) (p : Fin 1024) (k : Fin 512) (i : S8192x512.Idx)
    (h0 : (i 0).val = t.val * 1024 + p.val) (h1 : (i 1).val = k.val) :
    (iblk2 V c 0 t : Vec Ideal S1024x512 .bf16) (ix2 p k) = (V c main_v10 : S8192x512.Idx → EReal) i := by
  have e := idx2 t
  have e0 : win2_0.index t (0 : Fin 2) = t.val := by simp only [e]
  have e1 : win2_0.index t (1 : Fin 2) = 0 := by simp only [e]
  unfold iblk2
  rw [View.read_apply]
  show (V c main_v10 : S8192x512.Idx → EReal) _ = _
  congr 1
  funext a; apply Fin.ext
  match a with
  | ⟨0, _⟩ => show win2_0.index t (0 : Fin 2) * 1024 + 1 * p.val = (i 0).val; rw [e0, h0]; omega
  | ⟨1, _⟩ => show win2_0.index t (1 : Fin 2) * 512 + 1 * k.val = (i 1).val; rw [e1, h1]; omega

/-- The residual window's block at point `t` is rows `1024 t … 1024 t + 1023` of its array. -/
theorem iblk2_1_apply (c : Dev nD) (t : Fin cfg2.N) (p : Fin 1024) (k : Fin 512) (i : S8192x512.Idx)
    (h0 : (i 0).val = t.val * 1024 + p.val) (h1 : (i 1).val = k.val) :
    (iblk2 V c 1 t : Vec Ideal S1024x512 .f32) (ix2 p k) = (V c main_v0 : S8192x512.Idx → EReal) i := by
  have e := idx2 t
  have e0 : win2_1.index t (0 : Fin 2) = t.val := by simp only [e]
  have e1 : win2_1.index t (1 : Fin 2) = 0 := by simp only [e]
  unfold iblk2
  rw [View.read_apply]
  show (V c main_v0 : S8192x512.Idx → EReal) _ = _
  congr 1
  funext a; apply Fin.ext
  match a with
  | ⟨0, _⟩ => show win2_1.index t (0 : Fin 2) * 1024 + 1 * p.val = (i 0).val; rw [e0, h0]; omega
  | ⟨1, _⟩ => show win2_1.index t (1 : Fin 2) * 512 + 1 * k.val = (i 1).val; rw [e1, h1]; omega

/-- The weight window's block at every point is its whole array. -/
theorem iblk2_2_apply (c : Dev nD) (t : Fin cfg2.N) (k : Fin 512) (q : Fin 512) (i : S512x512.Idx)
    (h0 : (i 0).val = k.val) (h1 : (i 1).val = q.val) :
    (iblk2 V c 2 t : Vec Ideal S512x512 .bf16) (ix2 k q) = (V c main_v8 : S512x512.Idx → EReal) i := by
  have e := idx2 t
  have e0 : win2_2.index t (0 : Fin 2) = 0 := by simp only [e]
  have e1 : win2_2.index t (1 : Fin 2) = 0 := by simp only [e]
  unfold iblk2
  rw [View.read_apply]
  show (V c main_v8 : S512x512.Idx → EReal) _ = _
  congr 1
  funext a; apply Fin.ext
  match a with
  | ⟨0, _⟩ => show win2_2.index t (0 : Fin 2) * 512 + 1 * k.val = (i 0).val; rw [e0, h0]; omega
  | ⟨1, _⟩ => show win2_2.index t (1 : Fin 2) * 512 + 1 * q.val = (i 1).val; rw [e1, h1]; omega

/-- The scale window's block at every point is its whole one-row array. -/
theorem iblk2_3_apply (c : Dev nD) (t : Fin cfg2.N) (u : Fin 1) (q : Fin 512) (i : S1x512.Idx)
    (h0 : (i 0).val = u.val) (h1 : (i 1).val = q.val) :
    (iblk2 V c 3 t : Vec Ideal S1x512 .f32) (ix2 u q) = (V c main_v11 : S1x512.Idx → EReal) i := by
  have e := idx2 t
  have e0 : win2_3.index t (0 : Fin 2) = 0 := by simp only [e]
  have e1 : win2_3.index t (1 : Fin 2) = 0 := by simp only [e]
  unfold iblk2
  rw [View.read_apply]
  show (V c main_v11 : S1x512.Idx → EReal) _ = _
  congr 1
  funext a; apply Fin.ext
  match a with
  | ⟨0, _⟩ => show win2_3.index t (0 : Fin 2) * 1 + 1 * u.val = (i 0).val; rw [e0, h0]; omega
  | ⟨1, _⟩ => show win2_3.index t (1 : Fin 2) * 512 + 1 * q.val = (i 1).val; rw [e1, h1]; omega

/-- The shift window's block at every point is its whole one-row array. -/
theorem iblk2_4_apply (c : Dev nD) (t : Fin cfg2.N) (u : Fin 1) (q : Fin 512) (i : S1x512.Idx)
    (h0 : (i 0).val = u.val) (h1 : (i 1).val = q.val) :
    (iblk2 V c 4 t : Vec Ideal S1x512 .f32) (ix2 u q) = (V c main_v12 : S1x512.Idx → EReal) i := by
  have e := idx2 t
  have e0 : win2_4.index t (0 : Fin 2) = 0 := by simp only [e]
  have e1 : win2_4.index t (1 : Fin 2) = 0 := by simp only [e]
  unfold iblk2
  rw [View.read_apply]
  show (V c main_v12 : S1x512.Idx → EReal) _ = _
  congr 1
  funext a; apply Fin.ext
  match a with
  | ⟨0, _⟩ => show win2_4.index t (0 : Fin 2) * 1 + 1 * u.val = (i 0).val; rw [e0, h0]; omega
  | ⟨1, _⟩ => show win2_4.index t (1 : Fin 2) * 512 + 1 * q.val = (i 1).val; rw [e1, h1]; omega

/-! ## The result window -/

/-- What point `t` writes back to the result array is block `t` of `G2` of the five arrays. -/
theorem flushed2_5_eq (c : Dev nD) (t : Fin cfg2.N) :
    (dat2 (F := Ideal) V c).flushed 5 t
      = ((cfg2.win 5).blk t).view.read (Elt Ideal) (G2 (V c main_v10) (V c main_v0) (V c main_v8) (V c main_v11) (V c main_v12)) := by
  show (cfg2.win 5).cut (grid2.coords t) ((dat2 (F := Ideal) V c).after 5 t) = _
  rw [after2_5]
  have e := idx2 t
  have e50 : win2_5.index t (0 : Fin 2) = t.val := by simp only [e]
  have e51 : win2_5.index t (1 : Fin 2) = 0 := by simp only [e]
  funext j
  obtain ⟨p, q, rfl⟩ : ∃ (p : Fin 1024) (q : Fin 512), j = ix2 p q := ⟨j 0, j 1, eq_ix2 (n0 := 1024) (n1 := 512) j⟩
  show (out2_5 (F := Ideal) (iblk2 V c 0 t) (iblk2 V c 1 t) (iblk2 V c 2 t) (iblk2 V c 3 t) (iblk2 V c 4 t) (ix2 p q) : EReal)
    = G2 (V c main_v10) (V c main_v0) (V c main_v8) (V c main_v11) (V c main_v12) (((cfg2.win 5).blk t).view.emb (ix2 p q))
  have hr : ((((cfg2.win 5).blk t).view.emb (ix2 p q)) 0 : Fin 8192).val = t.val * 1024 + p.val := by
    show (win2_5.index t (0 : Fin 2) * 1024 + 1 * p.val) = t.val * 1024 + p.val; rw [e50]; omega
  have hq : ((((cfg2.win 5).blk t).view.emb (ix2 p q)) 1 : Fin 512).val = q.val := by
    show (win2_5.index t (1 : Fin 2) * 512 + 1 * q.val) = q.val; rw [e51]; omega
  have hy : ln_y (iblk2 V c 0 t) (iblk2 V c 1 t) (iblk2 V c 2 t) p
      = lnRow (V c main_v10) (V c main_v0) (V c main_v8) ((((cfg2.win 5).blk t).view.emb (ix2 p q)) 0) := by
    funext k
    unfold ln_y lnRow
    rw [iblk2_1_apply V c t p k (ix2 ((((cfg2.win 5).blk t).view.emb (ix2 p q)) 0) k) hr rfl]
    congr 1
    refine Finset.sum_congr rfl fun j _ => ?_
    rw [iblk2_0_apply V c t p j (ix2 ((((cfg2.win 5).blk t).view.emb (ix2 p q)) 0) j) hr rfl,
      iblk2_2_apply V c t j k (ix2 j k) rfl rfl]
  have hqe : (((cfg2.win 5).blk t).view.emb (ix2 p q)) 1 = q := Fin.ext hq
  rw [out2_5_apply, hy]
  unfold G2
  rw [hqe, iblk2_3_apply V c t 0 q (ix2 (0 : Fin 1) q) rfl rfl, iblk2_4_apply V c t 0 q (ix2 (0 : Fin 1) q) rfl rfl]

/-- An index of the array is in point `t`'s block iff each coordinate is in the block's range on its axis. -/
theorem mem_blk2_5 (t : Fin cfg2.N) (i : S8192x512.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v13).slice (win2_5.rect t)).set ↔ _
  rw [View.set_slice_whole, Rect.mem_set_unit]
  exact Iff.rfl

/-- The eight blocks of 1024 rows fill the array. -/
theorem cover2_5a (i : S8192x512.Idx) : ∃ t : Fin cfg2.N, (cfg2.win 5).flush t = true ∧ i ∈ ((cfg2.win 5).blk t).view.set := by
  have hi0 : (i 0).val < 8192 := (i 0).isLt
  have hi1 : (i 1).val < 512 := (i 1).isLt
  obtain ⟨t, ht⟩ : ∃ t : Fin cfg2.N, t.val = (i 0).val / 1024 := ⟨⟨(i 0).val / 1024, by rw [show cfg2.N = 8 from N_2]; omega⟩, rfl⟩
  have e := idx2 t
  have e50 : win2_5.index t (0 : Fin 2) = t.val := by simp only [e]
  have e51 : win2_5.index t (1 : Fin 2) = 0 := by simp only [e]
  refine ⟨t, flush2_5 t, ?_⟩
  rw [mem_blk2_5]
  intro a
  match a with
  | ⟨0, _⟩ => show win2_5.index t (0 : Fin 2) * 1024 ≤ (i 0).val ∧ (i 0).val < win2_5.index t (0 : Fin 2) * 1024 + 1024; rw [e50]; omega
  | ⟨1, _⟩ => show win2_5.index t (1 : Fin 2) * 512 ≤ (i 1).val ∧ (i 1).val < win2_5.index t (1 : Fin 2) * 512 + 512; rw [e51]; omega

/-- The array after the run: `G2` of the five arrays. -/
theorem final2_5 (c : Dev nD) :
    (dat2 (F := Ideal) V c).arrAt 5 cfg2.N = G2 (V c main_v10) (V c main_v0) (V c main_v8) (V c main_v11) (V c main_v12) :=
  (dat2 (F := Ideal) V c).arrAt_eq_of_cover 5 _ (fun t _ => flushed2_5_eq V c t) cover2_5a

/-- Read at row `r` and column `e` (`G2_apply`). -/
theorem arr2_5 (c : Dev nD) (r : Fin 8192) (e : Fin 512) :
    (dat2 (F := Ideal) V c).arrAt 5 cfg2.N (ix2 r e) = G2 (V c main_v10) (V c main_v0) (V c main_v8) (V c main_v11) (V c main_v12) (ix2 r e) := by
  rw [final2_5]

end Cert.KernelIdeal.Hand

end
-- ==== Proof.Model.lean ====
/-
  The attention context as a function of real inputs.

  For a real activation array x and real weight matrices wq, wk, wv (stored as rows of output features): the
  projections Q, K, V; for head h the scores of query row t against key row s, the head's 64 features contracted and
  the result divided by 8; and the context, the average of the value rows weighted by the exponentials of the scores.
  The weighted average does not depend on the common shift subtracted inside the exponentials; it is stated at shift 0.
-/
import Mathlib

noncomputable section

namespace Cert.Model

/-- The position of feature d of head h among the 512 features. -/
def col (h : Fin 8) (d : Fin 64) : Fin 512 := ⟨64 * h.val + d.val, by omega⟩

variable (xr : Fin 2 → Fin 4096 → Fin 512 → ℝ)

/-- A projection: feature e of row (b, t) is the row of x against row e of the weight matrix. -/
def projR (w : Fin 512 → Fin 512 → ℝ) (b : Fin 2) (t : Fin 4096) (e : Fin 512) : ℝ := ∑ c : Fin 512, xr b t c * w e c

/-- Head h's score of query row t against key row s in batch b. -/
def scoreR (wq wk : Fin 512 → Fin 512 → ℝ) (b : Fin 2) (h : Fin 8) (t s : Fin 4096) : ℝ :=
  (∑ d : Fin 64, projR xr wq b t (col h d) * projR xr wk b s (col h d)) / 8

/-- Head h's context feature d at row (b, t): the softmax-weighted average of the value rows. -/
def ctxR (wq wk wv : Fin 512 → Fin 512 → ℝ) (b : Fin 2) (t : Fin 4096) (h : Fin 8) (d : Fin 64) : ℝ :=
  (∑ s : Fin 4096, Real.exp (scoreR xr wq wk b h t s - 0) * projR xr wv b s (col h d))
    / (∑ s : Fin 4096, Real.exp (scoreR xr wq wk b h t s - 0))

end Cert.Model

end
-- ==== Proof.ModelLN.lean ====
/-
  LayerNorm of one row at the ideal values, in the operations' order shared by the kernel and the reference:
  the mean is the row's sum divided by 512, the variance the sum of squared deviations divided by 512, and the result
  ((y - mean) · rsqrt(variance + ε)) · γ + β, with 512 and ε the programs' literals.
-/
import Mathlib
import Idealize.ShloMosaic.PureOps.Ideal

noncomputable section

namespace Cert.Model

open Idealize.ShloMosaic

/-- The mean of a row of 512 entries. -/
def lnMean (y : Fin 512 → EReal) : EReal := Ideal.div (∑ k : Fin 512, y k) (Ideal.ofBits .f32 0x44000000#32)

/-- The (biased) variance of the row. -/
def lnVar (y : Fin 512 → EReal) : EReal :=
  Ideal.div (∑ k : Fin 512, (y k - lnMean y) * (y k - lnMean y)) (Ideal.ofBits .f32 0x44000000#32)

/-- Entry e of the normalised row, scaled by g and shifted by b. -/
def lnRow (y : Fin 512 → EReal) (e : Fin 512) (g b : EReal) : EReal :=
  (y e - lnMean y) * Ideal.rsqrt (lnVar y + Ideal.ofBits .f32 0x3727C5AC#32) * g + b

end Cert.Model

end
-- ==== Proof.KI.KernelValue.lean ====
import proofs.«129024_j24481313587606_2_alg».proof.Proof.KI.Assembly
import proofs.«129024_j24481313587606_2_alg».proof.Proof.KI.Array2
import proofs.«129024_j24481313587606_2_alg».proof.Proof.Model
import proofs.«129024_j24481313587606_2_alg».proof.Proof.ModelLN
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! # The program's result at an index, at the ideal values, from the normalisation down to the inputs; the attention
    context is a hypothesis here -/

/-- Row `(b, t)` of the activations among the 8192 rows of the reshaped array. -/
def rowOf (b : Fin 2) (t : Fin 4096) : Fin 8192 := ⟨4096 * b.val + t.val, by omega⟩

/-- The activations reshaped to 8192 rows read, at row `4096 b + t`, the entry `(b, t, k)`. -/
theorem reshape_rows_apply (x : S2x4096x512.Idx → EReal) (b : Fin 2) (t : Fin 4096) (k : Fin 512) :
    shapeCast S8192x512 x shapeCasts_S2x4096x512_S8192x512 (ix2 (rowOf b t) k) = x (ix3 b t k) :=
  shapeCast_apply x _ _ _ (by
    rw [Shape.rowMajor_val_three, Shape.rowMajor_val_two]
    show (b.val * 4096 + t.val) * 512 + k.val = (4096 * b.val + t.val) * 512 + k.val
    omega)

/-- The 8192 result rows reshaped to `[2, 4096, 512]` read, at `(b, t, e)`, row `4096 b + t`. -/
theorem unreshape_rows_apply (y : S8192x512.Idx → EReal) (b : Fin 2) (t : Fin 4096) (e : Fin 512) :
    shapeCast S2x4096x512 y shapeCasts_S8192x512_S2x4096x512 (ix3 b t e) = y (ix2 (rowOf b t) e) :=
  shapeCast_apply y _ _ _ (by
    rw [Shape.rowMajor_val_three, Shape.rowMajor_val_two]
    show (4096 * b.val + t.val) * 512 + e.val = (b.val * 4096 + t.val) * 512 + e.val
    omega)

/-- An array of shape `[2, 4096, 512]` read at `(b, t, e)`. -/
def readAt3 (R : S2x4096x512.Idx → EReal) (b : Fin 2) (t : Fin 4096) (e : Fin 512) : EReal := R (ix3 b t e)

/-- The attention array agrees with a real-valued context: row `4096 b + t`, column `cc`, is `ctxr b t cc`. -/
def ctxAgrees (A : S8192x512.Idx → EReal) (ctxr : Fin 2 → Fin 4096 → Fin 512 → ℝ) : Prop :=
  ∀ (b : Fin 2) (t : Fin 4096) (cc : Fin 512), A (ix2 (⟨4096 * b.val + t.val, by omega⟩ : Fin 8192) cc) = ((ctxr b t cc : ℝ) : EReal)

/-- The row that is normalised at `(b, t)`: entry `k` is the context row against row `k` of `wo`, plus the activation. -/
def lnOutRow (x : S2x4096x512.Idx → EReal) (wo : S512x512.Idx → EReal) (ctxr : Fin 2 → Fin 4096 → Fin 512 → ℝ) (b : Fin 2) (t : Fin 4096) : Fin 512 → EReal :=
  fun k : Fin 512 => (∑ cc : Fin 512, ((ctxr b t cc : ℝ) : EReal) * wo (ix2 k cc)) + x (ix3 b t k)

/-- The result entry `(b, t, e)` from the activations `x`, the output weight matrix `wo` (rows of output features), the
    scale `g`, the shift `bt` and a real-valued context: the layer normalisation of the row whose entry `k` is the context
    row against row `k` of `wo`, plus the activation. -/
def lnOut (x : S2x4096x512.Idx → EReal) (wo : S512x512.Idx → EReal) (g bt : S512.Idx → EReal)
    (ctxr : Fin 2 → Fin 4096 → Fin 512 → ℝ) (b : Fin 2) (t : Fin 4096) (e : Fin 512) : EReal :=
  Cert.Model.lnRow (fun k : Fin 512 => (∑ cc : Fin 512, ((ctxr b t cc : ℝ) : EReal) * wo (ix2 k cc)) + x (ix3 b t k)) e
    (g (ix1 e)) (bt (ix1 e))

variable (m : (ℓ : Loc nD τ sig) → Buf (Elt Ideal) ℓ) (ρ : Dev nD → PrngReg)

/-- The row of what the last region normalises, from the inputs and the context. -/
theorem lnRow_eq (c : Dev nD) (ctxr : Fin 2 → Fin 4096 → Fin 512 → ℝ) (hctx : ctxAgrees (V4 m ρ c main_v10) ctxr) (b : Fin 2) (t : Fin 4096) :
    lnRow (V4 m ρ c main_v10) (V4 m ρ c main_v0) (V4 m ρ c main_v8) (rowOf b t)
      = lnOutRow (m ((c.tc : Thread nD τ).loc main_arg0)) (m ((c.tc : Thread nD τ).loc main_arg4)) ctxr b t := by
  funext k
  unfold lnRow lnOutRow
  rw [V4_main_v0, V1_main_v0, reshape_rows_apply]
  congr 1
  refine Finset.sum_congr rfl fun j _ => ?_
  rw [show (V4 m ρ c main_v10 : S8192x512.Idx → EReal) (ix2 (rowOf b t) j) = ((ctxr b t j : ℝ) : EReal) from hctx b t j,
    V4_main_v8, V1_main_v8, truncf_apply, transpose_ix2_apply]

/-- The result at an index: with the attention array agreeing with a real-valued context, entry `(b, t, e)` of the
    program's result is the layer normalisation of the row built from the context, the output weight matrix and the
    activations, scaled and shifted by entry `e` of the two parameter vectors. -/
theorem kernel_apply_of_ctx (c : Dev nD) (ctxr : Fin 2 → Fin 4096 → Fin 512 → ℝ) (hctx : ctxAgrees (V4 m ρ c main_v10) ctxr)
    (b : Fin 2) (t : Fin 4096) (e : Fin 512) :
    readAt3 (W6 m ρ c (Proc.devRef .tc main_v14)) b t e
      = lnOut (m ((c.tc : Thread nD τ).loc main_arg0)) (m ((c.tc : Thread nD τ).loc main_arg4))
          (m ((c.tc : Thread nD τ).loc main_arg5)) (m ((c.tc : Thread nD τ).loc main_arg6)) ctxr b t e := by
  unfold readAt3
  rw [result_eq m ρ c, unreshape_rows_apply, arr2_5 (V4 m ρ) c, G2_apply, lnRow_eq m ρ c ctxr hctx b t,
    V4_main_v11, V4_main_v12, shapeCast_a_1a_apply, shapeCast_a_1a_apply]
  rfl

/-- The same with the context spelled over real inputs: column `cc` of the context is feature `cc % 64` of head `cc / 64`. -/
theorem kernel_apply (c : Dev nD) (xr : Fin 2 → Fin 4096 → Fin 512 → ℝ) (wqr wkr wvr : Fin 512 → Fin 512 → ℝ)
    (hctx : ctxAgrees (V4 m ρ c main_v10) (fun b t cc => Cert.Model.ctxR xr wqr wkr wvr b t ⟨cc.val / 64, by omega⟩ ⟨cc.val % 64, by omega⟩))
    (b : Fin 2) (t : Fin 4096) (e : Fin 512) :
    readAt3 (W6 m ρ c (Proc.devRef .tc main_v14)) b t e
      = lnOut (m ((c.tc : Thread nD τ).loc main_arg0)) (m ((c.tc : Thread nD τ).loc main_arg4))
          (m ((c.tc : Thread nD τ).loc main_arg5)) (m ((c.tc : Thread nD τ).loc main_arg6))
          (fun b t cc => Cert.Model.ctxR xr wqr wkr wvr b t ⟨cc.val / 64, by omega⟩ ⟨cc.val % 64, by omega⟩) b t e :=
  kernel_apply_of_ctx m ρ c _ hctx b t e

/-- `lnOut` unfolded: the shape of the right-hand side over the model's row normalisation. -/
theorem lnOut_eq (x : S2x4096x512.Idx → EReal) (wo : S512x512.Idx → EReal) (g bt : S512.Idx → EReal)
    (ctxr : Fin 2 → Fin 4096 → Fin 512 → ℝ) (b : Fin 2) (t : Fin 4096) (e : Fin 512) :
    lnOut x wo g bt ctxr b t e
      = Cert.Model.lnRow (fun k : Fin 512 => (∑ cc : Fin 512, ((ctxr b t cc : ℝ) : EReal) * wo (ix2 k cc)) + x (ix3 b t k)) e
          (g (ix1 e)) (bt (ix1 e)) := rfl

end Cert.KernelIdeal.Hand

end
-- ==== Proof.KI.Value0.lean ====
import proofs.«129024_j24481313587606_2_alg».proof.Proof.KI.Region0
import proofs.«129024_j24481313587606_2_alg».proof.Proof.LibMatmulPlain
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-! # The QKV projection at the ideal values: each result is the plain product of the activation block and a weight matrix -/

/-- The offset of every access of the body: the origin. -/
theorem off0_zero : (![0, 0] : Fin 2 → Nat) = fun _ => 0 := funext fun a => by fin_cases a <;> rfl

/-- The body's dimension numbers are the plain ones: rows of the left operand against columns of the right. -/
theorem dot0_plain : dot_S1024x512_S512x512_S1024x512_1_0_0_1_n_n = DotDims.plain 1024 512 512 := rfl

/-- The first product's payload at `(p, q)`: rounding to the narrower format is the identity at the ideal values, the
    shape casts are between equal shapes, and the product starts from the zero accumulator. -/
theorem k0_pay2_apply (x : Vec Ideal S1024x512 .f32) (w : Vec Ideal S512x512 .bf16) (p : Fin 1024) (q : Fin 512) :
    (k0_pay2 (F := Ideal) x w (ix2 p q) : EReal) = ∑ c : Fin 512, (x (ix2 p c) : EReal) * (w (ix2 c q) : EReal) := by
  unfold k0_pay2 k0_pay1
  simp only [shapeCast_self]
  rw [truncf_apply, dot0_plain, Cert.LibMatmulPlain.matmul_plain_zero_apply]
  simp only [truncf_apply]

theorem k0_pay3_apply (x : Vec Ideal S1024x512 .f32) (w : Vec Ideal S512x512 .bf16) (p : Fin 1024) (q : Fin 512) :
    (k0_pay3 (F := Ideal) x w (ix2 p q) : EReal) = ∑ c : Fin 512, (x (ix2 p c) : EReal) * (w (ix2 c q) : EReal) := by
  unfold k0_pay3 k0_pay1
  simp only [shapeCast_self]
  rw [truncf_apply, dot0_plain, Cert.LibMatmulPlain.matmul_plain_zero_apply]
  simp only [truncf_apply]

theorem k0_pay4_apply (x : Vec Ideal S1024x512 .f32) (w : Vec Ideal S512x512 .bf16) (p : Fin 1024) (q : Fin 512) :
    (k0_pay4 (F := Ideal) x w (ix2 p q) : EReal) = ∑ c : Fin 512, (x (ix2 p c) : EReal) * (w (ix2 c q) : EReal) := by
  unfold k0_pay4 k0_pay1
  simp only [shapeCast_self]
  rw [truncf_apply, dot0_plain, Cert.LibMatmulPlain.matmul_plain_zero_apply]
  simp only [truncf_apply]

/-- What the body leaves in each output buffer is the payload of its one store, of the whole input blocks. -/
theorem out0_4_eq (x : Vec Ideal S1024x512 .f32) (w : Vec Ideal S512x512 .bf16) : out0_4 (F := Ideal) x w = k0_pay2 (F := Ideal) x w := by
  unfold out0_4
  rw [View.canon_unit_zero off0_zero]
  simp only [View.ld_unit_zero (S := S1024x512) off0_zero, View.ld_unit_zero (S := S512x512) off0_zero]
theorem out0_5_eq (x : Vec Ideal S1024x512 .f32) (w : Vec Ideal S512x512 .bf16) : out0_5 (F := Ideal) x w = k0_pay3 (F := Ideal) x w := by
  unfold out0_5
  rw [View.canon_unit_zero off0_zero]
  simp only [View.ld_unit_zero (S := S1024x512) off0_zero, View.ld_unit_zero (S := S512x512) off0_zero]
theorem out0_6_eq (x : Vec Ideal S1024x512 .f32) (w : Vec Ideal S512x512 .bf16) : out0_6 (F := Ideal) x w = k0_pay4 (F := Ideal) x w := by
  unfold out0_6
  rw [View.canon_unit_zero off0_zero]
  simp only [View.ld_unit_zero (S := S1024x512) off0_zero, View.ld_unit_zero (S := S512x512) off0_zero]

/-- Each output block at `(p, q)`: row `p` of the activation block against column `q` of the weight matrix. -/
theorem out0_4_apply (x : Vec Ideal S1024x512 .f32) (w : Vec Ideal S512x512 .bf16) (p : Fin 1024) (q : Fin 512) :
    (out0_4 (F := Ideal) x w (ix2 p q) : EReal) = ∑ c : Fin 512, (x (ix2 p c) : EReal) * (w (ix2 c q) : EReal) := by
  rw [out0_4_eq, k0_pay2_apply]
theorem out0_5_apply (x : Vec Ideal S1024x512 .f32) (w : Vec Ideal S512x512 .bf16) (p : Fin 1024) (q : Fin 512) :
    (out0_5 (F := Ideal) x w (ix2 p q) : EReal) = ∑ c : Fin 512, (x (ix2 p c) : EReal) * (w (ix2 c q) : EReal) := by
  rw [out0_5_eq, k0_pay3_apply]
theorem out0_6_apply (x : Vec Ideal S1024x512 .f32) (w : Vec Ideal S512x512 .bf16) (p : Fin 1024) (q : Fin 512) :
    (out0_6 (F := Ideal) x w (ix2 p q) : EReal) = ∑ c : Fin 512, (x (ix2 p c) : EReal) * (w (ix2 c q) : EReal) := by
  rw [out0_6_eq, k0_pay4_apply]

end Cert.KernelIdeal.Hand

end
-- ==== Proof.KI.Array0.lean ====
import proofs.«129024_j24481313587606_2_alg».proof.Proof.KI.Region0
import proofs.«129024_j24481313587606_2_alg».proof.Proof.KI.Value0
import Idealize.ShloMosaic.PureOps.Ideal.Laws
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-! # The QKV projection: from the blocks the points write back to the three result arrays, at the ideal values -/

/-- The product of an 8192 x 512 array and a 512 x 512 array, entry by entry. -/
def G0 (A : S8192x512.Idx → EReal) (B : S512x512.Idx → EReal) : S8192x512.Idx → EReal :=
  fun i => ∑ k : Fin 512, A (ix2 (n0 := 8192) (n1 := 512) (i 0) k) * B (ix2 (n0 := 512) (n1 := 512) k (i 1))

/-- The product at row `r` and column `e`: row `r` of the left array against column `e` of the right. -/
theorem G0_apply (A : S8192x512.Idx → EReal) (B : S512x512.Idx → EReal) (r : Fin 8192) (e : Fin 512) :
    G0 A B (ix2 r e) = ∑ k : Fin 512, A (ix2 r k) * B (ix2 k e) := rfl

/-- The printed index maps, decided over the grid's 8 points: the activation window and each result window are at block
    `(t, 0)`, each weight window at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The activation window's block at point `t` is rows `1024 t … 1024 t + 1023` of its array. -/
theorem iblk0_0_apply (c : Dev nD) (t : Fin cfg0.N) (p : Fin 1024) (k : Fin 512) (i : S8192x512.Idx)
    (h0 : (i 0).val = t.val * 1024 + p.val) (h1 : (i 1).val = k.val) :
    (iblk0 V c 0 t : Vec Ideal S1024x512 .f32) (ix2 p k) = (V c main_v0 : S8192x512.Idx → EReal) i := by
  obtain ⟨e00, e01, -⟩ := idx0 t
  unfold iblk0
  rw [View.read_apply]
  show (V c main_v0 : S8192x512.Idx → EReal) _ = _
  congr 1
  funext a; apply Fin.ext
  match a with
  | ⟨0, _⟩ => show win0_0.index t (0 : Fin 2) * 1024 + 1 * p.val = (i 0).val; rw [e00, h0]; omega
  | ⟨1, _⟩ => show win0_0.index t (1 : Fin 2) * 512 + 1 * k.val = (i 1).val; rw [e01, h1]; omega

/-- Weight window 1's block at every point is its whole array. -/
theorem iblk0_1_apply (c : Dev nD) (t : Fin cfg0.N) (k : Fin 512) (q : Fin 512) (i : S512x512.Idx)
    (h0 : (i 0).val = k.val) (h1 : (i 1).val = q.val) :
    (iblk0 V c 1 t : Vec Ideal S512x512 .bf16) (ix2 k q) = (V c main_v2 : S512x512.Idx → EReal) i := by
  have e := idx0 t
  have e0 : win0_1.index t (0 : Fin 2) = 0 := by simp only [e]
  have e1 : win0_1.index t (1 : Fin 2) = 0 := by simp only [e]
  unfold iblk0
  rw [View.read_apply]
  show (V c main_v2 : S512x512.Idx → EReal) _ = _
  congr 1
  funext a; apply Fin.ext
  match a with
  | ⟨0, _⟩ => show win0_1.index t (0 : Fin 2) * 512 + 1 * k.val = (i 0).val; rw [e0, h0]; omega
  | ⟨1, _⟩ => show win0_1.index t (1 : Fin 2) * 512 + 1 * q.val = (i 1).val; rw [e1, h1]; omega

/-- Weight window 2's block at every point is its whole array. -/
theorem iblk0_2_apply (c : Dev nD) (t : Fin cfg0.N) (k : Fin 512) (q : Fin 512) (i : S512x512.Idx)
    (h0 : (i 0).val = k.val) (h1 : (i 1).val = q.val) :
    (iblk0 V c 2 t : Vec Ideal S512x512 .bf16) (ix2 k q) = (V c main_v4 : S512x512.Idx → EReal) i := by
  have e := idx0 t
  have e0 : win0_2.index t (0 : Fin 2) = 0 := by simp only [e]
  have e1 : win0_2.index t (1 : Fin 2) = 0 := by simp only [e]
  unfold iblk0
  rw [View.read_apply]
  show (V c main_v4 : S512x512.Idx → EReal) _ = _
  congr 1
  funext a; apply Fin.ext
  match a with
  | ⟨0, _⟩ => show win0_2.index t (0 : Fin 2) * 512 + 1 * k.val = (i 0).val; rw [e0, h0]; omega
  | ⟨1, _⟩ => show win0_2.index t (1 : Fin 2) * 512 + 1 * q.val = (i 1).val; rw [e1, h1]; omega

/-- Weight window 3's block at every point is its whole array. -/
theorem iblk0_3_apply (c : Dev nD) (t : Fin cfg0.N) (k : Fin 512) (q : Fin 512) (i : S512x512.Idx)
    (h0 : (i 0).val = k.val) (h1 : (i 1).val = q.val) :
    (iblk0 V c 3 t : Vec Ideal S512x512 .bf16) (ix2 k q) = (V c main_v6 : S512x512.Idx → EReal) i := by
  have e := idx0 t
  have e0 : win0_3.index t (0 : Fin 2) = 0 := by simp only [e]
  have e1 : win0_3.index t (1 : Fin 2) = 0 := by simp only [e]
  unfold iblk0
  rw [View.read_apply]
  show (V c main_v6 : S512x512.Idx → EReal) _ = _
  congr 1
  funext a; apply Fin.ext
  match a with
  | ⟨0, _⟩ => show win0_3.index t (0 : Fin 2) * 512 + 1 * k.val = (i 0).val; rw [e0, h0]; omega
  | ⟨1, _⟩ => show win0_3.index t (1 : Fin 2) * 512 + 1 * q.val = (i 1).val; rw [e1, h1]; omega

/-! ## Output window 4: the activations against the weight matrix of window 1 -/

/-- What point `t` writes back to window 4's array is block `t` of the product of the two arrays. -/
theorem flushed0_4_eq (c : Dev nD) (t : Fin cfg0.N) :
    (dat0 (F := Ideal) V c).flushed 4 t = ((cfg0.win 4).blk t).view.read (Elt Ideal) (G0 (V c main_v0) (V c main_v2)) := by
  show (cfg0.win 4).cut (grid0.coords t) ((dat0 (F := Ideal) V c).after 4 t) = _
  rw [after0_4]
  obtain ⟨e00, e01, e10, e11, e20, e21, e30, e31, e40, e41, e50, e51, e60, e61⟩ := idx0 t
  funext j
  obtain ⟨p, q, rfl⟩ : ∃ (p : Fin 1024) (q : Fin 512), j = ix2 p q := ⟨j 0, j 1, eq_ix2 (n0 := 1024) (n1 := 512) j⟩
  show (out0_4 (F := Ideal) (iblk0 V c 0 t) (iblk0 V c 1 t) (ix2 p q) : EReal)
    = G0 (V c main_v0) (V c main_v2) (((cfg0.win 4).blk t).view.emb (ix2 p q))
  rw [out0_4_apply]
  unfold G0
  refine Finset.sum_congr rfl fun k _ => ?_
  rw [iblk0_0_apply V c t p k (ix2 ((((cfg0.win 4).blk t).view.emb (ix2 p q)) 0) k)
      (by show (win0_4.index t (0 : Fin 2) * 1024 + 1 * p.val) = t.val * 1024 + p.val; rw [e40]; omega) rfl,
    iblk0_1_apply V c t k q (ix2 k ((((cfg0.win 4).blk t).view.emb (ix2 p q)) 1)) rfl
      (by show (win0_4.index t (1 : Fin 2) * 512 + 1 * q.val) = q.val; rw [e41]; omega)]

/-- An index of the array is in point `t`'s block iff each coordinate is in the block's range on its axis. -/
theorem mem_blk0_4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v9_0).slice (win0_4.rect t)).set ↔ _
  rw [View.set_slice_whole, Rect.mem_set_unit]
  exact Iff.rfl

/-- The eight blocks of 1024 rows fill the array. -/
theorem cover0_4 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  obtain ⟨t, ht⟩ : ∃ t : Fin cfg0.N, t.val = (i 0).val / 1024 := ⟨⟨(i 0).val / 1024, by rw [show cfg0.N = 8 from N_0]; omega⟩, rfl⟩
  obtain ⟨e00, e01, e10, e11, e20, e21, e30, e31, e40, e41, e50, e51, e60, e61⟩ := idx0 t
  refine ⟨t, flush0_4 t, ?_⟩
  rw [mem_blk0_4]
  intro a
  match a with
  | ⟨0, _⟩ => show win0_4.index t (0 : Fin 2) * 1024 ≤ (i 0).val ∧ (i 0).val < win0_4.index t (0 : Fin 2) * 1024 + 1024; rw [e40]; omega
  | ⟨1, _⟩ => show win0_4.index t (1 : Fin 2) * 512 ≤ (i 1).val ∧ (i 1).val < win0_4.index t (1 : Fin 2) * 512 + 512; rw [e41]; omega

/-- The array after the run: the product of the two arrays. -/
theorem final0_4 (c : Dev nD) : (dat0 (F := Ideal) V c).arrAt 4 cfg0.N = G0 (V c main_v0) (V c main_v2) :=
  (dat0 (F := Ideal) V c).arrAt_eq_of_cover 4 _ (fun t _ => flushed0_4_eq V c t) cover0_4

/-- Read at row `r` and column `e` (`G0_apply`: row `r` of the activations against column `e` of the weight matrix). -/
theorem arr0_4 (c : Dev nD) (r : Fin 8192) (e : Fin 512) :
    (dat0 (F := Ideal) V c).arrAt 4 cfg0.N (ix2 r e) = G0 (V c main_v0) (V c main_v2) (ix2 r e) := by
  rw [final0_4]

/-! ## Output window 5: the activations against the weight matrix of window 2 -/

/-- What point `t` writes back to window 5's array is block `t` of the product of the two arrays. -/
theorem flushed0_5_eq (c : Dev nD) (t : Fin cfg0.N) :
    (dat0 (F := Ideal) V c).flushed 5 t = ((cfg0.win 5).blk t).view.read (Elt Ideal) (G0 (V c main_v0) (V c main_v4)) := by
  show (cfg0.win 5).cut (grid0.coords t) ((dat0 (F := Ideal) V c).after 5 t) = _
  rw [after0_5]
  obtain ⟨e00, e01, e10, e11, e20, e21, e30, e31, e40, e41, e50, e51, e60, e61⟩ := idx0 t
  funext j
  obtain ⟨p, q, rfl⟩ : ∃ (p : Fin 1024) (q : Fin 512), j = ix2 p q := ⟨j 0, j 1, eq_ix2 (n0 := 1024) (n1 := 512) j⟩
  show (out0_5 (F := Ideal) (iblk0 V c 0 t) (iblk0 V c 2 t) (ix2 p q) : EReal)
    = G0 (V c main_v0) (V c main_v4) (((cfg0.win 5).blk t).view.emb (ix2 p q))
  rw [out0_5_apply]
  unfold G0
  refine Finset.sum_congr rfl fun k _ => ?_
  rw [iblk0_0_apply V c t p k (ix2 ((((cfg0.win 5).blk t).view.emb (ix2 p q)) 0) k)
      (by show (win0_5.index t (0 : Fin 2) * 1024 + 1 * p.val) = t.val * 1024 + p.val; rw [e50]; omega) rfl,
    iblk0_2_apply V c t k q (ix2 k ((((cfg0.win 5).blk t).view.emb (ix2 p q)) 1)) rfl
      (by show (win0_5.index t (1 : Fin 2) * 512 + 1 * q.val) = q.val; rw [e51]; omega)]

/-- An index of the array is in point `t`'s block iff each coordinate is in the block's range on its axis. -/
theorem mem_blk0_5 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v9_1).slice (win0_5.rect t)).set ↔ _
  rw [View.set_slice_whole, Rect.mem_set_unit]
  exact Iff.rfl

/-- The eight blocks of 1024 rows fill the array. -/
theorem cover0_5 (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ : ∃ t : Fin cfg0.N, t.val = (i 0).val / 1024 := ⟨⟨(i 0).val / 1024, by rw [show cfg0.N = 8 from N_0]; omega⟩, rfl⟩
  obtain ⟨e00, e01, e10, e11, e20, e21, e30, e31, e40, e41, e50, e51, e60, e61⟩ := idx0 t
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; rw [e50]; omega
  | ⟨1, _⟩ => show win0_5.index t (1 : Fin 2) * 512 ≤ (i 1).val ∧ (i 1).val < win0_5.index t (1 : Fin 2) * 512 + 512; rw [e51]; omega

/-- The array after the run: the product of the two arrays. -/
theorem final0_5 (c : Dev nD) : (dat0 (F := Ideal) V c).arrAt 5 cfg0.N = G0 (V c main_v0) (V c main_v4) :=
  (dat0 (F := Ideal) V c).arrAt_eq_of_cover 5 _ (fun t _ => flushed0_5_eq V c t) cover0_5

/-- Read at row `r` and column `e` (`G0_apply`: row `r` of the activations against column `e` of the weight matrix). -/
theorem arr0_5 (c : Dev nD) (r : Fin 8192) (e : Fin 512) :
    (dat0 (F := Ideal) V c).arrAt 5 cfg0.N (ix2 r e) = G0 (V c main_v0) (V c main_v4) (ix2 r e) := by
  rw [final0_5]

/-! ## Output window 6: the activations against the weight matrix of window 3 -/

/-- What point `t` writes back to window 6's array is block `t` of the product of the two arrays. -/
theorem flushed0_6_eq (c : Dev nD) (t : Fin cfg0.N) :
    (dat0 (F := Ideal) V c).flushed 6 t = ((cfg0.win 6).blk t).view.read (Elt Ideal) (G0 (V c main_v0) (V c main_v6)) := by
  show (cfg0.win 6).cut (grid0.coords t) ((dat0 (F := Ideal) V c).after 6 t) = _
  rw [after0_6]
  obtain ⟨e00, e01, e10, e11, e20, e21, e30, e31, e40, e41, e50, e51, e60, e61⟩ := idx0 t
  funext j
  obtain ⟨p, q, rfl⟩ : ∃ (p : Fin 1024) (q : Fin 512), j = ix2 p q := ⟨j 0, j 1, eq_ix2 (n0 := 1024) (n1 := 512) j⟩
  show (out0_6 (F := Ideal) (iblk0 V c 0 t) (iblk0 V c 3 t) (ix2 p q) : EReal)
    = G0 (V c main_v0) (V c main_v6) (((cfg0.win 6).blk t).view.emb (ix2 p q))
  rw [out0_6_apply]
  unfold G0
  refine Finset.sum_congr rfl fun k _ => ?_
  rw [iblk0_0_apply V c t p k (ix2 ((((cfg0.win 6).blk t).view.emb (ix2 p q)) 0) k)
      (by show (win0_6.index t (0 : Fin 2) * 1024 + 1 * p.val) = t.val * 1024 + p.val; rw [e60]; omega) rfl,
    iblk0_3_apply V c t k q (ix2 k ((((cfg0.win 6).blk t).view.emb (ix2 p q)) 1)) rfl
      (by show (win0_6.index t (1 : Fin 2) * 512 + 1 * q.val) = q.val; rw [e61]; omega)]

/-- An index of the array is in point `t`'s block iff each coordinate is in the block's range on its axis. -/
theorem mem_blk0_6 (t : Fin cfg0.N) (i : S8192x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v9_2).slice (win0_6.rect t)).set ↔ _
  rw [View.set_slice_whole, Rect.mem_set_unit]
  exact Iff.rfl

/-- The eight blocks of 1024 rows fill the array. -/
theorem cover0_6 (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ : ∃ t : Fin cfg0.N, t.val = (i 0).val / 1024 := ⟨⟨(i 0).val / 1024, by rw [show cfg0.N = 8 from N_0]; omega⟩, rfl⟩
  obtain ⟨e00, e01, e10, e11, e20, e21, e30, e31, e40, e41, e50, e51, e60, e61⟩ := idx0 t
  refine ⟨t, flush0_6 t, ?_⟩
  rw [mem_blk0_6]
  intro a
  match a with
  | ⟨0, _⟩ => show win0_6.index t (0 : Fin 2) * 1024 ≤ (i 0).val ∧ (i 0).val < win0_6.index t (0 : Fin 2) * 1024 + 1024; rw [e60]; omega
  | ⟨1, _⟩ => show win0_6.index t (1 : Fin 2) * 512 ≤ (i 1).val ∧ (i 1).val < win0_6.index t (1 : Fin 2) * 512 + 512; rw [e61]; omega

/-- The array after the run: the product of the two arrays. -/
theorem final0_6 (c : Dev nD) : (dat0 (F := Ideal) V c).arrAt 6 cfg0.N = G0 (V c main_v0) (V c main_v6) :=
  (dat0 (F := Ideal) V c).arrAt_eq_of_cover 6 _ (fun t _ => flushed0_6_eq V c t) cover0_6

/-- Read at row `r` and column `e` (`G0_apply`: row `r` of the activations against column `e` of the weight matrix). -/
theorem arr0_6 (c : Dev nD) (r : Fin 8192) (e : Fin 512) :
    (dat0 (F := Ideal) V c).arrAt 6 cfg0.N (ix2 r e) = G0 (V c main_v0) (V c main_v6) (ix2 r e) := by
  rw [final0_6]

end Cert.KernelIdeal.Hand

end
-- ==== Proof.KI.Array1.lean ====
import proofs.«129024_j24481313587606_2_alg».proof.Proof.KI.Region1
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-! # The attention kernel's output array, index by index

Each of the 32 grid points writes one 1024 x 128 tile of the output: rows 1024 (4 b + tq) onwards, lanes 128 hp
onwards, computed from the query tile at the same place and the key and value tiles of batch b at the same lanes. The
tiles cover the array, so every element of the output is its tile's element. -/

/-! ## Tiles of a [8192, 512] array -/

/-- The 1024-row, 128-lane tile of a [8192, 512] array at row block rb and lane block hp. -/
def tileQ (A : S8192x512.Idx → Elt F .bf16) (rb : Fin 8) (hp : Fin 4) : Vec F S1024x128 .bf16 := fun i =>
  A (ix2 (n0 := 8192) (n1 := 512)
    ⟨1024 * rb.val + (i 0).val, by have h : (i 0).val < 1024 := (i 0).isLt; have := rb.isLt; omega⟩
    ⟨128 * hp.val + (i 1).val, by have h : (i 1).val < 128 := (i 1).isLt; have := hp.isLt; omega⟩)

/-- The 4096-row, 128-lane tile at batch b and lane block hp. -/
def tileKV (A : S8192x512.Idx → Elt F .bf16) (b : Fin 2) (hp : Fin 4) : Vec F S4096x128 .bf16 := fun i =>
  A (ix2 (n0 := 8192) (n1 := 512)
    ⟨4096 * b.val + (i 0).val, by have h : (i 0).val < 4096 := (i 0).isLt; have := b.isLt; omega⟩
    ⟨128 * hp.val + (i 1).val, by have h : (i 1).val < 128 := (i 1).isLt; have := hp.isLt; omega⟩)

/-! ## The windows' block indices over the grid -/

/-- The printed index maps, decided over the 32 points: the query window moves with the output window; the key and
    value windows sit at the output's row block divided by 4 (the batch) and at its lane block; the output's block
    indices stay in their ranges. -/
theorem idx_facts1 : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2) / 4
    ∧ win1_1.index t (1 : Fin 2) = win1_3.index t (1 : Fin 2)
    ∧ win1_2.index t (0 : Fin 2) = win1_3.index t (0 : Fin 2) / 4
    ∧ win1_2.index t (1 : Fin 2) = win1_3.index t (1 : Fin 2)
    ∧ win1_3.index t (0 : Fin 2) ≤ 7 ∧ win1_3.index t (1 : Fin 2) ≤ 3 :=
  (by decide +kernel : ∀ t : Fin grid1.N, _)

/-- Every tile of the output is some point's. -/
theorem idx_onto1 : ∀ (q0 : Fin 8) (q1 : Fin 4), ∃ t : Fin cfg1.N, win1_3.index t = ![q0.val, q1.val] :=
  (by decide +kernel : ∀ (q0 : Fin 8) (q1 : Fin 4), ∃ t : Fin grid1.N, win1_3.index t = ![q0.val, q1.val])

-- the TensorCore's buffer contents when the region is entered
variable (V : (c : Dev nD) → (b : Ref sig .tc) → Buf (Elt F) ((c : Thread nD τ).loc b))

/-! ## Each input block is a tile of its array -/

/-- The query window's block at a point is the query array's tile at the window's block index. -/
theorem iblk1_0_eq (c : Dev nD) (t : Fin cfg1.N) (q0 : Fin 8) (q1 : Fin 4)
    (h0 : win1_0.index t (0 : Fin 2) = q0.val) (h1 : win1_0.index t (1 : Fin 2) = q1.val) :
    (iblk1 V c 0 t : Vec F S1024x128 .bf16) = tileQ (V c main_v9_0) q0 q1 := by
  funext x
  unfold iblk1 tileQ
  rw [View.read_apply]
  show V c main_v9_0 _ = V c main_v9_0 _
  congr 1
  funext a
  apply Fin.ext
  match a with
  | ⟨0, _⟩ => show win1_0.index t (0 : Fin 2) * 1024 + 1 * (x 0).val = 1024 * q0.val + (x 0).val; rw [h0]; omega
  | ⟨1, _⟩ => show win1_0.index t (1 : Fin 2) * 128 + 1 * (x 1).val = 128 * q1.val + (x 1).val; rw [h1]; omega

/-- The key window's block at a point is the key array's tile at the window's block index. -/
theorem iblk1_1_eq (c : Dev nD) (t : Fin cfg1.N) (b : Fin 2) (q1 : Fin 4)
    (h0 : win1_1.index t (0 : Fin 2) = b.val) (h1 : win1_1.index t (1 : Fin 2) = q1.val) :
    (iblk1 V c 1 t : Vec F S4096x128 .bf16) = tileKV (V c main_v9_1) b q1 := by
  funext x
  unfold iblk1 tileKV
  rw [View.read_apply]
  show V c main_v9_1 _ = V c main_v9_1 _
  congr 1
  funext a
  apply Fin.ext
  match a with
  | ⟨0, _⟩ => show win1_1.index t (0 : Fin 2) * 4096 + 1 * (x 0).val = 4096 * b.val + (x 0).val; rw [h0]; omega
  | ⟨1, _⟩ => show win1_1.index t (1 : Fin 2) * 128 + 1 * (x 1).val = 128 * q1.val + (x 1).val; rw [h1]; omega

/-- The value window's block at a point is the value array's tile at the window's block index. -/
theorem iblk1_2_eq (c : Dev nD) (t : Fin cfg1.N) (b : Fin 2) (q1 : Fin 4)
    (h0 : win1_2.index t (0 : Fin 2) = b.val) (h1 : win1_2.index t (1 : Fin 2) = q1.val) :
    (iblk1 V c 2 t : Vec F S4096x128 .bf16) = tileKV (V c main_v9_2) b q1 := by
  funext x
  unfold iblk1 tileKV
  rw [View.read_apply]
  show V c main_v9_2 _ = V c main_v9_2 _
  congr 1
  funext a
  apply Fin.ext
  match a with
  | ⟨0, _⟩ => show win1_2.index t (0 : Fin 2) * 4096 + 1 * (x 0).val = 4096 * b.val + (x 0).val; rw [h0]; omega
  | ⟨1, _⟩ => show win1_2.index t (1 : Fin 2) * 128 + 1 * (x 1).val = 128 * q1.val + (x 1).val; rw [h1]; omega

/-! ## The output array as one function of the index -/

/-- What the output array ends holding at row r and lane e: the element (r mod 1024, e mod 128) of the tile computed
    from the query tile at (r / 1024, e / 128) and the key and value tiles at (r / 4096, e / 128). -/
def G1 (c : Dev nD) : S8192x512.Idx → Elt F .bf16 := fun i =>
  outTile
    (tileQ (V c main_v9_0) ⟨(i 0).val / 1024, by have h : (i 0).val < 8192 := (i 0).isLt; omega⟩
      ⟨(i 1).val / 128, by have h : (i 1).val < 512 := (i 1).isLt; omega⟩)
    (tileKV (V c main_v9_1) ⟨(i 0).val / 4096, by have h : (i 0).val < 8192 := (i 0).isLt; omega⟩
      ⟨(i 1).val / 128, by have h : (i 1).val < 512 := (i 1).isLt; omega⟩)
    (tileKV (V c main_v9_2) ⟨(i 0).val / 4096, by have h : (i 0).val < 8192 := (i 0).isLt; omega⟩
      ⟨(i 1).val / 128, by have h : (i 1).val < 512 := (i 1).isLt; omega⟩)
    (ix2 (n0 := 1024) (n1 := 128) ⟨(i 0).val % 1024, Nat.mod_lt _ (by decide)⟩ ⟨(i 1).val % 128, Nat.mod_lt _ (by decide)⟩)

/-- The same tile function at equal tiles and equal places. -/
theorem outTile_congr {q q' : Vec F S1024x128 .bf16} {kk kk' vv vv' : Vec F S4096x128 .bf16} {y y' : S1024x128.Idx}
    (hq : q = q') (hk : kk = kk') (hv : vv = vv') (hy : y = y') : outTile q kk vv y = outTile q' kk' vv' y' := by
  rw [hq, hk, hv, hy]
theorem tileQ_congr (A : S8192x512.Idx → Elt F .bf16) {rb rb' : Fin 8} {hp hp' : Fin 4} (h : rb = rb') (h' : hp = hp') :
    tileQ A rb hp = tileQ A rb' hp' := by rw [h, h']
theorem tileKV_congr (A : S8192x512.Idx → Elt F .bf16) {b b' : Fin 2} {hp hp' : Fin 4} (h : b = b') (h' : hp = hp') :
    tileKV A b hp = tileKV A b' hp' := by rw [h, h']

/-- Contents of the output block that agree, index by index, with the block of an array at point t are that block as
    the write-back moves it. -/
theorem cut_eq_read1_3 (t : Fin cfg1.N) (X : Vec F S1024x128 .bf16) (G : S8192x512.Idx → Elt F .bf16)
    (h : ∀ j : S1024x128.Idx, X j = G (((cfg1.win 3).blk t).view.emb j)) :
    (cfg1.win 3).cut (grid1.coords t) X = ((cfg1.win 3).blk t).view.read (Elt F) G := by
  funext j
  rw [View.read_apply]
  exact h j

/-- G1 at an index. -/
theorem G1_apply (c : Dev nD) (i : S8192x512.Idx) : G1 V c i =
  outTile
    (tileQ (V c main_v9_0) ⟨(i 0).val / 1024, by have h : (i 0).val < 8192 := (i 0).isLt; omega⟩
      ⟨(i 1).val / 128, by have h : (i 1).val < 512 := (i 1).isLt; omega⟩)
    (tileKV (V c main_v9_1) ⟨(i 0).val / 4096, by have h : (i 0).val < 8192 := (i 0).isLt; omega⟩
      ⟨(i 1).val / 128, by have h : (i 1).val < 512 := (i 1).isLt; omega⟩)
    (tileKV (V c main_v9_2) ⟨(i 0).val / 4096, by have h : (i 0).val < 8192 := (i 0).isLt; omega⟩
      ⟨(i 1).val / 128, by have h : (i 1).val < 512 := (i 1).isLt; omega⟩)
    (ix2 (n0 := 1024) (n1 := 128) ⟨(i 0).val % 1024, Nat.mod_lt _ (by decide)⟩ ⟨(i 1).val % 128, Nat.mod_lt _ (by decide)⟩) := rfl

/-- What point t writes back is block t of G1. -/
theorem flushed1_3_eq (c : Dev nD) (t : Fin cfg1.N) :
    (dat1 V c).flushed 3 t = ((cfg1.win 3).blk t).view.read (Elt F) (G1 V c) := by
  show (cfg1.win 3).cut (grid1.coords t) ((dat1 V c).after 3 t) = _
  rw [after1_3]
  obtain ⟨e00, e01, e10, e11, e20, e21, b0, b1⟩ := idx_facts1 t
  rw [iblk1_0_eq V c t ⟨win1_3.index t (0 : Fin 2), by omega⟩ ⟨win1_3.index t (1 : Fin 2), by omega⟩ e00 e01,
    iblk1_1_eq V c t ⟨win1_3.index t (0 : Fin 2) / 4, by omega⟩ ⟨win1_3.index t (1 : Fin 2), by omega⟩ e10 e11,
    iblk1_2_eq V c t ⟨win1_3.index t (0 : Fin 2) / 4, by omega⟩ ⟨win1_3.index t (1 : Fin 2), by omega⟩ e20 e21]
  refine cut_eq_read1_3 t _ _ fun j => ?_
  have hj0 : (j 0).val < 1024 := (j 0).isLt
  have hj1 : (j 1).val < 128 := (j 1).isLt
  have E0 : ((((cfg1.win 3).blk t).view.emb j) 0).val = win1_3.index t (0 : Fin 2) * 1024 + (j 0).val := by
    show win1_3.index t (0 : Fin 2) * 1024 + 1 * (j 0).val = _; omega
  have E1 : ((((cfg1.win 3).blk t).view.emb j) 1).val = win1_3.index t (1 : Fin 2) * 128 + (j 1).val := by
    show win1_3.index t (1 : Fin 2) * 128 + 1 * (j 1).val = _; omega
  rw [G1_apply]
  refine outTile_congr (tileQ_congr _ (Fin.ext ?_) (Fin.ext ?_)) (tileKV_congr _ (Fin.ext ?_) (Fin.ext ?_))
    (tileKV_congr _ (Fin.ext ?_) (Fin.ext ?_)) ?_
  · show win1_3.index t (0 : Fin 2) = ((((cfg1.win 3).blk t).view.emb j) 0).val / 1024; rw [E0]; omega
  · show win1_3.index t (1 : Fin 2) = ((((cfg1.win 3).blk t).view.emb j) 1).val / 128; rw [E1]; omega
  · show win1_3.index t (0 : Fin 2) / 4 = ((((cfg1.win 3).blk t).view.emb j) 0).val / 4096; rw [E0]; omega
  · show win1_3.index t (1 : Fin 2) = ((((cfg1.win 3).blk t).view.emb j) 1).val / 128; rw [E1]; omega
  · show win1_3.index t (0 : Fin 2) / 4 = ((((cfg1.win 3).blk t).view.emb j) 0).val / 4096; rw [E0]; omega
  · show win1_3.index t (1 : Fin 2) = ((((cfg1.win 3).blk t).view.emb j) 1).val / 128; rw [E1]; omega
  · funext a
    apply Fin.ext
    match a with
    | ⟨0, _⟩ => show (j 0).val = ((((cfg1.win 3).blk t).view.emb j) 0).val % 1024; rw [E0]; omega
    | ⟨1, _⟩ => show (j 1).val = ((((cfg1.win 3).blk t).view.emb j) 1).val % 128; rw [E1]; omega

/-! ## The tiles cover the array -/

/-- An index of the array is in point t's block iff each coordinate is in the block's range on its axis. -/
theorem mem_blk1_3 (t : Fin cfg1.N) (i : S8192x512.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v10).slice (win1_3.rect t)).set ↔ _
  rw [View.set_slice_whole, Rect.mem_set_unit]
  exact Iff.rfl

/-- Every index of the output array is in some point's block. -/
theorem cover1_3 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  obtain ⟨t, ht⟩ := idx_onto1 ⟨(i 0).val / 1024, by omega⟩ ⟨(i 1).val / 128, by omega⟩
  have q0 : win1_3.index t (0 : Fin 2) = (i 0).val / 1024 := congrFun ht 0
  have q1 : win1_3.index t (1 : Fin 2) = (i 1).val / 128 := congrFun ht 1
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

/-! ## The array after the run -/

/-- The array the attention kernel leaves in its output is G1. -/
theorem arr1 (c : Dev nD) : (dat1 V c).arrAt 3 cfg1.N = G1 V c :=
  (dat1 V c).arrAt_eq_of_cover 3 (G1 V c) (fun t _ => flushed1_3_eq V c t) cover1_3

/-- Read at row r and lane e. -/
theorem arr1_3 (c : Dev nD) (r : Fin 8192) (e : Fin 512) :
    ((dat1 V c).arrAt 3 cfg1.N : S8192x512.Idx → Elt F .bf16) (ix2 r e)
      = outTile (tileQ (V c main_v9_0) ⟨r.val / 1024, by have := r.isLt; omega⟩ ⟨e.val / 128, by have := e.isLt; omega⟩)
          (tileKV (V c main_v9_1) ⟨r.val / 4096, by have := r.isLt; omega⟩ ⟨e.val / 128, by have := e.isLt; omega⟩)
          (tileKV (V c main_v9_2) ⟨r.val / 4096, by have := r.isLt; omega⟩ ⟨e.val / 128, by have := e.isLt; omega⟩)
          (ix2 (n0 := 1024) (n1 := 128) ⟨r.val % 1024, Nat.mod_lt _ (by decide)⟩ ⟨e.val % 128, Nat.mod_lt _ (by decide)⟩) := by
  rw [arr1 V c]
  rfl

end Cert.KernelIdeal.Hand

end
-- ==== Proof.KI.Value1a.lean ====
/-
  The flash kernel's payloads read at an index, at the ideal values.

  Every stage of one trip, at query row p: the block's scores are the row of the query tile against the rows of the
  key block, scaled; the new maximum is the larger of the old one and the block's largest score; the rescaling factor
  and the block's weights are exponentials of differences to the new maximum; the denominator and the numerator are
  rescaled and extended by the block's sums. Head 0 uses lanes 0 to 63 of the 128-lane tiles, head 1 lanes 64 to 127.
-/
import proofs.«129024_j24481313587606_2_alg».proof.Proof.KI.Region1
import proofs.«129024_j24481313587606_2_alg».proof.Proof.LibMatmulPlain
import proofs.«129024_j24481313587606_2_alg».proof.Proof.LibRowStat
import proofs.«129024_j24481313587606_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-! ## Lanes and literals -/

/-- Lane c of head 0 inside the 128-lane tile. -/
def lane0 (c : Fin 64) : Fin 128 := ⟨c.val, by omega⟩
/-- Lane c of head 1 inside the 128-lane tile. -/
def lane1 (c : Fin 64) : Fin 128 := ⟨64 + c.val, by omega⟩

/-- The scale of the scores, one eighth, as the kernel's literal. -/
abbrev cScale : EReal := Ideal.ofBits .f32 0x3E000000#32
/-- The literal one of the final reciprocal. -/
abbrev cOne : EReal := Ideal.ofBits .f32 0x3F800000#32
/-- The literal minus infinity the maxima start from. -/
abbrev cNegInf : EReal := Ideal.ofBits .f32 0xFF800000#32

/-- A maximum over the lanes of a two-axis array, read at a row: the fold of max from the accumulator's value over the
    row's entries. -/
theorem max_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => (Finset.univ : Finset (Fin b)).fold max (FloatOps.ofBits φ acc) f)
      (funext fun k => congrArg src (funext fun ax => Fin.ext
        (match ax with | ⟨0, _⟩ => rfl | ⟨1, _⟩ => rfl))))

/-! ## Slices of the tiles -/

theorem k1_pay7_apply (kc : Vec Ideal S512x128 .bf16) (j : Fin 512) (c : Fin 64) :
    k1_pay7 (F := Ideal) kc (ix2 j c) = kc (ix2 j (lane1 c)) := by
  unfold k1_pay7 k1_pay5
  rw [shapeCast_self]
  exact extractStridedSlice_apply _ _ _ _ _ fun a => match a with | ⟨0, _⟩ => by simp [ix2, lane1] | ⟨1, _⟩ => by simp [ix2, lane1]

theorem k1_pay8_apply (vc : Vec Ideal S512x128 .bf16) (j : Fin 512) (c : Fin 64) :
    k1_pay8 (F := Ideal) vc (ix2 j c) = vc (ix2 j (lane0 c)) := by
  unfold k1_pay8 k1_pay6
  rw [shapeCast_self]
  exact extractStridedSlice_apply _ _ _ _ _ fun a => match a with | ⟨0, _⟩ => by simp [ix2, lane0] | ⟨1, _⟩ => by simp [ix2, lane0]

theorem k1_pay9_apply (vc : Vec Ideal S512x128 .bf16) (j : Fin 512) (c : Fin 64) :
    k1_pay9 (F := Ideal) vc (ix2 j c) = vc (ix2 j (lane1 c)) := by
  unfold k1_pay9 k1_pay6
  rw [shapeCast_self]
  exact extractStridedSlice_apply _ _ _ _ _ fun a => match a with | ⟨0, _⟩ => by simp [ix2, lane1] | ⟨1, _⟩ => by simp [ix2, lane1]

theorem k1_pay31_apply (q : Vec Ideal S1024x128 .bf16) (p : Fin 1024) (c : Fin 64) :
    k1_pay31 (F := Ideal) q (ix2 p c) = q (ix2 p (lane0 c)) := by
  unfold k1_pay31 k1_pay30
  rw [shapeCast_self]
  exact extractStridedSlice_apply _ _ _ _ _ fun a => match a with | ⟨0, _⟩ => by simp [ix2, lane0] | ⟨1, _⟩ => by simp [ix2, lane0]

theorem k1_pay32_apply (q : Vec Ideal S1024x128 .bf16) (p : Fin 1024) (c : Fin 64) :
    k1_pay32 (F := Ideal) q (ix2 p c) = q (ix2 p (lane1 c)) := by
  unfold k1_pay32 k1_pay30
  rw [shapeCast_self]
  exact extractStridedSlice_apply _ _ _ _ _ fun a => match a with | ⟨0, _⟩ => by simp [ix2, lane1] | ⟨1, _⟩ => by simp [ix2, lane1]

/-! ## The scores -/

theorem dot_qk_plain : dot_S1024x64_S64x512_S1024x512_1_0_0_1_n_n = DotDims.plain 1024 64 512 := rfl
theorem dot_pv_plain : dot_S1024x512_S512x64_S1024x64_1_0_0_1_n_n = DotDims.plain 1024 512 64 := rfl

/-- Head 0's scores of the block: row p of the query tile against row j of the key block's lanes 0 to 63, scaled. -/
theorem k1_pay10_apply (q0 : FVec Ideal S1024x64 .bf16) (kc : Vec Ideal S512x128 .bf16) (p : Fin 1024) (j : Fin 512) :
    k1_pay10 (F := Ideal) q0 kc (ix2 p j) = (∑ c : Fin 64, q0 (ix2 p c) * kc (ix2 j (lane0 c))) * cScale := by
  unfold k1_pay10 k1_pay5
  simp only [shapeCast_self]
  rw [mulf_apply, broadcast_apply, dot_qk_plain, Cert.LibMatmulPlain.matmul_plain_zero_apply]
  refine congrArg (· * cScale) (Finset.sum_congr rfl fun c _ => congrArg (q0 (ix2 p c) * ·) ?_)
  rw [transpose_ix2_apply]
  exact extractStridedSlice_apply _ _ _ _ _ fun a => match a with | ⟨0, _⟩ => by simp [ix2, lane0] | ⟨1, _⟩ => by simp [ix2, lane0]

/-- Head 1's scores of the block, from the key block's lanes already sliced. -/
theorem k1_pay18_apply (q1 : FVec Ideal S1024x64 .bf16) (k1 : FVec Ideal S512x64 .bf16) (p : Fin 1024) (j : Fin 512) :
    k1_pay18 (F := Ideal) q1 k1 (ix2 p j) = (∑ c : Fin 64, q1 (ix2 p c) * k1 (ix2 j c)) * cScale := by
  unfold k1_pay18
  (try simp only [])
  rw [mulf_apply, broadcast_apply, dot_qk_plain, Cert.LibMatmulPlain.matmul_plain_zero_apply]
  refine congrArg (· * cScale) (Finset.sum_congr rfl fun c _ => congrArg (q1 (ix2 p c) * ·) ?_)
  rw [transpose_ix2_apply]

/-! ## The running maximum -/

theorem k1_pay11_apply (q0 : FVec Ideal S1024x64 .bf16) (kc : Vec Ideal S512x128 .bf16) (m : Vec Ideal S1024x1 .f32) (p : Fin 1024) :
    k1_pay11 (F := Ideal) q0 kc m (ix2 p (0 : Fin 1))
      = max (m (ix2 p (0 : Fin 1))) ((Finset.univ : Finset (Fin 512)).fold max cNegInf (fun j => k1_pay10 (F := Ideal) q0 kc (ix2 p j))) := by
  unfold k1_pay11
  (try simp only [])
  rw [maximumf_apply]
  refine congrArg (max (m (ix2 p (0 : Fin 1)))) ?_
  refine (Cert.LibKeepdims.shapeCast_a_a1_apply _ _ p 0).trans ?_
  exact max_lanes_apply _ _ _ _ _ p

theorem k1_pay19_apply (q1 : FVec Ideal S1024x64 .bf16) (k1 : FVec Ideal S512x64 .bf16) (m : Vec Ideal S1024x1 .f32) (p : Fin 1024) :
    k1_pay19 (F := Ideal) q1 k1 m (ix2 p (0 : Fin 1))
      = max (m (ix2 p (0 : Fin 1))) ((Finset.univ : Finset (Fin 512)).fold max cNegInf (fun j => k1_pay18 (F := Ideal) q1 k1 (ix2 p j))) := by
  unfold k1_pay19
  (try simp only [])
  rw [maximumf_apply]
  refine congrArg (max (m (ix2 p (0 : Fin 1)))) ?_
  refine (Cert.LibKeepdims.shapeCast_a_a1_apply _ _ p 0).trans ?_
  exact max_lanes_apply _ _ _ _ _ p

/-! ## The rescaling factor and the block's weights -/

theorem k1_pay12_apply (q0 : FVec Ideal S1024x64 .bf16) (kc : Vec Ideal S512x128 .bf16) (m m2 : Vec Ideal S1024x1 .f32) (p : Fin 1024) :
    k1_pay12 (F := Ideal) q0 kc m m2 (ix2 p (0 : Fin 1))
      = Ideal.exp (m2 (ix2 p (0 : Fin 1)) - k1_pay11 (F := Ideal) q0 kc m (ix2 p (0 : Fin 1))) := rfl

theorem k1_pay20_apply (q1 : FVec Ideal S1024x64 .bf16) (k1 : FVec Ideal S512x64 .bf16) (m m2 : Vec Ideal S1024x1 .f32) (p : Fin 1024) :
    k1_pay20 (F := Ideal) q1 k1 m m2 (ix2 p (0 : Fin 1))
      = Ideal.exp (m2 (ix2 p (0 : Fin 1)) - k1_pay19 (F := Ideal) q1 k1 m (ix2 p (0 : Fin 1))) := rfl

theorem k1_pay13_apply (q0 : FVec Ideal S1024x64 .bf16) (kc : Vec Ideal S512x128 .bf16) (m : Vec Ideal S1024x1 .f32) (p : Fin 1024) (j : Fin 512) :
    k1_pay13 (F := Ideal) q0 kc m (ix2 p j)
      = Ideal.exp (k1_pay10 (F := Ideal) q0 kc (ix2 p j) - k1_pay11 (F := Ideal) q0 kc m (ix2 p (0 : Fin 1))) := by
  unfold k1_pay13
  show Ideal.exp (k1_pay10 (F := Ideal) q0 kc (ix2 p j) - broadcastTo S1024x512 (k1_pay11 (F := Ideal) q0 kc m) broadcasts_S1024x1_S1024x512 (ix2 p j)) = _
  rw [Cert.LibRowStat.broadcastTo_a1_ab_apply]

theorem k1_pay21_apply (q1 : FVec Ideal S1024x64 .bf16) (k1 : FVec Ideal S512x64 .bf16) (m : Vec Ideal S1024x1 .f32) (p : Fin 1024) (j : Fin 512) :
    k1_pay21 (F := Ideal) q1 k1 m (ix2 p j)
      = Ideal.exp (k1_pay18 (F := Ideal) q1 k1 (ix2 p j) - k1_pay19 (F := Ideal) q1 k1 m (ix2 p (0 : Fin 1))) := by
  unfold k1_pay21
  show Ideal.exp (k1_pay18 (F := Ideal) q1 k1 (ix2 p j) - broadcastTo S1024x512 (k1_pay19 (F := Ideal) q1 k1 m) broadcasts_S1024x1_S1024x512 (ix2 p j)) = _
  rw [Cert.LibRowStat.broadcastTo_a1_ab_apply]

/-! ## The denominator -/

theorem k1_pay14_apply (q0 : FVec Ideal S1024x64 .bf16) (kc : Vec Ideal S512x128 .bf16) (m m2 l : Vec Ideal S1024x1 .f32) (p : Fin 1024) :
    k1_pay14 (F := Ideal) q0 kc m m2 l (ix2 p (0 : Fin 1))
      = k1_pay12 (F := Ideal) q0 kc m m2 (ix2 p (0 : Fin 1)) * l (ix2 p (0 : Fin 1)) + ∑ j : Fin 512, k1_pay13 (F := Ideal) q0 kc m (ix2 p j) := by
  unfold k1_pay14
  simp only [shapeCast_self]
  rw [addf_apply, mulf_apply]
  refine congrArg (k1_pay12 (F := Ideal) q0 kc m m2 (ix2 p (0 : Fin 1)) * l (ix2 p (0 : Fin 1)) + ·) ?_
  refine (Cert.LibKeepdims.shapeCast_a_a1_apply _ _ p 0).trans ?_
  exact Cert.LibRowStat.sum_lanes_apply _ _ _ _ _ p

theorem k1_pay22_apply (q1 : FVec Ideal S1024x64 .bf16) (k1 : FVec Ideal S512x64 .bf16) (m m2 l : Vec Ideal S1024x1 .f32) (p : Fin 1024) :
    k1_pay22 (F := Ideal) q1 k1 m m2 l (ix2 p (0 : Fin 1))
      = k1_pay20 (F := Ideal) q1 k1 m m2 (ix2 p (0 : Fin 1)) * l (ix2 p (0 : Fin 1)) + ∑ j : Fin 512, k1_pay21 (F := Ideal) q1 k1 m (ix2 p j) := by
  unfold k1_pay22
  simp only [shapeCast_self]
  rw [addf_apply, mulf_apply]
  refine congrArg (k1_pay20 (F := Ideal) q1 k1 m m2 (ix2 p (0 : Fin 1)) * l (ix2 p (0 : Fin 1)) + ·) ?_
  refine (Cert.LibKeepdims.shapeCast_a_a1_apply _ _ p 0).trans ?_
  exact Cert.LibRowStat.sum_lanes_apply _ _ _ _ _ p

/-! ## The numerator -/

theorem k1_pay15_apply (q0 : FVec Ideal S1024x64 .bf16) (kc : Vec Ideal S512x128 .bf16) (m m2 : Vec Ideal S1024x1 .f32) (a : Vec Ideal S1024x64 .f32) (p : Fin 1024) (d : Fin 64) :
    k1_pay15 (F := Ideal) q0 kc m m2 a (ix2 p d) = k1_pay12 (F := Ideal) q0 kc m m2 (ix2 p (0 : Fin 1)) * a (ix2 p d) := by
  unfold k1_pay15
  (try simp only [])
  rw [mulf_apply, Cert.LibRowStat.broadcastTo_a1_ab_apply]

theorem k1_pay16_apply (v0 : FVec Ideal S512x64 .bf16) (w : FVec Ideal S1024x512 .f32) (r : FVec Ideal S1024x64 .f32) (p : Fin 1024) (d : Fin 64) :
    k1_pay16 (F := Ideal) v0 w r (ix2 p d) = r (ix2 p d) + ∑ j : Fin 512, w (ix2 p j) * v0 (ix2 j d) := by
  unfold k1_pay16
  simp only [shapeCast_self]
  rw [addf_apply, dot_pv_plain, Cert.LibMatmulPlain.matmul_plain_zero_apply]
  rfl

theorem k1_pay23_apply (q1 : FVec Ideal S1024x64 .bf16) (k1 v1 : FVec Ideal S512x64 .bf16) (m m2 : Vec Ideal S1024x1 .f32) (a : Vec Ideal S1024x64 .f32) (p : Fin 1024) (d : Fin 64) :
    k1_pay23 (F := Ideal) q1 k1 v1 m m2 a (ix2 p d)
      = k1_pay20 (F := Ideal) q1 k1 m m2 (ix2 p (0 : Fin 1)) * a (ix2 p d) + ∑ j : Fin 512, k1_pay21 (F := Ideal) q1 k1 m (ix2 p j) * v1 (ix2 j d) := by
  unfold k1_pay23
  (try simp only [])
  rw [addf_apply, mulf_apply, Cert.LibRowStat.broadcastTo_a1_ab_apply, dot_pv_plain, Cert.LibMatmulPlain.matmul_plain_zero_apply]
  rfl

/-! ## The stores that only re-spell a value, the initial values, the final normalisation -/

theorem k1_pay1_eq (x : FVec Ideal S1024x64 .f32) : k1_pay1 (F := Ideal) x = x := by unfold k1_pay1; exact shapeCast_self _ _
theorem k1_pay2_eq (x : FVec Ideal S1024x1 .f32) : k1_pay2 (F := Ideal) x = x := by unfold k1_pay2; exact shapeCast_self _ _
theorem k1_pay17_eq (x : FVec Ideal S1024x1 .f32) : k1_pay17 (F := Ideal) x = x := by unfold k1_pay17; exact shapeCast_self _ _

theorem k1_pay24_apply (i : S1024x1.Idx) : k1_pay24 (F := Ideal) i = cNegInf := by unfold k1_pay24; rw [shapeCast_self]; rfl
theorem k1_pay27_apply (i : S1024x1.Idx) : k1_pay27 (F := Ideal) i = cNegInf := by unfold k1_pay27; rw [shapeCast_self]; rfl
theorem k1_pay25_apply (i : S1024x1.Idx) : k1_pay25 (F := Ideal) i = 0 := by unfold k1_pay25; rw [shapeCast_self]; exact Ideal.ofBits_zero_f32
theorem k1_pay28_apply (i : S1024x1.Idx) : k1_pay28 (F := Ideal) i = 0 := by unfold k1_pay28; rw [shapeCast_self]; exact Ideal.ofBits_zero_f32
theorem k1_pay26_apply (i : S1024x64.Idx) : k1_pay26 (F := Ideal) i = 0 := by unfold k1_pay26; rw [shapeCast_self]; exact Ideal.ofBits_zero_f32
theorem k1_pay29_apply (i : S1024x64.Idx) : k1_pay29 (F := Ideal) i = 0 := by unfold k1_pay29; rw [shapeCast_self]; exact Ideal.ofBits_zero_f32

/-- The output's lanes of head 0: the numerator times the reciprocal of the denominator. -/
theorem k1_pay3_apply (a : Vec Ideal S1024x64 .f32) (l : Vec Ideal S1024x1 .f32) (p : Fin 1024) (d : Fin 64) :
    k1_pay3 (F := Ideal) a l (ix2 p d) = a (ix2 p d) * Ideal.div cOne (l (ix2 p (0 : Fin 1))) := by
  unfold k1_pay3
  (try simp only [])
  rw [truncf_apply, mulf_apply, Cert.LibRowStat.broadcastTo_a1_ab_apply, divf_apply, broadcast_apply]
  rfl

theorem k1_pay4_apply (a : Vec Ideal S1024x64 .f32) (l : Vec Ideal S1024x1 .f32) (p : Fin 1024) (d : Fin 64) :
    k1_pay4 (F := Ideal) a l (ix2 p d) = a (ix2 p d) * Ideal.div cOne (l (ix2 p (0 : Fin 1))) := by
  unfold k1_pay4
  (try simp only [])
  rw [truncf_apply, mulf_apply, Cert.LibRowStat.broadcastTo_a1_ab_apply, divf_apply, broadcast_apply]
  rfl

end Cert.KernelIdeal.Hand

end
-- ==== Proof.LibSoftmaxShift.lean ====
/-
  General lemmas on the softmax over the reals, for kernels that compute it blockwise with a running maximum.

  For scores s : J → ℝ and values v : J → ℝ over a finite index type, the softmax-weighted average is
  (∑ j, exp (s j) · v j) / (∑ j, exp (s j)). Subtracting any real shift r inside every exponential multiplies
  numerator and denominator by exp (−r) and leaves the quotient unchanged (`softmax_shift`); in particular the
  usual row-maximum form, which normalises the weights first, is the same number (`softmax_ref`). A blockwise
  evaluation keeps partial sums at the current shift m; when the shift moves to m', multiplying the partial sums by
  exp (m − m') restates them at the new shift (`exp_rescale`), so adding the next block's sums at m' gives the
  partial sums over both index sets at m' (`online_step`). None of this needs the shift to be the maximum.
-/
import Mathlib.Analysis.SpecialFunctions.Exp
import Mathlib.Algebra.BigOperators.Field
import Mathlib.Algebra.BigOperators.Ring.Finset
import Mathlib.Tactic.Ring

noncomputable section

open scoped BigOperators

namespace Cert.LibSoftmaxShift

/-- Changing the shift of an exponential weight: exp (m − m') · exp (s − m) = exp (s − m'). -/
theorem exp_rescale (m m' s : ℝ) : Real.exp (m - m') * Real.exp (s - m) = Real.exp (s - m') := by
  rw [← Real.exp_add]; congr 1; ring

/-- One step of the running form: the partial sums at shift m over the indices seen so far, rescaled by exp (m − m'),
    plus the new block's sums at shift m', are the partial sums at shift m' over both index sets. With v = 1 this is
    the normaliser's update, with v a column of values the weighted sum's. -/
theorem online_step {J : Type*} [DecidableEq J] (S B : Finset J) (hd : Disjoint S B) (s v : J → ℝ) (m m' : ℝ) :
    Real.exp (m - m') * (∑ j ∈ S, Real.exp (s j - m) * v j) + ∑ j ∈ B, Real.exp (s j - m') * v j
      = ∑ j ∈ S ∪ B, Real.exp (s j - m') * v j := by
  rw [Finset.sum_union hd, Finset.mul_sum]
  congr 1
  exact Finset.sum_congr rfl fun j _ => by rw [← mul_assoc, exp_rescale]

/-- The quotient of the weighted sum by the sum of the weights does not depend on the shift. -/
theorem softmax_shift {J : Type*} [Fintype J] (s v : J → ℝ) (r : ℝ) :
    (∑ j, Real.exp (s j - r) * v j) / (∑ j, Real.exp (s j - r)) = (∑ j, Real.exp (s j) * v j) / ∑ j, Real.exp (s j) := by
  have h1 : ∀ j, Real.exp (s j - r) = Real.exp (s j) * Real.exp (-r) := fun j => by rw [← Real.exp_add]; congr 1
  simp only [h1]
  rw [← Finset.sum_mul, show (∑ j, Real.exp (s j) * Real.exp (-r) * v j) = (∑ j, Real.exp (s j) * v j) * Real.exp (-r) from by
    rw [Finset.sum_mul]; exact Finset.sum_congr rfl fun j _ => by ring]
  rw [mul_div_mul_right _ _ (Real.exp_pos _).ne']

/-- The row-maximum form (any shift r): normalising the weights first and then averaging is the same quotient. -/
theorem softmax_ref {J : Type*} [Fintype J] (s v : J → ℝ) (r : ℝ) :
    ∑ j, (Real.exp (s j - r) / ∑ k, Real.exp (s k - r)) * v j = (∑ j, Real.exp (s j) * v j) / ∑ j, Real.exp (s j) := by
  rw [← softmax_shift s v r, Finset.sum_div]
  exact Finset.sum_congr rfl fun j _ => by ring

end Cert.LibSoftmaxShift

end
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.LibFlashRow.lean ====
/-
  The blockwise softmax-weighted average of one row, evaluated with a running maximum over the extended reals.

  For real scores s i j and real values v i j d, indexed by a block number i and a position j inside the block, the
  softmax-weighted average of the values is  (∑ exp (s i j − r) · v i j d) / (∑ exp (s i j − r)),  the same number
  for every real shift r.  A blockwise evaluation visits the blocks in order and keeps three quantities: a shift m
  (the maximum of the scores seen so far), the sum l of the weights exp (s − m) seen so far and, for every column d,
  the weighted sum a d of the values seen so far.  Visiting one more block moves the shift to m' = max m (block
  maximum), restates the old sums at the new shift by the factor exp (m − m') and adds the new block's sums at m'.
  Before the first block the shift is −∞ and both sums are 0; the factor exp (−∞ − m') is then 0, so the first
  block starts the sums afresh.  After the last block a d · (1 / l) is the softmax-weighted average.

  The state lives in the extended reals, with the exponential and the quotient of the idealised float semantics;
  the theorems say that on real scores and values, from the first block on, every quantity is a real number, the
  sums are the partial sums over the blocks seen at the current shift, and the final quotient is the real
  softmax-weighted average at any shift.  Nothing here needs the shift to be the maximum: only that it is real.
-/
import Mathlib
import Idealize.ShloMosaic.PureOps.Ideal
import proofs.«129024_j24481313587606_2_alg».proof.Proof.LibSoftmaxShift
import proofs.«129024_j24481313587606_2_alg».proof.Proof.LibERealSum
import proofs.«129024_j24481313587606_2_alg».proof.Proof.LibBlockSum

noncomputable section

open scoped BigOperators

namespace Cert.LibFlashRow

open Idealize.ShloMosaic

/-- The quantities kept for one row: the shift m, the sum l of the weights, and the weighted sums a d of the values,
    one for each of the D columns. -/
structure RowState (D : ℕ) where
  /-- the shift: the maximum of the scores seen so far, −∞ before the first block -/
  m : EReal
  /-- the sum of the weights exp (s − m) seen so far -/
  l : EReal
  /-- for each column, the sum of the weights times the values seen so far -/
  a : Fin D → EReal

/-- Before the first block: shift −∞, both sums 0. -/
def rowInit (D : ℕ) : RowState D := ⟨⊥, 0, fun _ => 0⟩

/-- Visiting one block of B scores s and value rows v: the shift becomes the maximum of the old shift and the block's
    scores; the old sums are multiplied by exp (old shift − new shift) and the block's sums at the new shift are added. -/
def rowStep {B D : ℕ} (s : Fin B → EReal) (v : Fin B → Fin D → EReal) (st : RowState D) : RowState D :=
  { m := max st.m (Finset.univ.fold max ⊥ s),
    l := Ideal.exp (st.m - max st.m (Finset.univ.fold max ⊥ s)) * st.l
          + ∑ j, Ideal.exp (s j - max st.m (Finset.univ.fold max ⊥ s)),
    a := fun d => Ideal.exp (st.m - max st.m (Finset.univ.fold max ⊥ s)) * st.a d
          + ∑ j, Ideal.exp (s j - max st.m (Finset.univ.fold max ⊥ s)) * v j d }

/-- The state after the first k of the n blocks (after all n of them when k ≥ n). -/
def rowStateAt {n B D : ℕ} (s : Fin n → Fin B → EReal) (v : Fin n → Fin B → Fin D → EReal) : ℕ → RowState D
  | 0 => rowInit D
  | k + 1 => if h : k < n then rowStep (s ⟨k, h⟩) (v ⟨k, h⟩) (rowStateAt s v k) else rowStateAt s v k

/-- The state after k + 1 blocks, k < n, is one step from the state after k blocks. -/
theorem rowStateAt_succ {n B D : ℕ} (s : Fin n → Fin B → EReal) (v : Fin n → Fin B → Fin D → EReal) (k : ℕ)
    (h : k < n) : rowStateAt s v (k + 1) = rowStep (s ⟨k, h⟩) (v ⟨k, h⟩) (rowStateAt s v k) := by
  rw [rowStateAt, dif_pos h]

/-! ### The extended-real operations on real arguments -/

/-- The maximum of a nonempty block of real scores, computed in the extended reals starting from −∞, is a real. -/
theorem fold_max_coe {B : ℕ} (hB : 0 < B) (s : Fin B → ℝ) :
    ∃ b : ℝ, Finset.univ.fold max ⊥ (fun j => ((s j : ℝ) : EReal)) = (b : EReal) := by
  classical
  have key : ∀ t : Finset (Fin B),
      t = ∅ ∨ ∃ b : ℝ, t.fold max ⊥ (fun j => ((s j : ℝ) : EReal)) = (b : EReal) := by
    intro t
    induction t using Finset.induction_on with
    | empty => exact Or.inl rfl
    | insert a t ha ih =>
      right
      rw [Finset.fold_insert ha]
      rcases ih with rfl | ⟨b, h⟩
      · rw [Finset.fold_empty]; exact ⟨s a, max_bot_right _⟩
      · rw [h]; exact ⟨max (s a) b, LibERealSum.max_coe _ _⟩
  haveI : Nonempty (Fin B) := Fin.pos_iff_nonempty.mp hB
  rcases key Finset.univ with h | h
  · exact absurd h Finset.univ_nonempty.ne_empty
  · exact h

/-- The exponential of a difference of two reals is the real exponential of the difference. -/
theorem exp_coe_sub_coe (x y : ℝ) : Ideal.exp ((x : EReal) - (y : EReal)) = ((Real.exp (x - y) : ℝ) : EReal) := by
  rw [← EReal.coe_sub]; rfl

/-- The exponential of −∞ minus anything is 0. -/
theorem exp_bot_sub (y : EReal) : Ideal.exp (⊥ - y) = 0 := by
  rw [EReal.bot_sub]; rfl

/-! ### One step -/

/-- One step from a real state: the new shift is the real maximum, the new sums are real and given by the
    real update formulas. -/
theorem rowStep_coe {B D : ℕ} (s : Fin B → ℝ) (v : Fin B → Fin D → ℝ) (st : RowState D) (m l b : ℝ) (a : Fin D → ℝ)
    (hm : st.m = (m : EReal)) (hl : st.l = (l : EReal)) (ha : ∀ d, st.a d = (a d : EReal))
    (hb : Finset.univ.fold max ⊥ (fun j => ((s j : ℝ) : EReal)) = (b : EReal)) :
    (rowStep (fun j => ((s j : ℝ) : EReal)) (fun j d => ((v j d : ℝ) : EReal)) st).m = ((max m b : ℝ) : EReal)
    ∧ (rowStep (fun j => ((s j : ℝ) : EReal)) (fun j d => ((v j d : ℝ) : EReal)) st).l
        = ((Real.exp (m - max m b) * l + ∑ j, Real.exp (s j - max m b) : ℝ) : EReal)
    ∧ ∀ d, (rowStep (fun j => ((s j : ℝ) : EReal)) (fun j d => ((v j d : ℝ) : EReal)) st).a d
        = ((Real.exp (m - max m b) * a d + ∑ j, Real.exp (s j - max m b) * v j d : ℝ) : EReal) := by
  have hmax : max st.m (Finset.univ.fold max ⊥ (fun j => ((s j : ℝ) : EReal))) = ((max m b : ℝ) : EReal) := by
    rw [hm, hb, LibERealSum.max_coe]
  refine ⟨hmax, ?_, fun d => ?_⟩
  · show Ideal.exp (st.m - max st.m (Finset.univ.fold max ⊥ (fun j => ((s j : ℝ) : EReal)))) * st.l
        + ∑ j, Ideal.exp (((s j : ℝ) : EReal) - max st.m (Finset.univ.fold max ⊥ (fun j => ((s j : ℝ) : EReal)))) = _
    rw [hmax, hm, hl, exp_coe_sub_coe, EReal.coe_add, EReal.coe_mul, LibERealSum.coe_sum]
    exact congrArg₂ (· + ·) rfl (Finset.sum_congr rfl fun j _ => exp_coe_sub_coe _ _)
  · show Ideal.exp (st.m - max st.m (Finset.univ.fold max ⊥ (fun j => ((s j : ℝ) : EReal)))) * st.a d
        + ∑ j, Ideal.exp (((s j : ℝ) : EReal) - max st.m (Finset.univ.fold max ⊥ (fun j => ((s j : ℝ) : EReal))))
            * ((v j d : ℝ) : EReal) = _
    rw [hmax, hm, ha d, exp_coe_sub_coe, EReal.coe_add, EReal.coe_mul, LibERealSum.coe_sum]
    exact congrArg₂ (· + ·) rfl (Finset.sum_congr rfl fun j _ => by rw [exp_coe_sub_coe, EReal.coe_mul])

/-- The first step, from the state before the first block: the new shift is the block maximum and the new sums are
    the block's own sums at that shift (the old sums enter with the factor exp (−∞ − shift) = 0). -/
theorem rowStep_init {B D : ℕ} (s : Fin B → ℝ) (v : Fin B → Fin D → ℝ) (b : ℝ)
    (hb : Finset.univ.fold max ⊥ (fun j => ((s j : ℝ) : EReal)) = (b : EReal)) :
    (rowStep (fun j => ((s j : ℝ) : EReal)) (fun j d => ((v j d : ℝ) : EReal)) (rowInit D)).m = (b : EReal)
    ∧ (rowStep (fun j => ((s j : ℝ) : EReal)) (fun j d => ((v j d : ℝ) : EReal)) (rowInit D)).l
        = ((∑ j, Real.exp (s j - b) : ℝ) : EReal)
    ∧ ∀ d, (rowStep (fun j => ((s j : ℝ) : EReal)) (fun j d => ((v j d : ℝ) : EReal)) (rowInit D)).a d
        = ((∑ j, Real.exp (s j - b) * v j d : ℝ) : EReal) := by
  have hmax : max (⊥ : EReal) (Finset.univ.fold max ⊥ (fun j => ((s j : ℝ) : EReal))) = (b : EReal) := by
    rw [hb]; exact max_bot_left _
  refine ⟨hmax, ?_, fun d => ?_⟩
  · show Ideal.exp ((⊥ : EReal) - max (⊥ : EReal) (Finset.univ.fold max ⊥ (fun j => ((s j : ℝ) : EReal)))) * (0 : EReal)
        + ∑ j, Ideal.exp (((s j : ℝ) : EReal) - max (⊥ : EReal) (Finset.univ.fold max ⊥ (fun j => ((s j : ℝ) : EReal)))) = _
    rw [hmax, exp_bot_sub, zero_mul, zero_add, LibERealSum.coe_sum]
    exact Finset.sum_congr rfl fun j _ => exp_coe_sub_coe _ _
  · show Ideal.exp ((⊥ : EReal) - max (⊥ : EReal) (Finset.univ.fold max ⊥ (fun j => ((s j : ℝ) : EReal)))) * (0 : EReal)
        + ∑ j, Ideal.exp (((s j : ℝ) : EReal) - max (⊥ : EReal) (Finset.univ.fold max ⊥ (fun j => ((s j : ℝ) : EReal))))
            * ((v j d : ℝ) : EReal) = _
    rw [hmax, exp_bot_sub, zero_mul, zero_add, LibERealSum.coe_sum]
    exact Finset.sum_congr rfl fun j _ => by rw [exp_coe_sub_coe, EReal.coe_mul]

/-! ### Partial sums over the blocks seen so far -/

/-- The sum, over the first k blocks (at most n) and all positions, of the weight exp (s − m) times w. -/
def partSum {n B : ℕ} (s w : Fin n → Fin B → ℝ) (m : ℝ) (k : ℕ) : ℝ :=
  ∑ i ∈ Finset.range k, if h : i < n then ∑ j, Real.exp (s ⟨i, h⟩ j - m) * w ⟨i, h⟩ j else 0

/-- Over no block the partial sum is 0. -/
theorem partSum_zero {n B : ℕ} (s w : Fin n → Fin B → ℝ) (m : ℝ) : partSum s w m 0 = 0 := by
  rw [partSum, Finset.range_zero, Finset.sum_empty]

/-- One more block adds that block's sum. -/
theorem partSum_succ {n B : ℕ} (s w : Fin n → Fin B → ℝ) (m : ℝ) (k : ℕ) (h : k < n) :
    partSum s w m (k + 1) = partSum s w m k + ∑ j, Real.exp (s ⟨k, h⟩ j - m) * w ⟨k, h⟩ j := by
  rw [partSum, Finset.sum_range_succ, dif_pos h]; rfl

/-- Moving the shift from m to m' multiplies a partial sum by exp (m − m'). -/
theorem partSum_rescale {n B : ℕ} (s w : Fin n → Fin B → ℝ) (m m' : ℝ) (k : ℕ) :
    Real.exp (m - m') * partSum s w m k = partSum s w m' k := by
  rw [partSum, partSum, Finset.mul_sum]
  refine Finset.sum_congr rfl fun i _ => ?_
  by_cases h : i < n
  · rw [dif_pos h, dif_pos h, Finset.mul_sum]
    exact Finset.sum_congr rfl fun j _ => by rw [← mul_assoc, LibSoftmaxShift.exp_rescale]
  · rw [dif_neg h, dif_neg h, mul_zero]

/-- Over all n blocks the partial sum is the double sum over blocks and positions. -/
theorem partSum_full {n B : ℕ} (s w : Fin n → Fin B → ℝ) (m : ℝ) :
    partSum s w m n = ∑ i, ∑ j, Real.exp (s i j - m) * w i j := by
  rw [partSum, Finset.sum_range]
  exact Finset.sum_congr rfl fun i _ => by rw [dif_pos i.isLt]

/-! ### The state after k + 1 blocks -/

/-- From the first block on the state is real: for some real shift m, the sum of the weights and the weighted sums
    of the values are the partial sums at shift m over the blocks seen. -/
theorem rowStateAt_succ_coe {n B D : ℕ} (hB : 0 < B) (s : Fin n → Fin B → ℝ) (v : Fin n → Fin B → Fin D → ℝ) :
    ∀ k : ℕ, k < n → ∃ m : ℝ,
      (rowStateAt (fun i j => ((s i j : ℝ) : EReal)) (fun i j d => ((v i j d : ℝ) : EReal)) (k + 1)).m = (m : EReal)
      ∧ (rowStateAt (fun i j => ((s i j : ℝ) : EReal)) (fun i j d => ((v i j d : ℝ) : EReal)) (k + 1)).l
          = ((partSum s (fun _ _ => 1) m (k + 1) : ℝ) : EReal)
      ∧ ∀ d, (rowStateAt (fun i j => ((s i j : ℝ) : EReal)) (fun i j d => ((v i j d : ℝ) : EReal)) (k + 1)).a d
          = ((partSum s (fun i j => v i j d) m (k + 1) : ℝ) : EReal) := by
  intro k
  induction k with
  | zero =>
    intro hk
    obtain ⟨b, hb⟩ := fold_max_coe hB (s ⟨0, hk⟩)
    obtain ⟨h1, h2, h3⟩ := rowStep_init (s ⟨0, hk⟩) (v ⟨0, hk⟩) b hb
    refine ⟨b, ?_, ?_, fun d => ?_⟩
    · rw [rowStateAt_succ _ _ 0 hk]; exact h1
    · rw [rowStateAt_succ _ _ 0 hk, partSum_succ _ _ _ 0 hk, partSum_zero, zero_add]
      simp only [mul_one]; exact h2
    · rw [rowStateAt_succ _ _ 0 hk, partSum_succ _ _ _ 0 hk, partSum_zero, zero_add]; exact h3 d
  | succ k ih =>
    intro hk
    obtain ⟨m, i1, i2, i3⟩ := ih (Nat.lt_of_succ_lt hk)
    obtain ⟨b, hb⟩ := fold_max_coe hB (s ⟨k + 1, hk⟩)
    obtain ⟨h1, h2, h3⟩ := rowStep_coe (s ⟨k + 1, hk⟩) (v ⟨k + 1, hk⟩) _ m _ b _ i1 i2 i3 hb
    refine ⟨max m b, ?_, ?_, fun d => ?_⟩
    · rw [rowStateAt_succ _ _ (k + 1) hk]; exact h1
    · rw [rowStateAt_succ _ _ (k + 1) hk, partSum_succ _ _ _ (k + 1) hk, ← partSum_rescale s _ m (max m b)]
      simp only [mul_one]; exact h2
    · rw [rowStateAt_succ _ _ (k + 1) hk, partSum_succ _ _ _ (k + 1) hk, ← partSum_rescale s _ m (max m b)]
      exact h3 d

/-! ### The final quotient -/

/-- The quotient of the weighted double sum by the double sum of the weights does not depend on the shift. -/
theorem shift_indep {n B : ℕ} (s w : Fin n → Fin B → ℝ) (m r : ℝ) :
    (∑ i, ∑ j, Real.exp (s i j - m) * w i j) / (∑ i, ∑ j, Real.exp (s i j - m))
      = (∑ i, ∑ j, Real.exp (s i j - r) * w i j) / (∑ i, ∑ j, Real.exp (s i j - r)) := by
  have h := fun t => LibSoftmaxShift.softmax_shift (J := Fin n × Fin B) (fun p => s p.1 p.2) (fun p => w p.1 p.2) t
  simp only [Fintype.sum_prod_type] at h
  rw [h m, h r]

/-- After all n blocks of B real scores and values, the weighted sum times the reciprocal of the sum of the weights is
    the softmax-weighted average of the values, written at any real shift r. -/
theorem row_final {n B D : ℕ} (hn : 0 < n) (hB : 0 < B) (s : Fin n → Fin B → ℝ) (v : Fin n → Fin B → Fin D → ℝ)
    (r : ℝ) (d : Fin D) :
    (rowStateAt (fun k j => ((s k j : ℝ) : EReal)) (fun k j d => ((v k j d : ℝ) : EReal)) n).a d
      * Ideal.div 1 (rowStateAt (fun k j => ((s k j : ℝ) : EReal)) (fun k j d => ((v k j d : ℝ) : EReal)) n).l
    = (((∑ k, ∑ j, Real.exp (s k j - r) * v k j d) / (∑ k, ∑ j, Real.exp (s k j - r)) : ℝ) : EReal) := by
  obtain ⟨n', rfl⟩ := Nat.exists_eq_succ_of_ne_zero hn.ne'
  obtain ⟨m, _, h2, h3⟩ := rowStateAt_succ_coe hB s v n' (Nat.lt_succ_self n')
  haveI : Nonempty (Fin B) := Fin.pos_iff_nonempty.mp hB
  have hL : (∑ i : Fin (n' + 1), ∑ j : Fin B, Real.exp (s i j - m)) ≠ 0 :=
    (Finset.sum_pos (fun i _ => Finset.sum_pos (fun j _ => Real.exp_pos _) Finset.univ_nonempty)
      Finset.univ_nonempty).ne'
  rw [h2, h3 d, partSum_full, partSum_full]
  simp only [mul_one]
  rw [Ideal.div_coe hL, one_mul, ← EReal.coe_mul, mul_one_div, shift_indep s (fun i j => v i j d) m r]

/-- The same with the n · B scores and values given as one range cut into n blocks of B: position j of block k is
    the index (k, j) of the range. -/
theorem row_final_flat {n B D : ℕ} (hn : 0 < n) (hB : 0 < B) (s : Fin (n * B) → ℝ) (v : Fin (n * B) → Fin D → ℝ)
    (r : ℝ) (d : Fin D) :
    (rowStateAt (fun k j => ((s (finProdFinEquiv (k, j)) : ℝ) : EReal))
        (fun k j d => ((v (finProdFinEquiv (k, j)) d : ℝ) : EReal)) n).a d
      * Ideal.div 1 (rowStateAt (fun k j => ((s (finProdFinEquiv (k, j)) : ℝ) : EReal))
        (fun k j d => ((v (finProdFinEquiv (k, j)) d : ℝ) : EReal)) n).l
    = (((∑ i, Real.exp (s i - r) * v i d) / (∑ i, Real.exp (s i - r)) : ℝ) : EReal) := by
  refine (row_final hn hB (fun k j => s (finProdFinEquiv (k, j))) (fun k j d => v (finProdFinEquiv (k, j)) d) r d).trans ?_
  rw [LibBlockSum.sum_blocks (fun i => Real.exp (s i - r) * v i d), LibBlockSum.sum_blocks (fun i => Real.exp (s i - r))]

/-- The softmax-weighted average written with the weights normalised first: dividing the weighted sum by the sum of
    the weights is the same as summing the values against the normalised weights. -/
theorem softmax_avg_eq (N D : ℕ) (s : Fin N → ℝ) (v : Fin N → Fin D → ℝ) (r : ℝ) (d : Fin D) (hN : 0 < N) :
    (∑ i, Real.exp (s i - r) * v i d) / (∑ i, Real.exp (s i - r))
      = ∑ i, (Real.exp (s i - r) / ∑ k, Real.exp (s k - r)) * v i d := by
  rw [Finset.sum_div]
  exact Finset.sum_congr rfl fun i _ => by ring

end Cert.LibFlashRow

end
-- ==== Proof.KI.Value1b.lean ====
/-
  The flash kernel's running state at one query row is the online-softmax recurrence of that row.

  At query row p, head 0's three scratch quantities after n trips are the row recurrence's maximum, denominator and
  numerator after n blocks, the k-th block's scores being row p of the head's query tile against the 512 key rows the
  trip reads (scaled), and its value rows those the trip reads; likewise head 1 on lanes 64 to 127. So the output
  block's entry is the recurrence's final numerator times the reciprocal of its final denominator.
-/
import proofs.«129024_j24481313587606_2_alg».proof.Proof.KI.Value1a
import proofs.«129024_j24481313587606_2_alg».proof.Proof.LibFlashRow

noncomputable section

namespace Cert.KernelIdeal.Hand

open Cert.KernelIdeal Cert.KernelIdeal.Gen
open Idealize.ShloMosaic Idealize.ShloMosaic.ValueIdx
open Cert.LibFlashRow

/-! ## Literals -/

theorem negInf_eq : Ideal.ofBits .f32 0xFF800000#32 = (⊥ : EReal) := by simp [Ideal.ofBits, Ideal.ieee]
theorem one_eq : Ideal.ofBits .f32 0x3F800000#32 = (1 : EReal) := by
  simp [Ideal.ofBits, Ideal.ieee]; first | (rw [← EReal.coe_mul]; congr 1; norm_num) | (norm_cast; norm_num) | (push_cast; rw [← EReal.coe_mul]; norm_num)
theorem eighth_eq : Ideal.ofBits .f32 0x3E000000#32 = (((1 / 8 : ℝ)) : EReal) := by
  simp [Ideal.ofBits, Ideal.ieee]; first | (rw [← EReal.coe_mul]; congr 1; norm_num) | (norm_cast; norm_num) | (push_cast; rw [← EReal.coe_mul]; norm_num)

/-! ## One block of one head at one row -/

/-- Head 0's scores of a key block at query row p. -/
def blkS0 (q0 : FVec Ideal S1024x64 .bf16) (kc : Vec Ideal S512x128 .bf16) (p : Fin 1024) : Fin 512 → EReal :=
  fun j => (∑ c : Fin 64, q0 (ix2 p c) * kc (ix2 j (lane0 c))) * cScale
/-- Head 1's scores of a key block at query row p. -/
def blkS1 (q1 : FVec Ideal S1024x64 .bf16) (kc : Vec Ideal S512x128 .bf16) (p : Fin 1024) : Fin 512 → EReal :=
  fun j => (∑ c : Fin 64, q1 (ix2 p c) * kc (ix2 j (lane1 c))) * cScale
/-- Head 0's value rows of a block. -/
def blkV0 (vc : Vec Ideal S512x128 .bf16) : Fin 512 → Fin 64 → EReal := fun j d => vc (ix2 j (lane0 d))
/-- Head 1's value rows of a block. -/
def blkV1 (vc : Vec Ideal S512x128 .bf16) : Fin 512 → Fin 64 → EReal := fun j d => vc (ix2 j (lane1 d))

/-- Head 0's running quantities at row p. -/
def row0 (s : FlashState Ideal) (p : Fin 1024) : RowState 64 :=
  ⟨s.m0 (ix2 p (0 : Fin 1)), s.l0 (ix2 p (0 : Fin 1)), fun d => s.a0 (ix2 p d)⟩
/-- Head 1's running quantities at row p. -/
def row1 (s : FlashState Ideal) (p : Fin 1024) : RowState 64 :=
  ⟨s.m1 (ix2 p (0 : Fin 1)), s.l1 (ix2 p (0 : Fin 1)), fun d => s.a1 (ix2 p d)⟩

theorem pay10_row (q0 : FVec Ideal S1024x64 .bf16) (kc : Vec Ideal S512x128 .bf16) (p : Fin 1024) :
    (fun j : Fin 512 => k1_pay10 (F := Ideal) q0 kc (ix2 p j)) = blkS0 q0 kc p :=
  funext fun j => k1_pay10_apply q0 kc p j

theorem pay18_row (q1 : FVec Ideal S1024x64 .bf16) (kc : Vec Ideal S512x128 .bf16) (p : Fin 1024) :
    (fun j : Fin 512 => k1_pay18 (F := Ideal) q1 (k1_pay7 (F := Ideal) kc) (ix2 p j)) = blkS1 q1 kc p :=
  funext fun j => (k1_pay18_apply q1 _ p j).trans (by simp only [k1_pay7_apply]; rfl)

/-- One trip at row p, head 0: the row recurrence's step on the block's scores and value rows. -/
theorem row0_step (q0 q1 : FVec Ideal S1024x64 .bf16) (kc vc : Vec Ideal S512x128 .bf16) (s : FlashState Ideal) (p : Fin 1024) :
    row0 (flashStep q0 q1 kc vc s) p = rowStep (blkS0 q0 kc p) (blkV0 vc) (row0 s p) := by
  have hm : k1_pay11 (F := Ideal) q0 kc s.m0 (ix2 p (0 : Fin 1))
      = max (s.m0 (ix2 p (0 : Fin 1))) ((Finset.univ : Finset (Fin 512)).fold max ⊥ (blkS0 q0 kc p)) := by
    rw [k1_pay11_apply, pay10_row]; show max _ (Finset.fold max (Ideal.ofBits .f32 0xFF800000#32) _ _) = _; rw [negInf_eq]
  unfold row0 rowStep flashStep
  simp only [k1_pay17_eq]
  rw [RowState.mk.injEq]
  refine ⟨hm, ?_, ?_⟩
  · rw [k1_pay14_apply, k1_pay12_apply, hm]
    refine congrArg (_ + ·) (Finset.sum_congr rfl fun j _ => ?_)
    rw [k1_pay13_apply, hm, k1_pay10_apply]; rfl
  · funext d
    rw [k1_pay16_apply, k1_pay15_apply, k1_pay12_apply, hm]
    refine congrArg (_ + ·) (Finset.sum_congr rfl fun j _ => ?_)
    rw [k1_pay13_apply, hm, k1_pay10_apply, k1_pay8_apply]; rfl

/-- One trip at row p, head 1. -/
theorem row1_step (q0 q1 : FVec Ideal S1024x64 .bf16) (kc vc : Vec Ideal S512x128 .bf16) (s : FlashState Ideal) (p : Fin 1024) :
    row1 (flashStep q0 q1 kc vc s) p = rowStep (blkS1 q1 kc p) (blkV1 vc) (row1 s p) := by
  have hm : k1_pay19 (F := Ideal) q1 (k1_pay7 (F := Ideal) kc) s.m1 (ix2 p (0 : Fin 1))
      = max (s.m1 (ix2 p (0 : Fin 1))) ((Finset.univ : Finset (Fin 512)).fold max ⊥ (blkS1 q1 kc p)) := by
    rw [k1_pay19_apply, pay18_row]; show max _ (Finset.fold max (Ideal.ofBits .f32 0xFF800000#32) _ _) = _; rw [negInf_eq]
  have hs : ∀ j : Fin 512, k1_pay18 (F := Ideal) q1 (k1_pay7 (F := Ideal) kc) (ix2 p j) = blkS1 q1 kc p j :=
    fun j => congrFun (pay18_row q1 kc p) j
  unfold row1 rowStep flashStep
  simp only [k1_pay1_eq, k1_pay2_eq]
  rw [RowState.mk.injEq]
  refine ⟨hm, ?_, ?_⟩
  · rw [k1_pay22_apply, k1_pay20_apply, hm]
    refine congrArg (_ + ·) (Finset.sum_congr rfl fun j _ => ?_)
    rw [k1_pay21_apply, hm, hs]
  · funext d
    rw [k1_pay23_apply, k1_pay20_apply, hm]
    refine congrArg (_ + ·) (Finset.sum_congr rfl fun j _ => ?_)
    rw [k1_pay21_apply, hm, hs, k1_pay9_apply]; rfl

/-- Before the first trip both heads' rows are the recurrence's initial state. -/
theorem row0_init (p : Fin 1024) : row0 (flashInit (F := Ideal)) p = rowInit 64 := by
  unfold row0 flashInit rowInit
  simp only [k1_pay24_apply, k1_pay25_apply, k1_pay26_apply, negInf_eq]
theorem row1_init (p : Fin 1024) : row1 (flashInit (F := Ideal)) p = rowInit 64 := by
  unfold row1 flashInit rowInit
  simp only [k1_pay27_apply, k1_pay28_apply, k1_pay29_apply, negInf_eq]

/-! ## All the trips -/

/-- After n trips, head 0's row p is the row recurrence after n blocks. -/
theorem row0_stateAt (q0 q1 : FVec Ideal S1024x64 .bf16) (kk vv : Vec Ideal S4096x128 .bf16) (p : Fin 1024) (n : ℕ) :
    row0 (stateAt q0 q1 kk vv n) p
      = rowStateAt (n := k1_t1_loop.trips) (fun k => blkS0 q0 (View.ld kk (chunkRect k)) p) (fun k => blkV0 (View.ld vv (chunkRect k))) n := by
  induction n with
  | zero => exact row0_init p
  | succ n ih =>
    rw [stateAt, rowStateAt]
    by_cases h : n < k1_t1_loop.trips
    · rw [dif_pos h, dif_pos h, row0_step, ih]
    · rw [dif_neg h, dif_neg h, ih]

theorem row1_stateAt (q0 q1 : FVec Ideal S1024x64 .bf16) (kk vv : Vec Ideal S4096x128 .bf16) (p : Fin 1024) (n : ℕ) :
    row1 (stateAt q0 q1 kk vv n) p
      = rowStateAt (n := k1_t1_loop.trips) (fun k => blkS1 q1 (View.ld kk (chunkRect k)) p) (fun k => blkV1 (View.ld vv (chunkRect k))) n := by
  induction n with
  | zero => exact row1_init p
  | succ n ih =>
    rw [stateAt, rowStateAt]
    by_cases h : n < k1_t1_loop.trips
    · rw [dif_pos h, dif_pos h, row1_step, ih]
    · rw [dif_neg h, dif_neg h, ih]

end Cert.KernelIdeal.Hand

end
-- ==== Proof.KI.Value1c.lean ====
/-
  The flash kernel's output block for real tiles: the softmax-weighted average of the value rows.

  The output block at row p and lane d of head 0 (lane 64 + d for head 1) is the final numerator times the reciprocal
  of the final denominator of the row's online-softmax recurrence. When the query, key and value tiles hold real
  numbers, the k-th block's scores are real, and the recurrence's result is the quotient of the sum of
  exp(score) · value by the sum of exp(score) over all 4096 key rows: the shift inside the exponentials cancels.
-/
import proofs.«129024_j24481313587606_2_alg».proof.Proof.KI.Value1b
import proofs.«129024_j24481313587606_2_alg».proof.Proof.LibERealSum

noncomputable section

namespace Cert.KernelIdeal.Hand

open Cert.KernelIdeal Cert.KernelIdeal.Gen
open Idealize.ShloMosaic Idealize.ShloMosaic.ValueIdx
open Cert.LibFlashRow

/-! ## The output block at an index -/

theorem trips_eq : k1_t1_loop.trips = 8 := by decide

/-- Trip k reads from row 512 k on, -/
theorem off1_row : ∀ k : Fin k1_t1_loop.trips, k1_off1 k 0 = 512 * k.val := by decide +kernel
/-- from lane 0 on. -/
theorem off1_lane : ∀ k : Fin k1_t1_loop.trips, k1_off1 k 1 = 0 := by decide +kernel

/-- The rows trip k reads, at row j and lane l of the block: row 512 k + j of the whole tile. -/
theorem ld_chunk (kk : Vec Ideal S4096x128 .bf16) (k : Fin k1_t1_loop.trips) (j : Fin 512) (l : Fin 128) (i : Fin 4096)
    (hi : i.val = 512 * k.val + j.val) :
    View.ld kk (chunkRect k) (ix2 j l) = kk (ix2 i l) := by
  show kk ((chunkRect k).emb (ix2 j l)) = kk (ix2 i l)
  refine congrArg kk (funext fun a => Fin.ext ?_)
  match a with
  | ⟨0, _⟩ => show k1_off1 k 0 + 1 * j.val = i.val; rw [off1_row, hi]; omega
  | ⟨1, _⟩ => show k1_off1 k 1 + 1 * l.val = l.val; rw [off1_lane]; omega

theorem emb_lo (p : Fin 1024) (d : Fin 64) : rOutLo.emb (ix2 p d) = ix2 p (lane0 d) :=
  funext fun a => Fin.ext (match a with
    | ⟨0, _⟩ => by show 0 + 1 * p.val = p.val; omega
    | ⟨1, _⟩ => by show 0 + 1 * d.val = d.val; omega)

theorem emb_hi (p : Fin 1024) (d : Fin 64) : rOutHi.emb (ix2 p d) = ix2 p (lane1 d) :=
  funext fun a => Fin.ext (match a with
    | ⟨0, _⟩ => by show 0 + 1 * p.val = p.val; omega
    | ⟨1, _⟩ => by show 64 + 1 * d.val = 64 + d.val; omega)

/-- The block assembled from the two heads' 64-lane tiles: lanes 0 to 63 from the first, 64 to 127 from the second. -/
def outG (w0 w1 : Vec Ideal S1024x64 .bf16) : S1024x128.Idx → Elt Ideal .bf16 := fun y =>
  if h : (y 1).val < 64 then w0 (ix2 (y 0) ⟨(y 1).val, h⟩)
  else w1 (ix2 (y 0) ⟨(y 1).val - 64, by have h2 : (y 1).val < 128 := (y 1).isLt; omega⟩)

theorem outG_lane0 (w0 w1 : Vec Ideal S1024x64 .bf16) (p : Fin 1024) (d : Fin 64) : outG w0 w1 (ix2 p (lane0 d)) = w0 (ix2 p d) := by
  unfold outG
  have h : ((ix2 p (lane0 d) : S1024x128.Idx) 1).val < 64 := d.isLt
  rw [dif_pos h]
  rfl

theorem outG_lane1 (w0 w1 : Vec Ideal S1024x64 .bf16) (p : Fin 1024) (d : Fin 64) : outG w0 w1 (ix2 p (lane1 d)) = w1 (ix2 p d) := by
  unfold outG
  have h : ¬ ((ix2 p (lane1 d) : S1024x128.Idx) 1).val < 64 := by show ¬ (64 + d.val < 64); omega
  rw [dif_neg h]
  refine congrArg w1 (funext fun a => Fin.ext ?_)
  match a with
  | ⟨0, _⟩ => rfl
  | ⟨1, _⟩ => show 64 + d.val - 64 = d.val; omega

/-- The two half-width stores leave the assembled block: each store's payload is the assembled block on its lanes. -/
theorem canon_out (w0 w1 : Vec Ideal S1024x64 .bf16) (y : S1024x128.Idx) :
    View.canon [(⟨rOutHi, w1⟩ : View.Piece (Elt Ideal) S1024x128 .bf16), ⟨rOutLo, w0⟩] y = outG w0 w1 y := by
  refine View.canon_apply_of_pieces (outG w0 w1) _ ?_ y (cover_out (F := Ideal) w0 w1 y)
  intro pc hpc x
  rcases List.mem_cons.mp hpc with rfl | hpc
  · revert x
    show ∀ x : S1024x64.Idx, w1 x = outG w0 w1 (rOutHi.emb x)
    intro x
    obtain ⟨a, b, rfl⟩ : ∃ (a : Fin 1024) (b : Fin 64), x = ix2 a b := ⟨x 0, x 1, eq_ix2 x⟩
    rw [emb_hi, outG_lane1]
  · rcases List.mem_singleton.mp hpc with rfl
    revert x
    show ∀ x : S1024x64.Idx, w0 x = outG w0 w1 (rOutLo.emb x)
    intro x
    obtain ⟨a, b, rfl⟩ : ∃ (a : Fin 1024) (b : Fin 64), x = ix2 a b := ⟨x 0, x 1, eq_ix2 x⟩
    rw [emb_lo, outG_lane0]

/-- Head 0's lanes of the output block: the row recurrence's final numerator times the reciprocal of its denominator. -/
theorem outTile_lane0 (q : Vec Ideal S1024x128 .bf16) (kk vv : Vec Ideal S4096x128 .bf16) (p : Fin 1024) (d : Fin 64) :
    outTile (F := Ideal) q kk vv (ix2 p (lane0 d))
      = (rowStateAt (n := k1_t1_loop.trips) (fun k => blkS0 (k1_pay31 (F := Ideal) q) (View.ld kk (chunkRect k)) p) (fun k => blkV0 (View.ld vv (chunkRect k))) k1_t1_loop.trips).a d
        * Ideal.div 1 (rowStateAt (n := k1_t1_loop.trips) (fun k => blkS0 (k1_pay31 (F := Ideal) q) (View.ld kk (chunkRect k)) p) (fun k => blkV0 (View.ld vv (chunkRect k))) k1_t1_loop.trips).l := by
  unfold outTile
  rw [canon_out, outG_lane0, k1_pay3_apply]
  unfold finalState
  rw [← row0_stateAt (k1_pay31 (F := Ideal) q) (k1_pay32 (F := Ideal) q) kk vv p]
  show _ * Ideal.div (Ideal.ofBits .f32 0x3F800000#32) _ = _
  rw [one_eq]
  rfl

/-- Head 1's lanes. -/
theorem outTile_lane1 (q : Vec Ideal S1024x128 .bf16) (kk vv : Vec Ideal S4096x128 .bf16) (p : Fin 1024) (d : Fin 64) :
    outTile (F := Ideal) q kk vv (ix2 p (lane1 d))
      = (rowStateAt (n := k1_t1_loop.trips) (fun k => blkS1 (k1_pay32 (F := Ideal) q) (View.ld kk (chunkRect k)) p) (fun k => blkV1 (View.ld vv (chunkRect k))) k1_t1_loop.trips).a d
        * Ideal.div 1 (rowStateAt (n := k1_t1_loop.trips) (fun k => blkS1 (k1_pay32 (F := Ideal) q) (View.ld kk (chunkRect k)) p) (fun k => blkV1 (View.ld vv (chunkRect k))) k1_t1_loop.trips).l := by
  unfold outTile
  rw [canon_out, outG_lane1, k1_pay4_apply]
  unfold finalState
  rw [← row1_stateAt (k1_pay31 (F := Ideal) q) (k1_pay32 (F := Ideal) q) kk vv p]
  show _ * Ideal.div (Ideal.ofBits .f32 0x3F800000#32) _ = _
  rw [one_eq]
  rfl

/-! ## Real tiles -/

/-- An index of the eight blocks of 512 rows is a row of the 4096. -/
theorem lt4096 (i : Fin (k1_t1_loop.trips * 512)) : i.val < 4096 := by
  have h := i.isLt
  have e := trips_eq
  omega

/-- Row j of block k is row 512 k + j. -/
theorem prod_val (k : Fin k1_t1_loop.trips) (j : Fin 512) :
    (⟨(finProdFinEquiv (k, j)).val, lt4096 (finProdFinEquiv (k, j))⟩ : Fin 4096).val = 512 * k.val + j.val := by
  show (finProdFinEquiv (k, j)).val = 512 * k.val + j.val
  rw [finProdFinEquiv_apply_val]
  show j.val + 512 * k.val = 512 * k.val + j.val
  omega

/-- A sum over the eight blocks' rows is the sum over the 4096 rows. -/
theorem sum_flat (f : Fin 4096 → ℝ) :
    (∑ i : Fin (k1_t1_loop.trips * 512), f ⟨i.val, lt4096 i⟩) = ∑ i : Fin 4096, f i :=
  Fintype.sum_equiv (finCongr (by rw [trips_eq])) _ _ (fun i => rfl)

/-- Head 0's lanes of the output block for real tiles: the softmax-weighted average of the value rows, the scores
    being the query row against the key rows on the head's 64 lanes, divided by 8. -/
theorem outTile_real0 (q : Vec Ideal S1024x128 .bf16) (kk vv : Vec Ideal S4096x128 .bf16)
    (qr : Fin 1024 → Fin 128 → ℝ) (kr vr : Fin 4096 → Fin 128 → ℝ)
    (hq : ∀ p l, q (ix2 p l) = ((qr p l : ℝ) : EReal)) (hk : ∀ i l, kk (ix2 i l) = ((kr i l : ℝ) : EReal))
    (hv : ∀ i l, vv (ix2 i l) = ((vr i l : ℝ) : EReal)) (p : Fin 1024) (d : Fin 64) :
    outTile (F := Ideal) q kk vv (ix2 p (lane0 d))
      = (((∑ i : Fin 4096, Real.exp ((∑ c : Fin 64, qr p (lane0 c) * kr i (lane0 c)) / 8 - 0) * vr i (lane0 d))
          / (∑ i : Fin 4096, Real.exp ((∑ c : Fin 64, qr p (lane0 c) * kr i (lane0 c)) / 8 - 0)) : ℝ) : EReal) := by
  rw [outTile_lane0]
  have hs : (fun (k : Fin k1_t1_loop.trips) => blkS0 (k1_pay31 (F := Ideal) q) (View.ld kk (chunkRect k)) p)
      = fun k j => (((fun i : Fin (k1_t1_loop.trips * 512) => (∑ c : Fin 64, qr p (lane0 c) * kr ⟨i.val, lt4096 i⟩ (lane0 c)) / 8)
          (finProdFinEquiv (k, j)) : ℝ) : EReal) := by
    funext k j
    unfold blkS0
    rw [Cert.LibERealSum.sum_eq_coe Finset.univ _ (fun c => qr p (lane0 c) * kr ⟨_, lt4096 (finProdFinEquiv (k, j))⟩ (lane0 c))
        (fun c _ => by rw [k1_pay31_apply, hq, ld_chunk kk k j (lane0 c) _ (prod_val k j), hk, ← EReal.coe_mul])]
    show _ * Ideal.ofBits .f32 0x3E000000#32 = _
    rw [eighth_eq, ← EReal.coe_mul]
    refine congrArg (fun r : ℝ => (r : EReal)) ?_
    ring
  have hv' : (fun (k : Fin k1_t1_loop.trips) => blkV0 (View.ld vv (chunkRect k)))
      = fun k j d => (((fun (i : Fin (k1_t1_loop.trips * 512)) (d : Fin 64) => vr ⟨i.val, lt4096 i⟩ (lane0 d))
          (finProdFinEquiv (k, j)) d : ℝ) : EReal) := by
    funext k j d
    unfold blkV0
    rw [ld_chunk vv k j (lane0 d) _ (prod_val k j), hv]
  rw [hs, hv']
  refine (row_final_flat (n := k1_t1_loop.trips) (B := 512) (by decide) (by norm_num)
    (fun i : Fin (k1_t1_loop.trips * 512) => (∑ c : Fin 64, qr p (lane0 c) * kr ⟨i.val, lt4096 i⟩ (lane0 c)) / 8)
    (fun (i : Fin (k1_t1_loop.trips * 512)) (d : Fin 64) => vr ⟨i.val, lt4096 i⟩ (lane0 d)) 0 d).trans ?_
  refine congrArg (fun r : ℝ => (r : EReal)) ?_
  exact congrArg₂ (· / ·)
    (sum_flat (fun i => Real.exp ((∑ c : Fin 64, qr p (lane0 c) * kr i (lane0 c)) / 8 - 0) * vr i (lane0 d)))
    (sum_flat (fun i => Real.exp ((∑ c : Fin 64, qr p (lane0 c) * kr i (lane0 c)) / 8 - 0)))

/-- Head 1's lanes of the output block for real tiles: the softmax-weighted average of the value rows, the scores
    being the query row against the key rows on the head's 64 lanes, divided by 8. -/
theorem outTile_real1 (q : Vec Ideal S1024x128 .bf16) (kk vv : Vec Ideal S4096x128 .bf16)
    (qr : Fin 1024 → Fin 128 → ℝ) (kr vr : Fin 4096 → Fin 128 → ℝ)
    (hq : ∀ p l, q (ix2 p l) = ((qr p l : ℝ) : EReal)) (hk : ∀ i l, kk (ix2 i l) = ((kr i l : ℝ) : EReal))
    (hv : ∀ i l, vv (ix2 i l) = ((vr i l : ℝ) : EReal)) (p : Fin 1024) (d : Fin 64) :
    outTile (F := Ideal) q kk vv (ix2 p (lane1 d))
      = (((∑ i : Fin 4096, Real.exp ((∑ c : Fin 64, qr p (lane1 c) * kr i (lane1 c)) / 8 - 0) * vr i (lane1 d))
          / (∑ i : Fin 4096, Real.exp ((∑ c : Fin 64, qr p (lane1 c) * kr i (lane1 c)) / 8 - 0)) : ℝ) : EReal) := by
  rw [outTile_lane1]
  have hs : (fun (k : Fin k1_t1_loop.trips) => blkS1 (k1_pay32 (F := Ideal) q) (View.ld kk (chunkRect k)) p)
      = fun k j => (((fun i : Fin (k1_t1_loop.trips * 512) => (∑ c : Fin 64, qr p (lane1 c) * kr ⟨i.val, lt4096 i⟩ (lane1 c)) / 8)
          (finProdFinEquiv (k, j)) : ℝ) : EReal) := by
    funext k j
    unfold blkS1
    rw [Cert.LibERealSum.sum_eq_coe Finset.univ _ (fun c => qr p (lane1 c) * kr ⟨_, lt4096 (finProdFinEquiv (k, j))⟩ (lane1 c))
        (fun c _ => by rw [k1_pay32_apply, hq, ld_chunk kk k j (lane1 c) _ (prod_val k j), hk, ← EReal.coe_mul])]
    show _ * Ideal.ofBits .f32 0x3E000000#32 = _
    rw [eighth_eq, ← EReal.coe_mul]
    refine congrArg (fun r : ℝ => (r : EReal)) ?_
    ring
  have hv' : (fun (k : Fin k1_t1_loop.trips) => blkV1 (View.ld vv (chunkRect k)))
      = fun k j d => (((fun (i : Fin (k1_t1_loop.trips * 512)) (d : Fin 64) => vr ⟨i.val, lt4096 i⟩ (lane1 d))
          (finProdFinEquiv (k, j)) d : ℝ) : EReal) := by
    funext k j d
    unfold blkV1
    rw [ld_chunk vv k j (lane1 d) _ (prod_val k j), hv]
  rw [hs, hv']
  refine (row_final_flat (n := k1_t1_loop.trips) (B := 512) (by decide) (by norm_num)
    (fun i : Fin (k1_t1_loop.trips * 512) => (∑ c : Fin 64, qr p (lane1 c) * kr ⟨i.val, lt4096 i⟩ (lane1 c)) / 8)
    (fun (i : Fin (k1_t1_loop.trips * 512)) (d : Fin 64) => vr ⟨i.val, lt4096 i⟩ (lane1 d)) 0 d).trans ?_
  refine congrArg (fun r : ℝ => (r : EReal)) ?_
  exact congrArg₂ (· / ·)
    (sum_flat (fun i => Real.exp ((∑ c : Fin 64, qr p (lane1 c) * kr i (lane1 c)) / 8 - 0) * vr i (lane1 d)))
    (sum_flat (fun i => Real.exp ((∑ c : Fin 64, qr p (lane1 c) * kr i (lane1 c)) / 8 - 0)))

end Cert.KernelIdeal.Hand

end
-- ==== Proof.KI.CtxValue.lean ====
import proofs.«129024_j24481313587606_2_alg».proof.Proof.KI.Assembly
import proofs.«129024_j24481313587606_2_alg».proof.Proof.KI.Array0
import proofs.«129024_j24481313587606_2_alg».proof.Proof.KI.Array1
import proofs.«129024_j24481313587606_2_alg».proof.Proof.KI.Value1c
import proofs.«129024_j24481313587606_2_alg».proof.Proof.Model
import proofs.«129024_j24481313587606_2_alg».proof.Proof.LibERealSum
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Model

/-! # The attention array is the model's context, for real inputs

With the activations and the three projection weight matrices real, every entry of the three projected arrays is the
model's projection; every tile the attention kernel reads then has real entries, so each output tile is the
softmax-weighted average of the value rows; read at row 4096 b + t and column cc this is the model's context of head
cc / 64 at feature cc mod 64. -/

/-! ## Arrays read at coordinates -/

/-- An array of shape [2, 4096, 512] read at (b, t, k). -/
def rdX (A : S2x4096x512.Idx → EReal) (b : Fin 2) (t : Fin 4096) (k : Fin 512) : EReal := A (ix3 b t k)
/-- A 512 x 512 matrix read at (e, k). -/
def rdW (A : S512x512.Idx → EReal) (e k : Fin 512) : EReal := A (ix2 e k)
/-- An array of shape [8192, 512] read at (r, e). -/
def rdA (A : S8192x512.Idx → EReal) (r : Fin 8192) (e : Fin 512) : EReal := A (ix2 r e)

/-- The activations reshaped to 8192 rows read, at a row r = 4096 b + t, the entry (b, t, k). -/
theorem xrows_apply (x : S2x4096x512.Idx → EReal) (r : Fin 8192) (b : Fin 2) (t : Fin 4096) (k : Fin 512)
    (hr : r.val = 4096 * b.val + t.val) :
    shapeCast S8192x512 x shapeCasts_S2x4096x512_S8192x512 (ix2 r k) = x (ix3 b t k) :=
  shapeCast_apply x _ _ _ (by
    rw [Shape.rowMajor_val_three, Shape.rowMajor_val_two]
    show (b.val * 4096 + t.val) * 512 + k.val = r.val * 512 + k.val
    rw [hr]; omega)

/-- The model's projection at equal places. -/
theorem projR_congr (xr : Fin 2 → Fin 4096 → Fin 512 → ℝ) (w : Fin 512 → Fin 512 → ℝ) (b : Fin 2) {t t' : Fin 4096} {e e' : Fin 512}
    (ht : t.val = t'.val) (he : e.val = e'.val) : projR xr w b t e = projR xr w b t' e' := by
  rw [Fin.ext ht, Fin.ext he]

variable (m : (ℓ : Loc nD τ sig) → Buf (Elt Ideal) ℓ) (ρ : Dev nD → PrngReg)

/-! ## The projections are the model's -/

/-- One entry of the product of the reshaped activations and a transposed, narrowed weight matrix: the model's
    projection. -/
theorem proj_entry (xr : Fin 2 → Fin 4096 → Fin 512 → ℝ) (wr : Fin 512 → Fin 512 → ℝ)
    (X : S2x4096x512.Idx → EReal) (Wm : S512x512.Idx → EReal)
    (hx : ∀ b t k, rdX X b t k = ((xr b t k : ℝ) : EReal)) (hw : ∀ e k, rdW Wm e k = ((wr e k : ℝ) : EReal))
    (r : Fin 8192) (e : Fin 512) (b : Fin 2) (t : Fin 4096) (hr : r.val = 4096 * b.val + t.val) :
    G0 (shapeCast S8192x512 X shapeCasts_S2x4096x512_S8192x512)
        (truncf (F := Ideal) .bf16 (transpose S512x512 [1, 0] (Wm : FVec Ideal S512x512 .f32) transposes_S512x512_S512x512_1_0) bitsLt_bf16_f32)
        (ix2 r e)
      = ((projR xr wr b t e : ℝ) : EReal) := by
  rw [G0_apply]
  unfold projR
  refine Cert.LibERealSum.sum_eq_coe _ _ _ fun k _ => ?_
  rw [xrows_apply X r b t k hr, truncf_apply, transpose_ix2_apply, EReal.coe_mul]
  exact congrArg₂ (· * ·) (hx b t k) (hw e k)

/-- The query projection the attention kernel finds: row 4096 b + t, column e. -/
theorem proj_q_real (c : Dev nD) (xr : Fin 2 → Fin 4096 → Fin 512 → ℝ) (wr : Fin 512 → Fin 512 → ℝ)
    (hx : ∀ b t k, rdX (m ((c : Thread nD τ).loc main_arg0)) b t k = ((xr b t k : ℝ) : EReal))
    (hw : ∀ e k, rdW (m ((c : Thread nD τ).loc main_arg1)) e k = ((wr e k : ℝ) : EReal))
    (r : Fin 8192) (e : Fin 512) (b : Fin 2) (t : Fin 4096) (hr : r.val = 4096 * b.val + t.val) :
    rdA (V2 m ρ c main_v9_0) r e = ((projR xr wr b t e : ℝ) : EReal) := by
  unfold rdA
  rw [V2_main_v9_0, final0_4 (V1 m ρ) c, V1_main_v0, V1_main_v2]
  exact proj_entry xr wr _ _ hx hw r e b t hr

/-- The key projection. -/
theorem proj_k_real (c : Dev nD) (xr : Fin 2 → Fin 4096 → Fin 512 → ℝ) (wr : Fin 512 → Fin 512 → ℝ)
    (hx : ∀ b t k, rdX (m ((c : Thread nD τ).loc main_arg0)) b t k = ((xr b t k : ℝ) : EReal))
    (hw : ∀ e k, rdW (m ((c : Thread nD τ).loc main_arg2)) e k = ((wr e k : ℝ) : EReal))
    (r : Fin 8192) (e : Fin 512) (b : Fin 2) (t : Fin 4096) (hr : r.val = 4096 * b.val + t.val) :
    rdA (V2 m ρ c main_v9_1) r e = ((projR xr wr b t e : ℝ) : EReal) := by
  unfold rdA
  rw [V2_main_v9_1, final0_5 (V1 m ρ) c, V1_main_v0, V1_main_v4]
  exact proj_entry xr wr _ _ hx hw r e b t hr

/-- The value projection. -/
theorem proj_v_real (c : Dev nD) (xr : Fin 2 → Fin 4096 → Fin 512 → ℝ) (wr : Fin 512 → Fin 512 → ℝ)
    (hx : ∀ b t k, rdX (m ((c : Thread nD τ).loc main_arg0)) b t k = ((xr b t k : ℝ) : EReal))
    (hw : ∀ e k, rdW (m ((c : Thread nD τ).loc main_arg3)) e k = ((wr e k : ℝ) : EReal))
    (r : Fin 8192) (e : Fin 512) (b : Fin 2) (t : Fin 4096) (hr : r.val = 4096 * b.val + t.val) :
    rdA (V2 m ρ c main_v9_2) r e = ((projR xr wr b t e : ℝ) : EReal) := by
  unfold rdA
  rw [V2_main_v9_2, final0_6 (V1 m ρ) c, V1_main_v0, V1_main_v6]
  exact proj_entry xr wr _ _ hx hw r e b t hr

/-! ## The tiles the attention kernel reads have real entries -/

/-- The query tile's real entries: rows 1024 tb onwards of batch b, lanes 128 hp onwards. -/
def qTile (xr : Fin 2 → Fin 4096 → Fin 512 → ℝ) (w : Fin 512 → Fin 512 → ℝ) (b : Fin 2) (tb : Fin 4) (hp : Fin 4) :
    Fin 1024 → Fin 128 → ℝ := fun p l =>
  projR xr w b ⟨1024 * tb.val + p.val, by have := tb.isLt; have := p.isLt; omega⟩
    ⟨128 * hp.val + l.val, by have := hp.isLt; have := l.isLt; omega⟩

/-- The key (or value) tile's real entries: all rows of batch b, lanes 128 hp onwards. -/
def kvTile (xr : Fin 2 → Fin 4096 → Fin 512 → ℝ) (w : Fin 512 → Fin 512 → ℝ) (b : Fin 2) (hp : Fin 4) :
    Fin 4096 → Fin 128 → ℝ := fun i l =>
  projR xr w b i ⟨128 * hp.val + l.val, by have := hp.isLt; have := l.isLt; omega⟩

/-- A tile of the [8192, 512] array at a place of its own coordinates. -/
theorem tileQ_ix2 (A : S8192x512.Idx → EReal) (rb : Fin 8) (hp : Fin 4) (p : Fin 1024) (l : Fin 128) :
    tileQ (F := Ideal) A rb hp (ix2 p l)
      = rdA A ⟨1024 * rb.val + p.val, by have := rb.isLt; have := p.isLt; omega⟩
          ⟨128 * hp.val + l.val, by have := hp.isLt; have := l.isLt; omega⟩ := rfl
theorem tileKV_ix2 (A : S8192x512.Idx → EReal) (b : Fin 2) (hp : Fin 4) (i : Fin 4096) (l : Fin 128) :
    tileKV (F := Ideal) A b hp (ix2 i l)
      = rdA A ⟨4096 * b.val + i.val, by have := b.isLt; have := i.isLt; omega⟩
          ⟨128 * hp.val + l.val, by have := hp.isLt; have := l.isLt; omega⟩ := rfl

/-- The softmax-weighted average over a 64-lane half of the tiles is the model's context when the half's lanes are
    head h's features. -/
theorem half_ctx (xr : Fin 2 → Fin 4096 → Fin 512 → ℝ) (wqr wkr wvr : Fin 512 → Fin 512 → ℝ)
    (b : Fin 2) (t : Fin 4096) (tb hp : Fin 4) (p : Fin 1024) (h : Fin 8) (d : Fin 64) (lane : Fin 64 → Fin 128)
    (htb : 1024 * tb.val + p.val = t.val) (hlane : ∀ c' : Fin 64, 128 * hp.val + (lane c').val = 64 * h.val + c'.val) :
    (∑ i : Fin 4096, Real.exp ((∑ c' : Fin 64, qTile xr wqr b tb hp p (lane c') * kvTile xr wkr b hp i (lane c')) / 8 - 0)
          * kvTile xr wvr b hp i (lane d))
        / (∑ i : Fin 4096, Real.exp ((∑ c' : Fin 64, qTile xr wqr b tb hp p (lane c') * kvTile xr wkr b hp i (lane c')) / 8 - 0))
      = ctxR xr wqr wkr wvr b t h d := by
  have e1 : ∀ c' : Fin 64, qTile xr wqr b tb hp p (lane c') = projR xr wqr b t (col h c') := fun c' => by
    unfold qTile
    exact projR_congr xr wqr b htb (hlane c')
  have e2 : ∀ (i : Fin 4096) (c' : Fin 64), kvTile xr wkr b hp i (lane c') = projR xr wkr b i (col h c') := fun i c' => by
    unfold kvTile
    exact projR_congr xr wkr b rfl (hlane c')
  have e3 : ∀ i : Fin 4096, kvTile xr wvr b hp i (lane d) = projR xr wvr b i (col h d) := fun i => by
    unfold kvTile
    exact projR_congr xr wvr b rfl (hlane d)
  unfold ctxR scoreR
  simp only [e1, e2, e3]

/-- One entry of an output tile, with the tile indices and the place inside the tile named by their values. -/
theorem tile_ctx (c : Dev nD) (xr : Fin 2 → Fin 4096 → Fin 512 → ℝ) (wqr wkr wvr : Fin 512 → Fin 512 → ℝ)
    (hx : ∀ b t k, rdX (m ((c : Thread nD τ).loc main_arg0)) b t k = ((xr b t k : ℝ) : EReal))
    (hq : ∀ e k, rdW (m ((c : Thread nD τ).loc main_arg1)) e k = ((wqr e k : ℝ) : EReal))
    (hk : ∀ e k, rdW (m ((c : Thread nD τ).loc main_arg2)) e k = ((wkr e k : ℝ) : EReal))
    (hv : ∀ e k, rdW (m ((c : Thread nD τ).loc main_arg3)) e k = ((wvr e k : ℝ) : EReal))
    (b : Fin 2) (t : Fin 4096) (cc : Fin 512) (rb : Fin 8) (hp : Fin 4) (p : Fin 1024) (l : Fin 128)
    (hrb : rb.val = 4 * b.val + t.val / 1024) (hhp : hp.val = cc.val / 128) (hpv : p.val = t.val % 1024)
    (hl : l.val = cc.val % 128) :
    outTile (F := Ideal) (tileQ (V2 m ρ c main_v9_0) rb hp) (tileKV (V2 m ρ c main_v9_1) b hp)
        (tileKV (V2 m ρ c main_v9_2) b hp) (ix2 p l)
      = ((ctxR xr wqr wkr wvr b t ⟨cc.val / 64, by have := cc.isLt; omega⟩ ⟨cc.val % 64, Nat.mod_lt _ (by decide)⟩ : ℝ) : EReal) := by
  have hbl := b.isLt
  have htl := t.isLt
  have hcl := cc.isLt
  have hQ : ∀ (p' : Fin 1024) (l' : Fin 128), tileQ (F := Ideal) (V2 m ρ c main_v9_0) rb hp (ix2 p' l')
      = ((qTile xr wqr b ⟨t.val / 1024, by omega⟩ hp p' l' : ℝ) : EReal) := fun p' l' => by
    rw [tileQ_ix2]
    exact proj_q_real m ρ c xr wqr hx hq _ _ b _ (by
      show 1024 * rb.val + p'.val = 4096 * b.val + (1024 * (t.val / 1024) + p'.val); omega)
  have hK : ∀ (i : Fin 4096) (l' : Fin 128), tileKV (F := Ideal) (V2 m ρ c main_v9_1) b hp (ix2 i l')
      = ((kvTile xr wkr b hp i l' : ℝ) : EReal) := fun i l' => by
    rw [tileKV_ix2]
    exact proj_k_real m ρ c xr wkr hx hk _ _ b i rfl
  have hV : ∀ (i : Fin 4096) (l' : Fin 128), tileKV (F := Ideal) (V2 m ρ c main_v9_2) b hp (ix2 i l')
      = ((kvTile xr wvr b hp i l' : ℝ) : EReal) := fun i l' => by
    rw [tileKV_ix2]
    exact proj_v_real m ρ c xr wvr hx hv _ _ b i rfl
  by_cases hlo : cc.val % 128 < 64
  · have hl0 : l = lane0 ⟨cc.val % 64, Nat.mod_lt _ (by decide)⟩ := Fin.ext (by
      show l.val = cc.val % 64; omega)
    subst hl0
    rw [outTile_real0 _ _ _ _ _ _ hQ hK hV p ⟨cc.val % 64, Nat.mod_lt _ (by decide)⟩]
    refine congrArg (fun z : ℝ => (z : EReal)) ?_
    exact half_ctx xr wqr wkr wvr b t ⟨t.val / 1024, by omega⟩ hp p ⟨cc.val / 64, by omega⟩ _ lane0
      (by show 1024 * (t.val / 1024) + p.val = t.val; omega)
      (fun c' => by show 128 * hp.val + c'.val = 64 * (cc.val / 64) + c'.val; omega)
  · have hl1 : l = lane1 ⟨cc.val % 64, Nat.mod_lt _ (by decide)⟩ := Fin.ext (by
      show l.val = 64 + cc.val % 64; omega)
    subst hl1
    rw [outTile_real1 _ _ _ _ _ _ hQ hK hV p ⟨cc.val % 64, Nat.mod_lt _ (by decide)⟩]
    refine congrArg (fun z : ℝ => (z : EReal)) ?_
    exact half_ctx xr wqr wkr wvr b t ⟨t.val / 1024, by omega⟩ hp p ⟨cc.val / 64, by omega⟩ _ lane1
      (by show 1024 * (t.val / 1024) + p.val = t.val; omega)
      (fun c' => by show 128 * hp.val + (64 + c'.val) = 64 * (cc.val / 64) + c'.val; omega)

/-! ## The attention array at an index -/

/-- The context: the array the output projection reads holds, at row 4096 b + t and column cc, the model's context of
    head cc / 64 at feature cc mod 64. -/
theorem ctx_kernel (c : Dev nD) (xr : Fin 2 → Fin 4096 → Fin 512 → ℝ) (wqr wkr wvr : Fin 512 → Fin 512 → ℝ)
    (hx : ∀ b t k, rdX (m ((c : Thread nD τ).loc main_arg0)) b t k = ((xr b t k : ℝ) : EReal))
    (hq : ∀ e k, rdW (m ((c : Thread nD τ).loc main_arg1)) e k = ((wqr e k : ℝ) : EReal))
    (hk : ∀ e k, rdW (m ((c : Thread nD τ).loc main_arg2)) e k = ((wkr e k : ℝ) : EReal))
    (hv : ∀ e k, rdW (m ((c : Thread nD τ).loc main_arg3)) e k = ((wvr e k : ℝ) : EReal))
    (b : Fin 2) (t : Fin 4096) (cc : Fin 512) :
    rdA (V4 m ρ c main_v10) ⟨4096 * b.val + t.val, by have := b.isLt; have := t.isLt; omega⟩ cc
      = ((ctxR xr wqr wkr wvr b t ⟨cc.val / 64, by have := cc.isLt; omega⟩ ⟨cc.val % 64, Nat.mod_lt _ (by decide)⟩ : ℝ) : EReal) := by
  have hbl := b.isLt
  have htl := t.isLt
  have hcl := cc.isLt
  unfold rdA
  rw [V4_main_v10, arr1_3 (V2 m ρ) c ⟨4096 * b.val + t.val, by omega⟩ cc,
    show (⟨(⟨4096 * b.val + t.val, by omega⟩ : Fin 8192).val / 4096, by omega⟩ : Fin 2) = b from Fin.ext (by
      show (4096 * b.val + t.val) / 4096 = b.val; omega)]
  exact tile_ctx m ρ c xr wqr wkr wvr hx hq hk hv b t cc _ _ _ _
    (by show (4096 * b.val + t.val) / 1024 = 4 * b.val + t.val / 1024; omega) rfl
    (by show (4096 * b.val + t.val) % 1024 = t.val % 1024; omega) rfl

end Cert.KernelIdeal.Hand

end
-- ==== Proof.RefRun.lean ====
/-
  The reference program's @main as a straight line of its host operations, the two module-local
  functions it calls (the variance, which itself calls the select) unfolded at their call sites over
  the call's own buffers, and its run read back: every weakly fair execution terminates with the
  result buffer at the operations' composed pure term `refTerm` of the seven arguments' launch
  contents, the arguments unchanged. `refTerm` is built from named stages (projections, scores, row
  maximum, exponentials, row sum, probabilities, context, residual sum, mean, variance,
  normalisation) so that each can be read at an index on its own.
-/
import proofs.«129024_j24481313587606_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- The contents of an f32 tensor value of shape `s`. -/
abbrev C (F : FTy → Type) (s : Shape) : Type := (⟨s, .f32⟩ : BufTy).Contents (Elt F)

/-- The first stretch: the thirty-three operations up to the residual sum `%28` (projections, scores, softmax, context,
    output projection, residual). -/
abbrev opsA : List (HloOp τ sig (Elt F)) :=
  [ nullary main_cst (constant S_ .f32 0x42800000#32),
    unary main_cst main_v0 (Host.sqrt : C F S_ → C F S_),
    binary main_arg0 main_arg1 main_v1 ((fun l r => Host.dotGeneral dot_S2x4096x512_S512x512_S2x4096x512_2_1_01_0_n_n none l r) : C F S2x4096x512 → C F S512x512 → C F S2x4096x512),
    reshape main_v1 main_v2 rfl shapeCasts_S2x4096x512_S2x4096x8x64,
    unary main_v2 main_v3 ((transpose S2x8x4096x64 [0, 2, 1, 3] · transposes_S2x4096x8x64_S2x8x4096x64_0_2_1_3) : C F S2x4096x8x64 → C F S2x8x4096x64),
    binary main_arg0 main_arg2 main_v4 ((fun l r => Host.dotGeneral dot_S2x4096x512_S512x512_S2x4096x512_2_1_01_0_n_n none l r) : C F S2x4096x512 → C F S512x512 → C F S2x4096x512),
    reshape main_v4 main_v5 rfl shapeCasts_S2x4096x512_S2x4096x8x64,
    unary main_v5 main_v6 ((transpose S2x8x4096x64 [0, 2, 1, 3] · transposes_S2x4096x8x64_S2x8x4096x64_0_2_1_3) : C F S2x4096x8x64 → C F S2x8x4096x64),
    binary main_arg0 main_arg3 main_v7 ((fun l r => Host.dotGeneral dot_S2x4096x512_S512x512_S2x4096x512_2_1_01_0_n_n none l r) : C F S2x4096x512 → C F S512x512 → C F S2x4096x512),
    reshape main_v7 main_v8 rfl shapeCasts_S2x4096x512_S2x4096x8x64,
    unary main_v8 main_v9 ((transpose S2x8x4096x64 [0, 2, 1, 3] · transposes_S2x4096x8x64_S2x8x4096x64_0_2_1_3) : C F S2x4096x8x64 → C F S2x8x4096x64),
    binary main_v3 main_v6 main_v10 ((fun l r => Host.dotGeneral dot_S2x8x4096x64_S2x8x4096x64_S2x8x4096x4096_3_3_2_2_01_01 none l r) : C F S2x8x4096x64 → C F S2x8x4096x64 → C F S2x8x4096x4096),
    unary main_v0 main_v11 (broadcastInDim S2x8x4096x4096 ![] bcast_S_S2x8x4096x4096 : C F S_ → C F S2x8x4096x4096),
    binary main_v10 main_v11 main_v12 (Host.divf : C F S2x8x4096x4096 → C F S2x8x4096x4096 → C F S2x8x4096x4096),
    nullary main_cst_0 (constant S_ .f32 0xFF800000#32),
    binary main_v12 main_cst_0 main_v13 ((fun x v => Host.reduce FloatOps.maximumf x v reducesTo_S2x8x4096x4096_S2x8x4096_d3 h_S_) : C F S2x8x4096x4096 → C F S_ → C F S2x8x4096),
    nullary main_cst_1 (constant S_ .f32 0xFF800000#32),
    unary main_cst_1 main_v14 (broadcastInDim S2x8x4096 ![] bcast_S_S2x8x4096 : C F S_ → C F S2x8x4096),
    binary main_v14 main_v13 main_v15 (maximumf : C F S2x8x4096 → C F S2x8x4096 → C F S2x8x4096),
    unary main_v15 main_v16 (broadcastInDim S2x8x4096x1 ![0, 1, 2] bcast_S2x8x4096_S2x8x4096x1_0_1_2 : C F S2x8x4096 → C F S2x8x4096x1),
    unary main_v16 main_v17 (broadcastInDim S2x8x4096x4096 ![0, 1, 2, 3] bcast_S2x8x4096x1_S2x8x4096x4096_0_1_2_3 : C F S2x8x4096x1 → C F S2x8x4096x4096),
    binary main_v12 main_v17 main_v18 (subf : C F S2x8x4096x4096 → C F S2x8x4096x4096 → C F S2x8x4096x4096),
    unary main_v18 main_v19 (Host.exp : C F S2x8x4096x4096 → C F S2x8x4096x4096),
    nullary main_cst_2 (constant S_ .f32 0x00000000#32),
    binary main_v19 main_cst_2 main_v20 ((fun x v => Host.reduceAdd x v reducesTo_S2x8x4096x4096_S2x8x4096_d3 h_S_) : C F S2x8x4096x4096 → C F S_ → C F S2x8x4096),
    unary main_v20 main_v21 (broadcastInDim S2x8x4096x1 ![0, 1, 2] bcast_S2x8x4096_S2x8x4096x1_0_1_2 : C F S2x8x4096 → C F S2x8x4096x1),
    unary main_v21 main_v22 (broadcastInDim S2x8x4096x4096 ![0, 1, 2, 3] bcast_S2x8x4096x1_S2x8x4096x4096_0_1_2_3 : C F S2x8x4096x1 → C F S2x8x4096x4096),
    binary main_v19 main_v22 main_v23 (Host.divf : C F S2x8x4096x4096 → C F S2x8x4096x4096 → C F S2x8x4096x4096),
    binary main_v23 main_v9 main_v24 ((fun l r => Host.dotGeneral dot_S2x8x4096x4096_S2x8x4096x64_S2x8x4096x64_3_2_2_3_01_01 none l r) : C F S2x8x4096x4096 → C F S2x8x4096x64 → C F S2x8x4096x64),
    unary main_v24 main_v25 ((transpose S2x4096x8x64 [0, 2, 1, 3] · transposes_S2x8x4096x64_S2x4096x8x64_0_2_1_3) : C F S2x8x4096x64 → C F S2x4096x8x64),
    reshape main_v25 main_v26 rfl shapeCasts_S2x4096x8x64_S2x4096x512,
    binary main_v26 main_arg4 main_v27 ((fun l r => Host.dotGeneral dot_S2x4096x512_S512x512_S2x4096x512_2_1_01_0_n_n none l r) : C F S2x4096x512 → C F S512x512 → C F S2x4096x512),
    binary main_v27 main_arg0 main_v28 (addf : C F S2x4096x512 → C F S2x4096x512 → C F S2x4096x512) ]

/-- The second stretch, the layer normalisation of `%28`: seven of @main's operations (the mean and the integer zero), the
    variance's twenty over `main_call0`'s buffers (its operands `%28` and the integer zero), the select's three over
    `main_call0.call0`'s, then @main's last fourteen. -/
abbrev opsB : List (HloOp τ sig (Elt F)) :=
  [ nullary main_cst_3 (constant S_ .f32 0x00000000#32),
    binary main_v28 main_cst_3 main_v29 ((fun x v => Host.reduceAdd x v reducesTo_S2x4096x512_S2x4096_d2 h_S_) : C F S2x4096x512 → C F S_ → C F S2x4096),
    unary main_v29 main_v30 (broadcastInDim S2x4096x1 ![0, 1] bcast_S2x4096_S2x4096x1_0_1 : C F S2x4096 → C F S2x4096x1),
    nullary main_cst_4 (constant S_ .f32 0x44000000#32),
    unary main_cst_4 main_v31 (broadcastInDim S2x4096x1 ![] bcast_S_S2x4096x1 : C F S_ → C F S2x4096x1),
    binary main_v30 main_v31 main_v32 (Host.divf : C F S2x4096x1 → C F S2x4096x1 → C F S2x4096x1),
    nullary main_c (constantI S_ 32 0#32),
    TRef.nullary main_call0.cst (constant S_ .f32 0x00000000#32),
    TRef.binary (.of main_v28 : TRef sig ⟨S2x4096x512, .f32⟩) main_call0.cst main_call0.v0 (fun x v => Host.reduceAdd x v reducesTo_S2x4096x512_S2x4096_d2 h_S_),
    TRef.unary main_call0.v0 main_call0.v1 (broadcastInDim S2x4096x1 ![0, 1] bcast_S2x4096_S2x4096x1_0_1),
    TRef.nullary main_call0.cst_0 (constant S_ .f32 0x44000000#32),
    TRef.unary main_call0.cst_0 main_call0.v2 (broadcastInDim S2x4096x1 ![] bcast_S_S2x4096x1),
    TRef.binary main_call0.v1 main_call0.v2 main_call0.v3 Host.divf,
    TRef.unary main_call0.v3 main_call0.v4 (broadcastInDim S2x4096x512 ![0, 1, 2] bcast_S2x4096x1_S2x4096x512_0_1_2),
    TRef.binary (.of main_v28 : TRef sig ⟨S2x4096x512, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x4096x512_S2x4096_d2 h_S_),
    TRef.unary main_call0.v9 main_call0.v10 (broadcastInDim S2x4096x1 ![0, 1] bcast_S2x4096_S2x4096x1_0_1),
    TRef.unary main_call0.v8 main_call0.v11 (broadcastInDim S2x4096x1 ![] bcast_S_S2x4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x4096x1 ![] bcast_S_S2x4096x1),
    TRef.ternary main_call0.v13 main_call0.v12 main_call0.call0.v1 main_call0.call0.v2 (fun p a b => select (broadcastInDim S2x4096x1 ![] bcast_S_S2x4096x1 p) a b),
    unary main_v32 main_v34 (broadcastInDim S2x4096x512 ![0, 1, 2] bcast_S2x4096x1_S2x4096x512_0_1_2 : C F S2x4096x1 → C F S2x4096x512),
    binary main_v28 main_v34 main_v35 (subf : C F S2x4096x512 → C F S2x4096x512 → C F S2x4096x512),
    nullary main_cst_5 (constant S_ .f32 0x3727C5AC#32),
    unary main_cst_5 main_v36 (broadcastInDim S2x4096x1 ![] bcast_S_S2x4096x1 : C F S_ → C F S2x4096x1),
    binary main_v33 main_v36 main_v37 (addf : C F S2x4096x1 → C F S2x4096x1 → C F S2x4096x1),
    unary main_v37 main_v38 (Host.rsqrt : C F S2x4096x1 → C F S2x4096x1),
    unary main_v38 main_v39 (broadcastInDim S2x4096x512 ![0, 1, 2] bcast_S2x4096x1_S2x4096x512_0_1_2 : C F S2x4096x1 → C F S2x4096x512),
    binary main_v35 main_v39 main_v40 (mulf : C F S2x4096x512 → C F S2x4096x512 → C F S2x4096x512),
    unary main_arg5 main_v41 (broadcastInDim S1x1x512 ![2] bcast_S512_S1x1x512_2 : C F S512 → C F S1x1x512),
    unary main_v41 main_v42 (broadcastInDim S2x4096x512 ![0, 1, 2] bcast_S1x1x512_S2x4096x512_0_1_2 : C F S1x1x512 → C F S2x4096x512),
    binary main_v40 main_v42 main_v43 (mulf : C F S2x4096x512 → C F S2x4096x512 → C F S2x4096x512),
    unary main_arg6 main_v44 (broadcastInDim S1x1x512 ![2] bcast_S512_S1x1x512_2 : C F S512 → C F S1x1x512),
    unary main_v44 main_v45 (broadcastInDim S2x4096x512 ![0, 1, 2] bcast_S1x1x512_S2x4096x512_0_1_2 : C F S1x1x512 → C F S2x4096x512),
    binary main_v43 main_v45 main_v46 (addf : C F S2x4096x512 → C F S2x4096x512 → C F S2x4096x512) ]

/-- @main's seventy-seven operations in program order, the two calls unfolded at their call sites. -/
abbrev ops : List (HloOp τ sig (Elt F)) := opsA ++ opsB

/-- @main is that straight line: a call is its callee's body applied, and sequencing a step before a
    continuation is the step continued by it, both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., reshape_bufs_sub .., unary_bufs_sub .., binary_bufs_sub ..,
    reshape_bufs_sub .., unary_bufs_sub .., binary_bufs_sub .., reshape_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., unary_bufs_sub ..,
    reshape_bufs_sub .., binary_bufs_sub .., binary_bufs_sub .., nullary_bufs_sub .., binary_bufs_sub .., unary_bufs_sub ..,
    nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

end Line

/-! ## The composed term, stage by stage (at the ideal values) -/

/-- One projection `x Wᵀ` split into heads: `[2,4096,512] → [2,8,4096,64]`. -/
def proj (x : FVec Ideal S2x4096x512 .f32) (w : FVec Ideal S512x512 .f32) : FVec Ideal S2x8x4096x64 .f32 :=
  transpose S2x8x4096x64 [0, 2, 1, 3]
    (shapeCast S2x4096x8x64 (Host.dotGeneral (F := Ideal) dot_S2x4096x512_S512x512_S2x4096x512_2_1_01_0_n_n none x w)
      shapeCasts_S2x4096x512_S2x4096x8x64)
    transposes_S2x4096x8x64_S2x8x4096x64_0_2_1_3

/-- The scaled scores `Q Kᵀ / √64`. -/
def scores (q k : FVec Ideal S2x8x4096x64 .f32) : FVec Ideal S2x8x4096x4096 .f32 :=
  Host.divf (F := Ideal) (Host.dotGeneral (F := Ideal) dot_S2x8x4096x64_S2x8x4096x64_S2x8x4096x4096_3_3_2_2_01_01 none q k)
    (broadcastInDim S2x8x4096x4096 ![] bcast_S_S2x8x4096x4096 (Host.sqrt (F := Ideal) (constant (F := Ideal) S_ .f32 0x42800000#32)))

/-- The maximum of each row over the key axis (the fold from `-∞`, joined with `-∞` once more). -/
def rowMax (s : FVec Ideal S2x8x4096x4096 .f32) : FVec Ideal S2x8x4096 .f32 :=
  maximumf (F := Ideal) (broadcastInDim S2x8x4096 ![] bcast_S_S2x8x4096 (constant (F := Ideal) S_ .f32 0xFF800000#32))
    (Host.reduce (FloatOps.maximumf (F := Ideal) (φ := .f32)) s (constant (F := Ideal) S_ .f32 0xFF800000#32)
      reducesTo_S2x8x4096x4096_S2x8x4096_d3 h_S_)

/-- A per-row value repeated along the key axis: `[2,8,4096] → [2,8,4096,1] → [2,8,4096,4096]`. -/
def spread (r : FVec Ideal S2x8x4096 .f32) : FVec Ideal S2x8x4096x4096 .f32 :=
  broadcastInDim S2x8x4096x4096 ![0, 1, 2, 3] bcast_S2x8x4096x1_S2x8x4096x4096_0_1_2_3
    (broadcastInDim S2x8x4096x1 ![0, 1, 2] bcast_S2x8x4096_S2x8x4096x1_0_1_2 r)

/-- The exponentials of the scores less their row maximum. -/
def expo (s : FVec Ideal S2x8x4096x4096 .f32) : FVec Ideal S2x8x4096x4096 .f32 :=
  Host.exp (F := Ideal) (subf (F := Ideal) s (spread (rowMax s)))

/-- The sum of each row over the key axis, from zero. -/
def rowSum (p : FVec Ideal S2x8x4096x4096 .f32) : FVec Ideal S2x8x4096 .f32 :=
  Host.reduceAdd (F := Ideal) p (constant (F := Ideal) S_ .f32 0x00000000#32) reducesTo_S2x8x4096x4096_S2x8x4096_d3 h_S_

/-- The softmax probabilities: each exponential over its row's sum. -/
def probs (p : FVec Ideal S2x8x4096x4096 .f32) : FVec Ideal S2x8x4096x4096 .f32 :=
  Host.divf (F := Ideal) p (spread (rowSum p))

/-- The context `P V` with the heads merged back: `[2,8,4096,64] → [2,4096,8,64] → [2,4096,512]`. -/
def ctx (a : FVec Ideal S2x8x4096x4096 .f32) (v : FVec Ideal S2x8x4096x64 .f32) : FVec Ideal S2x4096x512 .f32 :=
  shapeCast S2x4096x512
    (transpose S2x4096x8x64 [0, 2, 1, 3]
      (Host.dotGeneral (F := Ideal) dot_S2x8x4096x4096_S2x8x4096x64_S2x8x4096x64_3_2_2_3_01_01 none a v)
      transposes_S2x8x4096x64_S2x4096x8x64_0_2_1_3)
    shapeCasts_S2x4096x8x64_S2x4096x512

/-- The output projection plus the residual: `c W_oᵀ + x`. -/
def resid (c : FVec Ideal S2x4096x512 .f32) (wo : FVec Ideal S512x512 .f32) (x : FVec Ideal S2x4096x512 .f32) :
    FVec Ideal S2x4096x512 .f32 :=
  addf (F := Ideal) (Host.dotGeneral (F := Ideal) dot_S2x4096x512_S512x512_S2x4096x512_2_1_01_0_n_n none c wo) x

/-- The sum of each row over the feature axis, from zero, with the axis kept: `[2,4096,512] → [2,4096] → [2,4096,1]`. -/
def featSum (y : FVec Ideal S2x4096x512 .f32) : FVec Ideal S2x4096x1 .f32 :=
  broadcastInDim S2x4096x1 ![0, 1] bcast_S2x4096_S2x4096x1_0_1
    (Host.reduceAdd (F := Ideal) y (constant (F := Ideal) S_ .f32 0x00000000#32) reducesTo_S2x4096x512_S2x4096_d2 h_S_)

/-- A scalar repeated at every row: `[] → [2,4096,1]`. -/
def splat (c : FVec Ideal S_ .f32) : FVec Ideal S2x4096x1 .f32 := broadcastInDim S2x4096x1 ![] bcast_S_S2x4096x1 c

/-- A per-row value repeated along the feature axis: `[2,4096,1] → [2,4096,512]`. -/
def featSpread (r : FVec Ideal S2x4096x1 .f32) : FVec Ideal S2x4096x512 .f32 :=
  broadcastInDim S2x4096x512 ![0, 1, 2] bcast_S2x4096x1_S2x4096x512_0_1_2 r

/-- The mean of each row: its sum over `512`. -/
def meanOf (y : FVec Ideal S2x4096x512 .f32) : FVec Ideal S2x4096x1 .f32 :=
  Host.divf (F := Ideal) (featSum y) (splat (constant (F := Ideal) S_ .f32 0x44000000#32))

/-- The variance's divisor: `512` less the degrees-of-freedom correction, the integer zero converted. -/
def dof : FVec Ideal S_ .f32 :=
  subf (F := Ideal) (constant (F := Ideal) S_ .f32 0x44000000#32) (sitofp (F := Ideal) .f32 (constantI S_ 32 0#32))

/-- Each row less its mean. -/
def centred (y : FVec Ideal S2x4096x512 .f32) : FVec Ideal S2x4096x512 .f32 :=
  subf (F := Ideal) y (featSpread (meanOf y))

/-- The variance of each row, as the outlined function computes it: the sum of squared deviations over the divisor
    where the divisor is positive, the quiet NaN's pattern elsewhere. -/
def varOf (y : FVec Ideal S2x4096x512 .f32) : FVec Ideal S2x4096x1 .f32 :=
  select (broadcastInDim S2x4096x1 ![] bcast_S_S2x4096x1 (cmpf (F := Ideal) .ogt dof (constant (F := Ideal) S_ .f32 0x00000000#32)))
    (Host.divf (F := Ideal) (featSum (mulf (F := Ideal) (centred y) (centred y))) (splat dof))
    (splat (constant (F := Ideal) S_ .f32 0x7FC00000#32))

/-- A feature vector repeated at every row: `[512] → [1,1,512] → [2,4096,512]`. -/
def rowVec (g : FVec Ideal S512 .f32) : FVec Ideal S2x4096x512 .f32 :=
  broadcastInDim S2x4096x512 ![0, 1, 2] bcast_S1x1x512_S2x4096x512_0_1_2 (broadcastInDim S1x1x512 ![2] bcast_S512_S1x1x512_2 g)

/-- The layer normalisation of `y` with scale `g` and shift `b`. -/
def normed (y : FVec Ideal S2x4096x512 .f32) (g b : FVec Ideal S512 .f32) : FVec Ideal S2x4096x512 .f32 :=
  addf (F := Ideal)
    (mulf (F := Ideal)
      (mulf (F := Ideal) (centred y)
        (featSpread (Host.rsqrt (F := Ideal) (addf (F := Ideal) (varOf y) (splat (constant (F := Ideal) S_ .f32 0x3727C5AC#32))))))
      (rowVec g))
    (rowVec b)

/-- The reference's result as one pure term of its seven arguments. -/
def refTerm (x : FVec Ideal S2x4096x512 .f32) (wq wk wv wo : FVec Ideal S512x512 .f32) (g b : FVec Ideal S512 .f32) :
    FVec Ideal S2x4096x512 .f32 :=
  normed (resid (ctx (probs (expo (scores (proj x wq) (proj x wk)))) (proj x wv)) wo x) g b

/-! ## The fold of the operations at the result and at the arguments -/

/-! ## The fold of the operations at the result and at the arguments -/

/-- Two stretches run one after the other: the second's fold over the first's. -/
theorem after_app {F : FTy → Type} : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduce Host.reduceAdd in
/-- After the first stretch `%28` holds the residual sum of the arguments' contents: each operation's result read at its
    own buffer is its function of its operands' (one pass over the fold), and the stages are those functions composed. -/
theorem pre_eq (V : Valuation τ sig (Elt Ideal)) :
    after opsA V (main_v28 : DevRef τ sig)
      = resid (ctx (probs (expo (scores (proj (V (main_arg0 : DevRef τ sig)) (V (main_arg1 : DevRef τ sig)))
            (proj (V (main_arg0 : DevRef τ sig)) (V (main_arg2 : DevRef τ sig))))))
          (proj (V (main_arg0 : DevRef τ sig)) (V (main_arg3 : DevRef τ sig))))
          (V (main_arg4 : DevRef τ sig)) (V (main_arg0 : DevRef τ sig)) := by
  after_results_simp
  rfl

attribute [local irreducible] Host.reduce Host.reduceAdd in
/-- After the second stretch the result holds the normalisation of what `%28` held, with the scale and shift. -/
theorem post_eq (W : Valuation τ sig (Elt Ideal)) :
    after opsB W (main_v46 : DevRef τ sig)
      = normed (W (main_v28 : DevRef τ sig)) (W (main_arg5 : DevRef τ sig)) (W (main_arg6 : DevRef τ sig)) := by
  after_results_simp
  rfl

theorem preA5 (V : Valuation τ sig (Elt Ideal)) : after opsA V (main_arg5 : DevRef τ sig) = V (main_arg5 : DevRef τ sig) := by
  after_results_simp
theorem preA6 (V : Valuation τ sig (Elt Ideal)) : after opsA V (main_arg6 : DevRef τ sig) = V (main_arg6 : DevRef τ sig) := by
  after_results_simp

/-- After the whole line the result buffer holds `refTerm` of the arguments' contents. -/
theorem out_eq (V : Valuation τ sig (Elt Ideal)) :
    after ops V (main_v46 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops, after_app, post_eq, pre_eq, preA5, preA6]
  rfl

theorem preA0 (V : Valuation τ sig (Elt Ideal)) : after opsA V (main_arg0 : DevRef τ sig) = V (main_arg0 : DevRef τ sig) := by
  after_results_simp
theorem postA0 (W : Valuation τ sig (Elt Ideal)) : after opsB W (main_arg0 : DevRef τ sig) = W (main_arg0 : DevRef τ sig) := by
  after_results_simp
/-- No operation writes argument 0. -/
theorem arg0_eq (V : Valuation τ sig (Elt Ideal)) : after ops V (main_arg0 : DevRef τ sig) = V (main_arg0 : DevRef τ sig) := by
  rw [ops, after_app, postA0, preA0]
theorem preA1 (V : Valuation τ sig (Elt Ideal)) : after opsA V (main_arg1 : DevRef τ sig) = V (main_arg1 : DevRef τ sig) := by
  after_results_simp
theorem postA1 (W : Valuation τ sig (Elt Ideal)) : after opsB W (main_arg1 : DevRef τ sig) = W (main_arg1 : DevRef τ sig) := by
  after_results_simp
/-- No operation writes argument 1. -/
theorem arg1_eq (V : Valuation τ sig (Elt Ideal)) : after ops V (main_arg1 : DevRef τ sig) = V (main_arg1 : DevRef τ sig) := by
  rw [ops, after_app, postA1, preA1]
theorem preA2 (V : Valuation τ sig (Elt Ideal)) : after opsA V (main_arg2 : DevRef τ sig) = V (main_arg2 : DevRef τ sig) := by
  after_results_simp
theorem postA2 (W : Valuation τ sig (Elt Ideal)) : after opsB W (main_arg2 : DevRef τ sig) = W (main_arg2 : DevRef τ sig) := by
  after_results_simp
/-- No operation writes argument 2. -/
theorem arg2_eq (V : Valuation τ sig (Elt Ideal)) : after ops V (main_arg2 : DevRef τ sig) = V (main_arg2 : DevRef τ sig) := by
  rw [ops, after_app, postA2, preA2]
theorem preA3 (V : Valuation τ sig (Elt Ideal)) : after opsA V (main_arg3 : DevRef τ sig) = V (main_arg3 : DevRef τ sig) := by
  after_results_simp
theorem postA3 (W : Valuation τ sig (Elt Ideal)) : after opsB W (main_arg3 : DevRef τ sig) = W (main_arg3 : DevRef τ sig) := by
  after_results_simp
/-- No operation writes argument 3. -/
theorem arg3_eq (V : Valuation τ sig (Elt Ideal)) : after ops V (main_arg3 : DevRef τ sig) = V (main_arg3 : DevRef τ sig) := by
  rw [ops, after_app, postA3, preA3]
theorem preA4 (V : Valuation τ sig (Elt Ideal)) : after opsA V (main_arg4 : DevRef τ sig) = V (main_arg4 : DevRef τ sig) := by
  after_results_simp
theorem postA4 (W : Valuation τ sig (Elt Ideal)) : after opsB W (main_arg4 : DevRef τ sig) = W (main_arg4 : DevRef τ sig) := by
  after_results_simp
/-- No operation writes argument 4. -/
theorem arg4_eq (V : Valuation τ sig (Elt Ideal)) : after ops V (main_arg4 : DevRef τ sig) = V (main_arg4 : DevRef τ sig) := by
  rw [ops, after_app, postA4, preA4]
theorem postA5 (W : Valuation τ sig (Elt Ideal)) : after opsB W (main_arg5 : DevRef τ sig) = W (main_arg5 : DevRef τ sig) := by
  after_results_simp
/-- No operation writes argument 5. -/
theorem arg5_eq (V : Valuation τ sig (Elt Ideal)) : after ops V (main_arg5 : DevRef τ sig) = V (main_arg5 : DevRef τ sig) := by
  rw [ops, after_app, postA5, preA5]
theorem postA6 (W : Valuation τ sig (Elt Ideal)) : after opsB W (main_arg6 : DevRef τ sig) = W (main_arg6 : DevRef τ sig) := by
  after_results_simp
/-- No operation writes argument 6. -/
theorem arg6_eq (V : Valuation τ sig (Elt Ideal)) : after ops V (main_arg6 : DevRef τ sig) = V (main_arg6 : DevRef τ sig) := by
  rw [ops, after_app, postA6, preA6]

/-! ## The run -/

/-- On every device, at the ideal values, from any memory with zero counters: every weakly fair execution of @main
    terminates with the result buffer at `refTerm` of the seven arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v46).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.LibHostAttn.lean ====
/-
  Host operations of an attention reference, each read at ONE index written by coordinates, at the ideal values.

  The three contractions (a rank-3 array with a matrix over both last axes; two rank-4 arrays batched over their two
  leading axes, contracted over the last axis of both, or over the last axis of the left and the third of the right),
  each as a sum over the contracted coordinate; the exchange of the two middle axes of a rank-4 array; a per-row value
  given a unit last axis and repeated along it; a vector placed on the last axis of a rank-3 array and repeated over the
  two leading ones; the sum over the last axis of a rank-3 array; and the maximum over the last axis of a rank-4 array
  as the fold of the maximum over that axis's coordinates.
-/
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

namespace Cert.LibHostAttn

open Idealize.ShloMosaic Idealize.ShloMosaic.ValueIdx
open scoped BigOperators

variable {α : Type}

/-! ## Contractions -/

/-- `[B, T, K]` with `[E, K]` over the last axis of both: at `(b, t, e)` the sum over `c` of `l (b, t, c) · r (e, c)`. -/
theorem dot_btk_ek_apply {B T K E : ℕ} {φ₁ φ₂ : FTy}
    (w : DotDims.WF ⟨3, ![B, T, K]⟩ ⟨2, ![E, K]⟩ ⟨3, ![B, T, E]⟩ [2] [1] [0, 1] [0] [] [])
    (prec : Option ContractPrecision) (l : FVec Ideal ⟨3, ![B, T, K]⟩ φ₁) (r : FVec Ideal ⟨2, ![E, K]⟩ φ₂)
    (b : Fin B) (t : Fin T) (e : Fin E) :
    Host.dotGeneral (⟨[2], [1], [0, 1], [0], [], [], w⟩ : DotDims _ _ _) prec l r (ix3 b t e)
      = ∑ c : Fin K, l (ix3 b t c) * r (ix2 e c) := by
  show FloatOps.dotGeneral _ prec _ l r (ix3 b t e) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c1 := contrEquiv1_symm_val
    (⟨[2], [1], [0, 1], [0], [], [], w⟩ : DotDims ⟨3, ![B, T, K]⟩ ⟨2, ![E, K]⟩ ⟨3, ![B, T, E]⟩) K rfl rfl c
  have l3 : (⟨[2], [1], [0, 1], [0], [], [], w⟩ : DotDims ⟨3, ![B, T, K]⟩ ⟨2, ![E, K]⟩ ⟨3, ![B, T, E]⟩).lhsIdx (ix3 b t e)
      ((contrEquiv1 _ K rfl rfl).symm c) = ix3 b t c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c1
  have r2 : (⟨[2], [1], [0, 1], [0], [], [], w⟩ : DotDims ⟨3, ![B, T, K]⟩ ⟨2, ![E, K]⟩ ⟨3, ![B, T, E]⟩).rhsIdx (ix3 b t e)
      ((contrEquiv1 _ K rfl rfl).symm c) = ix2 e c := by
    funext ax; apply Fin.ext
    match ax with
    | ⟨0, _⟩ => simp [DotDims.rhsIdx]; rfl
    | ⟨1, _⟩ => simp [DotDims.rhsIdx]; exact c1
  rw [l3, r2]

/-- The same for a record of dimension numbers given by its fields. -/
theorem dot_btk_ek_apply' {B T K E : ℕ} {φ₁ φ₂ : FTy} (D : DotDims ⟨3, ![B, T, K]⟩ ⟨2, ![E, K]⟩ ⟨3, ![B, T, E]⟩)
    (hlc : D.lhsContracting = [2]) (hrc : D.rhsContracting = [1]) (hln : D.lhsNonContracting = [0, 1])
    (hrn : D.rhsNonContracting = [0]) (hlb : D.lhsBatch = []) (hrb : D.rhsBatch = [])
    (prec : Option ContractPrecision) (l : FVec Ideal ⟨3, ![B, T, K]⟩ φ₁) (r : FVec Ideal ⟨2, ![E, K]⟩ φ₂)
    (b : Fin B) (t : Fin T) (e : Fin E) :
    Host.dotGeneral D prec l r (ix3 b t e) = ∑ c : Fin K, l (ix3 b t c) * r (ix2 e c) := by
  obtain ⟨lc, rc, ln, rn, lb, rb, w⟩ := D
  subst hlc hrc hln hrn hlb hrb
  exact dot_btk_ek_apply w prec l r b t e

/-- `[B, H, T, D]` with `[B, H, S, D]`, batched over the two leading axes, over the last axis of both: at `(b, h, t, s)`
    the sum over `d` of `l (b, h, t, d) · r (b, h, s, d)`. -/
theorem dot_bhtd_bhsd_apply {B H T S D : ℕ} {φ₁ φ₂ : FTy}
    (w : DotDims.WF ⟨4, ![B, H, T, D]⟩ ⟨4, ![B, H, S, D]⟩ ⟨4, ![B, H, T, S]⟩ [3] [3] [2] [2] [0, 1] [0, 1])
    (prec : Option ContractPrecision) (l : FVec Ideal ⟨4, ![B, H, T, D]⟩ φ₁) (r : FVec Ideal ⟨4, ![B, H, S, D]⟩ φ₂)
    (b : Fin B) (h : Fin H) (t : Fin T) (s : Fin S) :
    Host.dotGeneral (⟨[3], [3], [2], [2], [0, 1], [0, 1], w⟩ : DotDims _ _ _) prec l r (ix4 b h t s)
      = ∑ d : Fin D, l (ix4 b h t d) * r (ix4 b h s d) := by
  show FloatOps.dotGeneral _ prec _ l r (ix4 b h t s) = _
  rw [Ideal.dotGeneral_apply,
    ← Equiv.sum_comp (contrEquiv1 (⟨[3], [3], [2], [2], [0, 1], [0, 1], w⟩ : DotDims _ _ _) D rfl rfl).symm]
  refine Finset.sum_congr rfl fun d _ => ?_
  have c1 := contrEquiv1_symm_val
    (⟨[3], [3], [2], [2], [0, 1], [0, 1], w⟩ : DotDims ⟨4, ![B, H, T, D]⟩ ⟨4, ![B, H, S, D]⟩ ⟨4, ![B, H, T, S]⟩) D rfl rfl d
  have l4 : (⟨[3], [3], [2], [2], [0, 1], [0, 1], w⟩ : DotDims ⟨4, ![B, H, T, D]⟩ ⟨4, ![B, H, S, D]⟩ ⟨4, ![B, H, T, S]⟩).lhsIdx
      (ix4 b h t s) ((contrEquiv1 _ D rfl rfl).symm d) = ix4 b h t d := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c1
  have r4 : (⟨[3], [3], [2], [2], [0, 1], [0, 1], w⟩ : DotDims ⟨4, ![B, H, T, D]⟩ ⟨4, ![B, H, S, D]⟩ ⟨4, ![B, H, T, S]⟩).rhsIdx
      (ix4 b h t s) ((contrEquiv1 _ D rfl rfl).symm d) = ix4 b h s d := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c1
  rw [l4, r4]

/-- The same for a record of dimension numbers given by its fields. -/
theorem dot_bhtd_bhsd_apply' {B H T S D : ℕ} {φ₁ φ₂ : FTy}
    (R : DotDims ⟨4, ![B, H, T, D]⟩ ⟨4, ![B, H, S, D]⟩ ⟨4, ![B, H, T, S]⟩)
    (hlc : R.lhsContracting = [3]) (hrc : R.rhsContracting = [3]) (hln : R.lhsNonContracting = [2])
    (hrn : R.rhsNonContracting = [2]) (hlb : R.lhsBatch = [0, 1]) (hrb : R.rhsBatch = [0, 1])
    (prec : Option ContractPrecision) (l : FVec Ideal ⟨4, ![B, H, T, D]⟩ φ₁) (r : FVec Ideal ⟨4, ![B, H, S, D]⟩ φ₂)
    (b : Fin B) (h : Fin H) (t : Fin T) (s : Fin S) :
    Host.dotGeneral R prec l r (ix4 b h t s) = ∑ d : Fin D, l (ix4 b h t d) * r (ix4 b h s d) := by
  obtain ⟨lc, rc, ln, rn, lb, rb, w⟩ := R
  subst hlc hrc hln hrn hlb hrb
  exact dot_bhtd_bhsd_apply w prec l r b h t s

/-- `[B, H, T, S]` with `[B, H, S, D]`, batched over the two leading axes, over the last axis of the left and the third
    of the right: at `(b, h, t, d)` the sum over `s` of `l (b, h, t, s) · r (b, h, s, d)`. -/
theorem dot_bhts_bhsd_apply {B H T S D : ℕ} {φ₁ φ₂ : FTy}
    (w : DotDims.WF ⟨4, ![B, H, T, S]⟩ ⟨4, ![B, H, S, D]⟩ ⟨4, ![B, H, T, D]⟩ [3] [2] [2] [3] [0, 1] [0, 1])
    (prec : Option ContractPrecision) (l : FVec Ideal ⟨4, ![B, H, T, S]⟩ φ₁) (r : FVec Ideal ⟨4, ![B, H, S, D]⟩ φ₂)
    (b : Fin B) (h : Fin H) (t : Fin T) (d : Fin D) :
    Host.dotGeneral (⟨[3], [2], [2], [3], [0, 1], [0, 1], w⟩ : DotDims _ _ _) prec l r (ix4 b h t d)
      = ∑ s : Fin S, l (ix4 b h t s) * r (ix4 b h s d) := by
  show FloatOps.dotGeneral _ prec _ l r (ix4 b h t d) = _
  rw [Ideal.dotGeneral_apply,
    ← Equiv.sum_comp (contrEquiv1 (⟨[3], [2], [2], [3], [0, 1], [0, 1], w⟩ : DotDims _ _ _) S rfl rfl).symm]
  refine Finset.sum_congr rfl fun s _ => ?_
  have c1 := contrEquiv1_symm_val
    (⟨[3], [2], [2], [3], [0, 1], [0, 1], w⟩ : DotDims ⟨4, ![B, H, T, S]⟩ ⟨4, ![B, H, S, D]⟩ ⟨4, ![B, H, T, D]⟩) S rfl rfl s
  have l4 : (⟨[3], [2], [2], [3], [0, 1], [0, 1], w⟩ : DotDims ⟨4, ![B, H, T, S]⟩ ⟨4, ![B, H, S, D]⟩ ⟨4, ![B, H, T, D]⟩).lhsIdx
      (ix4 b h t d) ((contrEquiv1 _ S rfl rfl).symm s) = ix4 b h t s := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c1
  have r4 : (⟨[3], [2], [2], [3], [0, 1], [0, 1], w⟩ : DotDims ⟨4, ![B, H, T, S]⟩ ⟨4, ![B, H, S, D]⟩ ⟨4, ![B, H, T, D]⟩).rhsIdx
      (ix4 b h t d) ((contrEquiv1 _ S rfl rfl).symm s) = ix4 b h s d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c1
    | ⟨3, _⟩ => simp [DotDims.rhsIdx]; rfl
  rw [l4, r4]

/-- The same for a record of dimension numbers given by its fields. -/
theorem dot_bhts_bhsd_apply' {B H T S D : ℕ} {φ₁ φ₂ : FTy}
    (R : DotDims ⟨4, ![B, H, T, S]⟩ ⟨4, ![B, H, S, D]⟩ ⟨4, ![B, H, T, D]⟩)
    (hlc : R.lhsContracting = [3]) (hrc : R.rhsContracting = [2]) (hln : R.lhsNonContracting = [2])
    (hrn : R.rhsNonContracting = [3]) (hlb : R.lhsBatch = [0, 1]) (hrb : R.rhsBatch = [0, 1])
    (prec : Option ContractPrecision) (l : FVec Ideal ⟨4, ![B, H, T, S]⟩ φ₁) (r : FVec Ideal ⟨4, ![B, H, S, D]⟩ φ₂)
    (b : Fin B) (h : Fin H) (t : Fin T) (d : Fin D) :
    Host.dotGeneral R prec l r (ix4 b h t d) = ∑ s : Fin S, l (ix4 b h t s) * r (ix4 b h s d) := by
  obtain ⟨lc, rc, ln, rn, lb, rb, w⟩ := R
  subst hlc hrc hln hrn hlb hrb
  exact dot_bhts_bhsd_apply w prec l r b h t d

/-! ## The two middle axes exchanged -/

/-- `[a, b, c, d]` with its two middle axes exchanged reads, at `(i, k, j, l)`, the operand at `(i, j, k, l)`. -/
theorem transpose_0213_apply {a b c d : ℕ} (x : (⟨4, ![a, b, c, d]⟩ : Shape).Idx → α)
    (h : (⟨4, ![a, b, c, d]⟩ : Shape).Transposes [0, 2, 1, 3] ⟨4, ![a, c, b, d]⟩)
    (i : Fin a) (k : Fin c) (j : Fin b) (l : Fin d) :
    transpose ⟨4, ![a, c, b, d]⟩ [0, 2, 1, 3] x h (ix4 i k j l) = x (ix4 i j k l) :=
  transpose_apply _ x h (ix4 i k j l) (ix4 i j k l) fun ax =>
    match ax with | ⟨0, _⟩ => rfl | ⟨1, _⟩ => rfl | ⟨2, _⟩ => rfl | ⟨3, _⟩ => rfl

/-! ## A per-row value given a unit last axis, and repeated along it -/

/-- `[a, b, c]` placed on the three leading axes of `[a, b, c, 1]` reads, at `(i, j, t, u)`, the operand at `(i, j, t)`. -/
theorem bcast_abc_abc1_apply {a b c : ℕ} (x : (⟨3, ![a, b, c]⟩ : Shape).Idx → α)
    (h : (⟨3, ![a, b, c]⟩ : Shape).BroadcastsInDim ⟨4, ![a, b, c, 1]⟩ (![0, 1, 2] : Fin 3 → Fin 4))
    (i : Fin a) (j : Fin b) (t : Fin c) (u : Fin 1) :
    broadcastInDim ⟨4, ![a, b, c, 1]⟩ (![0, 1, 2] : Fin 3 → Fin 4) h x (ix4 i j t u) = x (ix3 i j t) := by
  refine broadcastInDim_apply _ h x (ix4 i j t u) (ix3 i j t) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show t.val = if c = 1 then 0 else t.val
    split
    · have := t.isLt; omega
    · rfl

/-- `[a, b, c, 1]` broadcast to `[a, b, c, d]` reads, at `(i, j, t, k)`, the operand at `(i, j, t, 0)`. -/
theorem bcast_abc1_abcd_apply {a b c d : ℕ} (x : (⟨4, ![a, b, c, 1]⟩ : Shape).Idx → α)
    (h : (⟨4, ![a, b, c, 1]⟩ : Shape).BroadcastsInDim ⟨4, ![a, b, c, d]⟩ (![0, 1, 2, 3] : Fin 4 → Fin 4))
    (i : Fin a) (j : Fin b) (t : Fin c) (k : Fin d) :
    broadcastInDim ⟨4, ![a, b, c, d]⟩ (![0, 1, 2, 3] : Fin 4 → Fin 4) h x (ix4 i j t k) = x (ix4 i j t (0 : Fin 1)) := by
  refine broadcastInDim_apply _ h x (ix4 i j t k) (ix4 i j t (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show t.val = if c = 1 then 0 else t.val
    split
    · have := t.isLt; omega
    · rfl
  | ⟨3, _⟩ => exact (if_pos rfl).symm

/-! ## A vector on the last axis of a rank-3 array, repeated over the leading two -/

/-- `[c]` placed on the last axis of `[1, 1, c]` reads, at `(u, v, k)`, the vector at `k`. -/
theorem bcast_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ (![2] : Fin 1 → Fin 3) h x (ix3 u v k) = x (ix1 k) := by
  refine broadcastInDim_apply _ h x (ix3 u v k) (ix1 k) fun ax => ?_
  match ax with
  | ⟨0, _⟩ =>
    show k.val = if c = 1 then 0 else k.val
    split
    · have := k.isLt; omega
    · rfl

/-- `[1, 1, c]` broadcast to `[a, b, c]` reads, at `(i, j, k)`, the operand at `(0, 0, k)`. -/
theorem bcast_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3))
    (i : Fin a) (j : Fin b) (k : Fin c) :
    broadcastInDim ⟨3, ![a, b, c]⟩ (![0, 1, 2] : Fin 3 → Fin 3) h x (ix3 i j k) = x (ix3 (0 : Fin 1) (0 : Fin 1) k) := by
  refine broadcastInDim_apply _ h x (ix3 i j k) (ix3 (0 : Fin 1) (0 : Fin 1) k) fun ax => ?_
  match ax with
  | ⟨0, _⟩ => exact (if_pos rfl).symm
  | ⟨1, _⟩ => exact (if_pos rfl).symm
  | ⟨2, _⟩ =>
    show k.val = if c = 1 then 0 else k.val
    split
    · have := k.isLt; omega
    · rfl

/-! ## Reductions over the last axis -/

/-- The host's sum of an `[a, b, c]` array over its last axis reads, at `(i, j)`, the initial value plus the sum over `k`
    of the operand at `(i, j, k)`. -/
theorem hostSum_last3_apply {a b c : ℕ} {φ : FTy} (x : FVec Ideal ⟨3, ![a, b, c]⟩ φ)
    (z : FVec Ideal ⟨0, ![]⟩ φ) (h : (⟨3, ![a, b, c]⟩ : Shape).ReducesTo [2] ⟨2, ![a, b]⟩)
    (hz : 0 < (⟨0, ![]⟩ : Shape).numel) (i : Fin a) (j : Fin b) :
    Host.reduceAdd x z h hz (ix2 i j) = z ix0 + ∑ k : Fin c, x (ix3 i j k) := by
  have hR : (⟨3, ![a, b, c]⟩ : Shape).Reduces [2] ⟨2, ![a, b]⟩ := ⟨h.1, Nat.zero_lt_succ 1, h.2⟩
  have hz0 : Shape.Idx.first hz = ix0 := eq_ix0 _
  show Ideal.hostReduceAdd h x (z (Shape.Idx.first hz)) (ix2 i j) = _
  rw [hz0]
  refine (Ideal.hostReduceAdd_single h hR x (z ix0) (ix2 i j)).trans ?_
  show z ix0 + ∑ k : Fin c, x (hR.lift (ix2 i j) k) = _
  exact congrArg (z ix0 + ·) (Finset.sum_congr rfl fun k _ => congrArg x (funext fun ax => Fin.ext
    (match ax with | ⟨0, _⟩ => rfl | ⟨1, _⟩ => rfl | ⟨2, _⟩ => rfl)))

/-- The host's maximum of an `[a, b, c, d]` array over its last axis reads, at `(i, j, t)`, the fold of the maximum from
    the initial value over `k` of the operand at `(i, j, t, k)`. -/
theorem hostMax_last4_apply {a b c d : ℕ} {φ : FTy} (x : FVec Ideal ⟨4, ![a, b, c, d]⟩ φ)
    (z : FVec Ideal ⟨0, ![]⟩ φ) (h : (⟨4, ![a, b, c, d]⟩ : Shape).ReducesTo [3] ⟨3, ![a, b, c]⟩)
    (hz : 0 < (⟨0, ![]⟩ : Shape).numel) (i : Fin a) (j : Fin b) (t : Fin c) :
    Host.reduce (FloatOps.maximumf (F := Ideal) (φ := φ)) x z h hz (ix3 i j t)
      = (Finset.univ : Finset (Fin d)).fold max (z ix0) (fun k => x (ix4 i j t k)) := by
  have hR : (⟨4, ![a, b, c, d]⟩ : Shape).Reduces [3] ⟨3, ![a, b, c]⟩ := ⟨h.1, Nat.zero_lt_succ 2, h.2⟩
  have hz0 : Shape.Idx.first hz = ix0 := eq_ix0 _
  refine (Host.reduce_eq_fold_single (FloatOps.maximumf (F := Ideal) (φ := φ)) x z h hR hz (ix3 i j t)).trans ?_
  rw [hz0]
  show (Finset.univ : Finset (Fin d)).fold max (z ix0) (x ∘ hR.lift (ix3 i j t)) = _
  exact congrArg ((Finset.univ : Finset (Fin d)).fold max (z ix0)) (funext fun k => congrArg x (funext fun ax => Fin.ext
    (match ax with | ⟨0, _⟩ => rfl | ⟨1, _⟩ => rfl | ⟨2, _⟩ => rfl | ⟨3, _⟩ => rfl)))

end Cert.LibHostAttn
-- ==== Proof.LibHostRead.lean ====
/-
  Host operations of a reference program, each read at ONE index written by coordinates.

  A reference computes a pairwise tensor by placing vectors on the axes of a rank-4 array with unit extents elsewhere,
  broadcasting the unit axes, combining elementwise and summing over the last axis. Each broadcast reads its operand at
  the index made of the result's coordinates on the axes the operand occupies, with 0 on the operand's unit axes; the
  sum over the last axis at (i, j, t) is the initial value plus the sum over k of the operand at (i, j, t, k).
-/
import Idealize.ShloMosaic.PureOps.Ideal.Laws
import Idealize.ShloMosaic.Lib.ValueIdx
import Idealize.ShloMosaic.Lib.ValueLayout
import Idealize.ShloMosaic.Lib.Pipeline.Value

namespace Cert.LibHostRead

open Idealize.ShloMosaic Idealize.ShloMosaic.ValueIdx
open scoped BigOperators

variable {α : Type}

/-! ## Vectors and matrices placed on the axes of a rank-4 array -/

/-- An `[n, c]` matrix placed on axes 1 and 3 of `[1, n, 1, c]` reads, at `(u, j, v, k)`, the matrix at `(j, k)`. -/
theorem bcast_nc_1n1c_apply {n c : ℕ} (x : (⟨2, ![n, c]⟩ : Shape).Idx → α)
    (h : (⟨2, ![n, c]⟩ : Shape).BroadcastsInDim ⟨4, ![1, n, 1, c]⟩ (![1, 3] : Fin 2 → Fin 4))
    (u : Fin 1) (j : Fin n) (v : Fin 1) (k : Fin c) :
    broadcastInDim ⟨4, ![1, n, 1, c]⟩ (![1, 3] : Fin 2 → Fin 4) h x (ix4 u j v k) = x (ix2 j k) := by
  refine broadcastInDim_apply _ h x (ix4 u j v k) (ix2 j k) fun ax => ?_
  match ax with
  | ⟨0, _⟩ =>
    show j.val = if n = 1 then 0 else j.val
    split
    · have := j.isLt; omega
    · rfl
  | ⟨1, _⟩ =>
    show k.val = if c = 1 then 0 else k.val
    split
    · have := k.isLt; omega
    · rfl

/-- An `[s, c]` matrix placed on axes 2 and 3 of `[1, 1, s, c]` reads, at `(u, v, t, k)`, the matrix at `(t, k)`. -/
theorem bcast_sc_11sc_apply {s c : ℕ} (x : (⟨2, ![s, c]⟩ : Shape).Idx → α)
    (h : (⟨2, ![s, c]⟩ : Shape).BroadcastsInDim ⟨4, ![1, 1, s, c]⟩ (![2, 3] : Fin 2 → Fin 4))
    (u v : Fin 1) (t : Fin s) (k : Fin c) :
    broadcastInDim ⟨4, ![1, 1, s, c]⟩ (![2, 3] : Fin 2 → Fin 4) h x (ix4 u v t k) = x (ix2 t k) := by
  refine broadcastInDim_apply _ h x (ix4 u v t k) (ix2 t k) fun ax => ?_
  match ax with
  | ⟨0, _⟩ =>
    show t.val = if s = 1 then 0 else t.val
    split
    · have := t.isLt; omega
    · rfl
  | ⟨1, _⟩ =>
    show k.val = if c = 1 then 0 else k.val
    split
    · have := k.isLt; omega
    · rfl

/-- An `[n, c]` matrix placed on axes 0 and 3 of `[n, 1, 1, c]` reads, at `(i, u, v, k)`, the matrix at `(i, k)`. -/
theorem bcast_nc_n11c_apply {n c : ℕ} (x : (⟨2, ![n, c]⟩ : Shape).Idx → α)
    (h : (⟨2, ![n, c]⟩ : Shape).BroadcastsInDim ⟨4, ![n, 1, 1, c]⟩ (![0, 3] : Fin 2 → Fin 4))
    (i : Fin n) (u v : Fin 1) (k : Fin c) :
    broadcastInDim ⟨4, ![n, 1, 1, c]⟩ (![0, 3] : Fin 2 → Fin 4) h x (ix4 i u v k) = x (ix2 i k) := by
  refine broadcastInDim_apply _ h x (ix4 i u v k) (ix2 i k) fun ax => ?_
  match ax with
  | ⟨0, _⟩ =>
    show i.val = if n = 1 then 0 else i.val
    split
    · have := i.isLt; omega
    · rfl
  | ⟨1, _⟩ =>
    show k.val = if c = 1 then 0 else k.val
    split
    · have := k.isLt; omega
    · rfl

/-! ## Unit axes of a rank-4 array broadcast -/

/-- A `[1, n, 1, c]` array broadcast to `[1, n, s, c]` reads, at `(u, j, t, k)`, the operand at `(0, j, 0, k)`. -/
theorem bcast_1n1c_1nsc_apply {n s c : ℕ} (x : (⟨4, ![1, n, 1, c]⟩ : Shape).Idx → α)
    (h : (⟨4, ![1, n, 1, c]⟩ : Shape).BroadcastsInDim ⟨4, ![1, n, s, c]⟩ (![0, 1, 2, 3] : Fin 4 → Fin 4))
    (u : Fin 1) (j : Fin n) (t : Fin s) (k : Fin c) :
    broadcastInDim ⟨4, ![1, n, s, c]⟩ (![0, 1, 2, 3] : Fin 4 → Fin 4) h x (ix4 u j t k)
      = x (ix4 (0 : Fin 1) j (0 : Fin 1) k) := by
  refine broadcastInDim_apply _ h x (ix4 u j t k) (ix4 (0 : Fin 1) j (0 : Fin 1) k) fun ax => ?_
  match ax with
  | ⟨0, _⟩ => exact (if_pos rfl).symm
  | ⟨1, _⟩ =>
    show j.val = if n = 1 then 0 else j.val
    split
    · have := j.isLt; omega
    · rfl
  | ⟨2, _⟩ => exact (if_pos rfl).symm
  | ⟨3, _⟩ =>
    show k.val = if c = 1 then 0 else k.val
    split
    · have := k.isLt; omega
    · rfl

/-- A `[1, 1, s, c]` array broadcast to `[1, n, s, c]` reads, at `(u, j, t, k)`, the operand at `(0, 0, t, k)`. -/
theorem bcast_11sc_1nsc_apply {n s c : ℕ} (x : (⟨4, ![1, 1, s, c]⟩ : Shape).Idx → α)
    (h : (⟨4, ![1, 1, s, c]⟩ : Shape).BroadcastsInDim ⟨4, ![1, n, s, c]⟩ (![0, 1, 2, 3] : Fin 4 → Fin 4))
    (u : Fin 1) (j : Fin n) (t : Fin s) (k : Fin c) :
    broadcastInDim ⟨4, ![1, n, s, c]⟩ (![0, 1, 2, 3] : Fin 4 → Fin 4) h x (ix4 u j t k)
      = x (ix4 (0 : Fin 1) (0 : Fin 1) t k) := by
  refine broadcastInDim_apply _ h x (ix4 u j t k) (ix4 (0 : Fin 1) (0 : Fin 1) t k) fun ax => ?_
  match ax with
  | ⟨0, _⟩ => exact (if_pos rfl).symm
  | ⟨1, _⟩ => exact (if_pos rfl).symm
  | ⟨2, _⟩ =>
    show t.val = if s = 1 then 0 else t.val
    split
    · have := t.isLt; omega
    · rfl
  | ⟨3, _⟩ =>
    show k.val = if c = 1 then 0 else k.val
    split
    · have := k.isLt; omega
    · rfl

/-- A `[1, n, s, c]` array broadcast to `[m, n, s, c]` reads, at `(i, j, t, k)`, the operand at `(0, j, t, k)`. -/
theorem bcast_1nsc_mnsc_apply {m n s c : ℕ} (x : (⟨4, ![1, n, s, c]⟩ : Shape).Idx → α)
    (h : (⟨4, ![1, n, s, c]⟩ : Shape).BroadcastsInDim ⟨4, ![m, n, s, c]⟩ (![0, 1, 2, 3] : Fin 4 → Fin 4))
    (i : Fin m) (j : Fin n) (t : Fin s) (k : Fin c) :
    broadcastInDim ⟨4, ![m, n, s, c]⟩ (![0, 1, 2, 3] : Fin 4 → Fin 4) h x (ix4 i j t k)
      = x (ix4 (0 : Fin 1) j t k) := by
  refine broadcastInDim_apply _ h x (ix4 i j t k) (ix4 (0 : Fin 1) j t k) fun ax => ?_
  match ax with
  | ⟨0, _⟩ => exact (if_pos rfl).symm
  | ⟨1, _⟩ =>
    show j.val = if n = 1 then 0 else j.val
    split
    · have := j.isLt; omega
    · rfl
  | ⟨2, _⟩ =>
    show t.val = if s = 1 then 0 else t.val
    split
    · have := t.isLt; omega
    · rfl
  | ⟨3, _⟩ =>
    show k.val = if c = 1 then 0 else k.val
    split
    · have := k.isLt; omega
    · rfl

/-- An `[n, 1, 1, c]` array broadcast to `[n, m, s, c]` reads, at `(i, j, t, k)`, the operand at `(i, 0, 0, k)`. -/
theorem bcast_n11c_nmsc_apply {n m s c : ℕ} (x : (⟨4, ![n, 1, 1, c]⟩ : Shape).Idx → α)
    (h : (⟨4, ![n, 1, 1, c]⟩ : Shape).BroadcastsInDim ⟨4, ![n, m, s, c]⟩ (![0, 1, 2, 3] : Fin 4 → Fin 4))
    (i : Fin n) (j : Fin m) (t : Fin s) (k : Fin c) :
    broadcastInDim ⟨4, ![n, m, s, c]⟩ (![0, 1, 2, 3] : Fin 4 → Fin 4) h x (ix4 i j t k)
      = x (ix4 i (0 : Fin 1) (0 : Fin 1) k) := by
  refine broadcastInDim_apply _ h x (ix4 i j t k) (ix4 i (0 : Fin 1) (0 : Fin 1) k) fun ax => ?_
  match ax with
  | ⟨0, _⟩ =>
    show i.val = if n = 1 then 0 else i.val
    split
    · have := i.isLt; omega
    · rfl
  | ⟨1, _⟩ => exact (if_pos rfl).symm
  | ⟨2, _⟩ => exact (if_pos rfl).symm
  | ⟨3, _⟩ =>
    show k.val = if c = 1 then 0 else k.val
    split
    · have := k.isLt; omega
    · rfl

/-! ## A scalar broadcast, and the sum over the last axis -/

/-- A scalar broadcast to any shape reads, at every index, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- The host's sum of an `[a, b, c, d]` array over its last axis reads, at `(i, j, t)`, the initial value plus the sum
    over `k` of the operand at `(i, j, t, k)`. At the ideal values. -/
theorem hostSum_last4_apply {a b c d : ℕ} {φ : FTy} (x : FVec Ideal ⟨4, ![a, b, c, d]⟩ φ)
    (z : FVec Ideal ⟨0, ![]⟩ φ) (h : (⟨4, ![a, b, c, d]⟩ : Shape).ReducesTo [3] ⟨3, ![a, b, c]⟩)
    (hz : 0 < (⟨0, ![]⟩ : Shape).numel) (i : Fin a) (j : Fin b) (t : Fin c) :
    Host.reduceAdd x z h hz (ix3 i j t) = z ix0 + ∑ k : Fin d, x (ix4 i j t k) := by
  have hR : (⟨4, ![a, b, c, d]⟩ : Shape).Reduces [3] ⟨3, ![a, b, c]⟩ := ⟨h.1, Nat.zero_lt_succ 2, h.2⟩
  have hz0 : Shape.Idx.first hz = ix0 := eq_ix0 _
  show Ideal.hostReduceAdd h x (z (Shape.Idx.first hz)) (ix3 i j t) = _
  rw [hz0]
  refine (Ideal.hostReduceAdd_single h hR x (z ix0) (ix3 i j t)).trans ?_
  show z ix0 + ∑ k : Fin d, x (hR.lift (ix3 i j t) k) = _
  exact congrArg (z ix0 + ·) (Finset.sum_congr rfl fun k _ => congrArg x (funext fun ax => Fin.ext
    (match ax with | ⟨0, _⟩ => rfl | ⟨1, _⟩ => rfl | ⟨2, _⟩ => rfl | ⟨3, _⟩ => rfl)))

end Cert.LibHostRead
-- ==== Proof.LibHostReadMisc.lean ====
/-
  More host operations of a reference program, each read at ONE index written by coordinates.

  One slot of the last axis of a rank-3 array taken out by a slice, cast to a matrix and put back on a unit axis; the
  product of a matrix with a rank-3 array contracted over the array's last axis, as a sum over the contracted
  coordinate; a vector laid on the diagonal of a square matrix by comparing the row and column counters; two arrays
  stacked along a new leading axis; and matrices and vectors placed in a rank-3 array with a leading unit axis.
-/
import Idealize.ShloMosaic.PureOps.Ideal.Laws
import Idealize.ShloMosaic.Lib.ValueIdx
import Idealize.ShloMosaic.Lib.ValueLayout
import Idealize.ShloMosaic.Lib.Pipeline.Value

namespace Cert.LibHostRead

open Idealize.ShloMosaic Idealize.ShloMosaic.ValueIdx
open scoped BigOperators

variable {α : Type}

/-! ## One slot of the last axis of a rank-3 array, taken out and put back -/

/-- The slice of an `[a, b, n]` array at offset `o` on its last axis, one slot wide, reads, at `(i, j, u)`, the operand
    at `(i, j, k)` where `k` is the slot `o`. -/
theorem slice_abn_ab1_apply {a b n o : ℕ} (x : (⟨3, ![a, b, n]⟩ : Shape).Idx → α)
    (h : (⟨3, ![a, b, n]⟩ : Shape).Slices (![0, 0, o] : Fin 3 → ℕ) ⟨3, ![a, b, 1]⟩)
    (i : Fin a) (j : Fin b) (u : Fin 1) (k : Fin n) (hk : k.val = o) :
    extractStridedSlice ⟨3, ![a, b, 1]⟩ (![0, 0, o] : Fin 3 → ℕ) x h (ix3 i j u) = x (ix3 i j k) := by
  refine extractStridedSlice_apply _ x h (ix3 i j u) (ix3 i j k) fun ax => ?_
  match ax with
  | ⟨0, _⟩ =>
    show i.val = 0 + i.val
    rw [Nat.zero_add]
  | ⟨1, _⟩ =>
    show j.val = 0 + j.val
    rw [Nat.zero_add]
  | ⟨2, _⟩ =>
    show k.val = o + u.val
    have hu : u.val = 0 := by omega
    rw [hk, hu, Nat.add_zero]

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` matrix placed on axes 0 and 1 of `[a, b, 1]` reads, at `(i, j, u)`, the matrix at `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3))
    (i : Fin a) (j : Fin b) (u : Fin 1) :
    broadcastInDim ⟨3, ![a, b, 1]⟩ (![0, 1] : Fin 2 → Fin 3) h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast to `[a, b, c]` reads, at `(i, j, t)`, the operand at `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (i : Fin a) (j : Fin b) (t : Fin c) :
    broadcastInDim ⟨3, ![a, b, c]⟩ (![0, 1, 2] : Fin 3 → Fin 3) h x (ix3 i j t) = x (ix3 i j (0 : Fin 1)) := by
  refine broadcastInDim_apply _ h x (ix3 i j t) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-! ## A matrix times a rank-3 array, contracted over the array's last axis -/

/-- The product of a `[K, S]` matrix with an `[A, B, S]` array contracting the matrix's axis 1 with the array's axis 2,
    no batch axes, read at `(k, i, j)`, is the sum over `s` of the matrix at `(k, s)` times the array at `(i, j, s)`.
    At the ideal values. `w` is the well-formedness of the dimension numbers, which a program states. -/
theorem dotGeneral_KS_ABS_apply {K S A B : ℕ} {φ₁ φ₂ : FTy}
    (w : DotDims.WF ⟨2, ![K, S]⟩ ⟨3, ![A, B, S]⟩ ⟨3, ![K, A, B]⟩ [1] [2] [0] [0, 1] [] [])
    (prec : Option ContractPrecision) (l : FVec Ideal ⟨2, ![K, S]⟩ φ₁) (r : FVec Ideal ⟨3, ![A, B, S]⟩ φ₂)
    (k : Fin K) (i : Fin A) (j : Fin B) :
    Host.dotGeneral (⟨[1], [2], [0], [0, 1], [], [], w⟩ : DotDims _ _ _) prec l r (ix3 k i j)
      = ∑ s : Fin S, l (ix2 k s) * r (ix3 i j s) := by
  show FloatOps.dotGeneral _ prec _ l r (ix3 k i j) = _
  rw [Ideal.dotGeneral_apply,
    ← Equiv.sum_comp (contrEquiv1 (⟨[1], [2], [0], [0, 1], [], [], w⟩ : DotDims _ _ _) S rfl rfl).symm]
  refine Finset.sum_congr rfl fun s _ => ?_
  have c1 := contrEquiv1_symm_val
    (⟨[1], [2], [0], [0, 1], [], [], w⟩ : DotDims ⟨2, ![K, S]⟩ ⟨3, ![A, B, S]⟩ ⟨3, ![K, A, B]⟩) S rfl rfl s
  have l2 : (⟨[1], [2], [0], [0, 1], [], [], w⟩ : DotDims ⟨2, ![K, S]⟩ ⟨3, ![A, B, S]⟩ ⟨3, ![K, A, B]⟩).lhsIdx (ix3 k i j)
      ((contrEquiv1 _ S rfl rfl).symm s) = ix2 k s := by
    funext ax; apply Fin.ext
    match ax with
    | ⟨0, _⟩ => simp [DotDims.lhsIdx]; rfl
    | ⟨1, _⟩ => simp [DotDims.lhsIdx]; exact c1
  have r3 : (⟨[1], [2], [0], [0, 1], [], [], w⟩ : DotDims ⟨2, ![K, S]⟩ ⟨3, ![A, B, S]⟩ ⟨3, ![K, A, B]⟩).rhsIdx (ix3 k i j)
      ((contrEquiv1 _ S rfl rfl).symm s) = ix3 i j s := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c1
  rw [l2, r3]

/-- The same for a record of dimension numbers given by its fields. -/
theorem dotGeneral_KS_ABS_apply' {K S A B : ℕ} {φ₁ φ₂ : FTy}
    (D : DotDims ⟨2, ![K, S]⟩ ⟨3, ![A, B, S]⟩ ⟨3, ![K, A, B]⟩)
    (hlc : D.lhsContracting = [1]) (hrc : D.rhsContracting = [2]) (hln : D.lhsNonContracting = [0])
    (hrn : D.rhsNonContracting = [0, 1]) (hlb : D.lhsBatch = []) (hrb : D.rhsBatch = [])
    (prec : Option ContractPrecision) (l : FVec Ideal ⟨2, ![K, S]⟩ φ₁) (r : FVec Ideal ⟨3, ![A, B, S]⟩ φ₂)
    (k : Fin K) (i : Fin A) (j : Fin B) :
    Host.dotGeneral D prec l r (ix3 k i j) = ∑ s : Fin S, l (ix2 k s) * r (ix3 i j s) := by
  obtain ⟨lc, rc, ln, rn, lb, rb, w⟩ := D
  subst hlc hrc hln hrn hlb hrb
  exact dotGeneral_KS_ABS_apply w prec l r k i j

end Cert.LibHostRead
-- ==== Proof.RefRead.lean ====
/-
  The reference's composed term read at an index.

  Each stage of `refTerm` at one index written by coordinates: a projection as a sum over the input features, a score as
  the head's sum of products over its 64 features divided by the square root of 64, the row maximum as a fold of the
  maximum, the exponentials, the row sum, the probabilities, the context as the probability-weighted sum of value
  rows, the output projection plus the residual, and the layer normalisation as the row model `Cert.Model.lnRow` (mean
  and variance over 512, the variance's select resolved: its divisor 512 − 0 is positive). Then, for real inputs, the
  context is the real model's `Cert.Model.ctxR`: every intermediate is a finite real, the row maximum some real shift,
  and the weighted average does not depend on the shift.
-/
import proofs.«129024_j24481313587606_2_alg».proof.Proof.RefRun
import proofs.«129024_j24481313587606_2_alg».proof.Proof.Model
import proofs.«129024_j24481313587606_2_alg».proof.Proof.ModelLN
import proofs.«129024_j24481313587606_2_alg».proof.Proof.LibHostAttn
import proofs.«129024_j24481313587606_2_alg».proof.Proof.LibHostRead
import proofs.«129024_j24481313587606_2_alg».proof.Proof.LibHostReadMisc
import proofs.«129024_j24481313587606_2_alg».proof.Proof.LibERealSum
import proofs.«129024_j24481313587606_2_alg».proof.Proof.LibSoftmaxShift
import Idealize.ShloMosaic.Lib.IdealHost

noncomputable section

namespace Cert.ReferenceIdeal.RefRun

open Cert.ReferenceIdeal Cert.ReferenceIdeal.Gen Idealize.ShloMosaic Idealize.ShloMosaic.ValueIdx
open Cert.LibHostAttn Cert.LibHostRead Cert.Model
open scoped BigOperators

/-! ## The programs' literals as extended reals -/

/-- The pattern `0x44000000` is 512. -/
theorem ofBits_512 : Ideal.ofBits .f32 0x44000000#32 = ((512 : ℝ) : EReal) := by
  simp [Ideal.ofBits, Ideal.ieee, -EReal.coe_mul]; norm_num

/-- The pattern `0x42800000` is 64. -/
theorem ofBits_64 : Ideal.ofBits .f32 0x42800000#32 = ((64 : ℝ) : EReal) := by
  simp [Ideal.ofBits, Ideal.ieee, -EReal.coe_mul]; norm_num

/-- The pattern `0xFF800000` is `-∞`. -/
theorem ofBits_neg_inf : Ideal.ofBits .f32 0xFF800000#32 = (⊥ : EReal) := by
  simp [Ideal.ofBits, Ideal.ieee]

/-! ## The attention stages at an index -/

/-- A projection at head `h`, row `t`, feature `d`: row `(b, t)` of `x` against row `64 h + d` of the weights. -/
theorem proj_apply (x : FVec Ideal S2x4096x512 .f32) (w : FVec Ideal S512x512 .f32)
    (b : Fin 2) (h : Fin 8) (t : Fin 4096) (d : Fin 64) :
    proj x w (ix4 b h t d) = ∑ c : Fin 512, x (ix3 b t c) * w (ix2 (col h d) c) := by
  unfold proj
  refine (transpose_0213_apply _ _ b h t d).trans ?_
  refine (shapeCast_apply _ _ (ix4 b t h d) (ix3 b t (col h d)) ?_).trans ?_
  · rw [Shape.rowMajor_val_three, Shape.rowMajor_val_four]
    show (b.val * 4096 + t.val) * 512 + (64 * h.val + d.val) = ((b.val * 4096 + t.val) * 8 + h.val) * 64 + d.val
    omega
  · exact dot_btk_ek_apply' _ rfl rfl rfl rfl rfl rfl none x w b t (col h d)

/-- A score: the head's sum of products over its 64 features, over the square root of 64. -/
theorem scores_apply (q k : FVec Ideal S2x8x4096x64 .f32) (b : Fin 2) (h : Fin 8) (t s : Fin 4096) :
    scores q k (ix4 b h t s)
      = Ideal.div (∑ d : Fin 64, q (ix4 b h t d) * k (ix4 b h s d)) (Ideal.sqrt (Ideal.ofBits .f32 0x42800000#32)) := by
  unfold scores
  rw [hostDivf_apply]
  refine congrArg₂ Ideal.div (dot_bhtd_bhsd_apply' _ rfl rfl rfl rfl rfl rfl none q k b h t s) ?_
  exact (broadcastInDim_scalar_apply _ _ _).trans rfl

/-- The row maximum: `-∞` joined with the fold of the maximum from `-∞` over the row. -/
theorem rowMax_apply (s : FVec Ideal S2x8x4096x4096 .f32) (b : Fin 2) (h : Fin 8) (t : Fin 4096) :
    rowMax s (ix3 b h t)
      = max (Ideal.ofBits .f32 0xFF800000#32)
          ((Finset.univ : Finset (Fin 4096)).fold max (Ideal.ofBits .f32 0xFF800000#32) (fun k => s (ix4 b h t k))) := by
  unfold rowMax
  rw [maximumf_apply]
  refine congrArg₂ max ((broadcastInDim_scalar_apply _ _ _).trans rfl) ?_
  exact hostMax_last4_apply s _ _ _ b h t

/-- The same with the literal read: the fold of the maximum from `⊥` over the row. -/
theorem rowMax_eq_fold (s : FVec Ideal S2x8x4096x4096 .f32) (b : Fin 2) (h : Fin 8) (t : Fin 4096) :
    rowMax s (ix3 b h t) = (Finset.univ : Finset (Fin 4096)).fold max (⊥ : EReal) (fun k => s (ix4 b h t k)) := by
  rw [rowMax_apply, ofBits_neg_inf]
  exact max_eq_right bot_le

theorem spread_apply (r : FVec Ideal S2x8x4096 .f32) (b : Fin 2) (h : Fin 8) (t k : Fin 4096) :
    spread r (ix4 b h t k) = r (ix3 b h t) := by
  unfold spread
  exact (bcast_abc1_abcd_apply _ _ b h t k).trans (bcast_abc_abc1_apply r _ b h t 0)

/-- An exponential: of the score less its row's maximum. -/
theorem expo_apply (s : FVec Ideal S2x8x4096x4096 .f32) (b : Fin 2) (h : Fin 8) (t k : Fin 4096) :
    expo s (ix4 b h t k) = Ideal.exp (s (ix4 b h t k) - rowMax s (ix3 b h t)) := by
  unfold expo
  show Ideal.exp (subf (F := Ideal) s (spread (rowMax s)) (ix4 b h t k)) = _
  rw [subf_apply, spread_apply]

/-- The row sum (its initial value is zero). -/
theorem rowSum_apply (p : FVec Ideal S2x8x4096x4096 .f32) (b : Fin 2) (h : Fin 8) (t : Fin 4096) :
    rowSum p (ix3 b h t) = ∑ k : Fin 4096, p (ix4 b h t k) := by
  unfold rowSum
  rw [hostSum_last4_apply]
  show Ideal.ofBits .f32 0x00000000#32 + _ = _
  rw [Ideal.ofBits_zero_f32, zero_add]

/-- A probability: the exponential over its row's sum. -/
theorem probs_apply (p : FVec Ideal S2x8x4096x4096 .f32) (b : Fin 2) (h : Fin 8) (t k : Fin 4096) :
    probs p (ix4 b h t k) = Ideal.div (p (ix4 b h t k)) (rowSum p (ix3 b h t)) := by
  unfold probs
  rw [hostDivf_apply, spread_apply]

/-- The context at row `(b, t)`, feature `64 h + d`: head `h`'s weights against feature `d` of its value rows. -/
theorem ctx_apply (a : FVec Ideal S2x8x4096x4096 .f32) (v : FVec Ideal S2x8x4096x64 .f32)
    (b : Fin 2) (t : Fin 4096) (h : Fin 8) (d : Fin 64) :
    ctx a v (ix3 b t (col h d)) = ∑ s : Fin 4096, a (ix4 b h t s) * v (ix4 b h s d) := by
  unfold ctx
  refine (shapeCast_apply _ _ (ix3 b t (col h d)) (ix4 b t h d) ?_).trans ?_
  · rw [Shape.rowMajor_val_four, Shape.rowMajor_val_three]
    show ((b.val * 4096 + t.val) * 8 + h.val) * 64 + d.val = (b.val * 4096 + t.val) * 512 + (64 * h.val + d.val)
    omega
  refine (transpose_0213_apply _ _ b t h d).trans ?_
  exact dot_bhts_bhsd_apply' _ rfl rfl rfl rfl rfl rfl none a v b h t d

/-- The output projection plus the residual. -/
theorem resid_apply (c : FVec Ideal S2x4096x512 .f32) (wo : FVec Ideal S512x512 .f32) (x : FVec Ideal S2x4096x512 .f32)
    (b : Fin 2) (t : Fin 4096) (e : Fin 512) :
    resid c wo x (ix3 b t e) = (∑ k : Fin 512, c (ix3 b t k) * wo (ix2 e k)) + x (ix3 b t e) := by
  unfold resid
  rw [addf_apply]
  exact congrArg (· + x (ix3 b t e)) (dot_btk_ek_apply' _ rfl rfl rfl rfl rfl rfl none c wo b t e)

/-! ## The layer normalisation at an index -/

theorem featSum_apply (y : FVec Ideal S2x4096x512 .f32) (b : Fin 2) (t : Fin 4096) (u : Fin 1) :
    featSum y (ix3 b t u) = ∑ e : Fin 512, y (ix3 b t e) := by
  unfold featSum
  refine (bcast_ab_ab1_apply _ _ b t u).trans ?_
  rw [hostSum_last3_apply]
  show Ideal.ofBits .f32 0x00000000#32 + _ = _
  rw [Ideal.ofBits_zero_f32, zero_add]

theorem splat_apply (c : FVec Ideal S_ .f32) (j : S2x4096x1.Idx) : splat c j = c ix0 :=
  broadcastInDim_scalar_apply _ c j

theorem featSpread_apply (r : FVec Ideal S2x4096x1 .f32) (b : Fin 2) (t : Fin 4096) (e : Fin 512) :
    featSpread r (ix3 b t e) = r (ix3 b t (0 : Fin 1)) :=
  bcast_ab1_abc_apply r _ b t e

/-- The mean of row `(b, t)`. -/
theorem meanOf_apply (y : FVec Ideal S2x4096x512 .f32) (b : Fin 2) (t : Fin 4096) (u : Fin 1) :
    meanOf y (ix3 b t u) = lnMean (fun k => y (ix3 b t k)) := by
  unfold meanOf lnMean
  rw [hostDivf_apply, featSum_apply, splat_apply]
  rfl

theorem centred_apply (y : FVec Ideal S2x4096x512 .f32) (b : Fin 2) (t : Fin 4096) (e : Fin 512) :
    centred y (ix3 b t e) = y (ix3 b t e) - lnMean (fun k => y (ix3 b t k)) := by
  unfold centred
  rw [subf_apply, featSpread_apply, meanOf_apply]

/-- The variance's divisor is 512: the correction converted from the integer zero is the real zero. -/
theorem dof_apply : dof ix0 = Ideal.ofBits .f32 0x44000000#32 := by
  unfold dof
  rw [subf_apply]
  show Ideal.ofBits .f32 0x44000000#32 - (((0#32 : BitVec 32).toInt : ℝ) : EReal) = _
  simp

/-- The variance of row `(b, t)`: the divisor is positive, so the select takes the quotient. -/
theorem varOf_apply (y : FVec Ideal S2x4096x512 .f32) (b : Fin 2) (t : Fin 4096) (u : Fin 1) :
    varOf y (ix3 b t u) = lnVar (fun k => y (ix3 b t k)) := by
  unfold varOf
  rw [select_apply, broadcastInDim_scalar_apply, cmpf_apply]
  have hc : FloatOps.cmpf (F := Ideal) (φ := .f32) .ogt (dof ix0) (constant (F := Ideal) S_ .f32 0x00000000#32 ix0) = 1#1 := by
    rw [dof_apply, Ideal.cmpf_def]
    show Ideal.cmp .ogt (Ideal.ofBits .f32 0x44000000#32) (Ideal.ofBits .f32 0x00000000#32) = 1#1
    rw [ofBits_512, Ideal.ofBits_zero_f32]
    have h0 : (0 : EReal) < ((512 : ℝ) : EReal) := by exact_mod_cast (by norm_num : (0 : ℝ) < 512)
    simp [Ideal.cmp, h0]
  rw [hc, select_one, hostDivf_apply, featSum_apply, splat_apply, dof_apply]
  unfold lnVar
  refine congrArg (Ideal.div · _) (Finset.sum_congr rfl fun k _ => ?_)
  rw [mulf_apply, centred_apply]

theorem rowVec_apply (g : FVec Ideal S512 .f32) (b : Fin 2) (t : Fin 4096) (e : Fin 512) :
    rowVec g (ix3 b t e) = g (ix1 e) := by
  unfold rowVec
  exact (bcast_11c_abc_apply _ _ b t e).trans (bcast_c_11c_apply g _ 0 0 e)

/-- The normalised row at `e`: the row model of row `(b, t)`. -/
theorem normed_apply (y : FVec Ideal S2x4096x512 .f32) (g bt : FVec Ideal S512 .f32) (b : Fin 2) (t : Fin 4096) (e : Fin 512) :
    normed y g bt (ix3 b t e) = lnRow (fun k => y (ix3 b t k)) e (g (ix1 e)) (bt (ix1 e)) := by
  unfold normed lnRow
  rw [addf_apply, mulf_apply, mulf_apply, centred_apply, featSpread_apply, rowVec_apply, rowVec_apply]
  show _ * Ideal.rsqrt (addf (F := Ideal) (varOf y) (splat (constant (F := Ideal) S_ .f32 0x3727C5AC#32)) (ix3 b t (0 : Fin 1))) * _ + _ = _
  rw [addf_apply, varOf_apply, splat_apply]
  rfl

/-- The whole term at `(b, t, e)`: the row model of the output projection of the context plus the residual. -/
theorem ref_layout (x : FVec Ideal S2x4096x512 .f32) (wq wk wv wo : FVec Ideal S512x512 .f32) (g bt : FVec Ideal S512 .f32)
    (b : Fin 2) (t : Fin 4096) (e : Fin 512) :
    refTerm x wq wk wv wo g bt (ix3 b t e)
      = lnRow (fun k : Fin 512 =>
          (∑ c : Fin 512, ctx (probs (expo (scores (proj x wq) (proj x wk)))) (proj x wv) (ix3 b t c) * wo (ix2 k c))
            + x (ix3 b t k)) e (g (ix1 e)) (bt (ix1 e)) := by
  unfold refTerm
  rw [normed_apply]
  exact congrArg (fun y => lnRow y e (g (ix1 e)) (bt (ix1 e))) (funext fun k => resid_apply _ wo x b t k)

/-! ## Real inputs: the context is the real model's -/

/-- The square root of the literal 64 is 8. -/
theorem sqrt_64 : Ideal.sqrt (Ideal.ofBits .f32 0x42800000#32) = ((8 : ℝ) : EReal) := by
  rw [ofBits_64, Cert.LibERealSum.sqrt_coe_nonneg (by norm_num)]
  refine congrArg _ ?_
  rw [show (64 : ℝ) = 8 ^ 2 by norm_num]
  exact Real.sqrt_sq (by norm_num)

/-- The fold of the maximum from `⊥` over a nonempty finite family of reals is a real. -/
theorem fold_max_coe_exists {ι : Type} [DecidableEq ι] (f : ι → ℝ) (s : Finset ι) (hs : s.Nonempty) :
    ∃ M : ℝ, s.fold max (⊥ : EReal) (fun k => ((f k : ℝ) : EReal)) = ((M : ℝ) : EReal) := by
  induction s using Finset.induction_on with
  | empty => exact absurd hs (by simp)
  | insert a s ha ih =>
    rw [Finset.fold_insert ha]
    rcases s.eq_empty_or_nonempty with rfl | hne
    · exact ⟨f a, by rw [Finset.fold_empty]; exact max_eq_left bot_le⟩
    · obtain ⟨M, hM⟩ := ih hne
      exact ⟨max (f a) M, by rw [hM, Cert.LibERealSum.max_coe]⟩

/-- A projection of real inputs is the real projection. -/
theorem proj_real (x : FVec Ideal S2x4096x512 .f32) (xr : Fin 2 → Fin 4096 → Fin 512 → ℝ)
    (hx : ∀ b t c, x (ix3 b t c) = ((xr b t c : ℝ) : EReal))
    (w : FVec Ideal S512x512 .f32) (wr : Fin 512 → Fin 512 → ℝ) (hw : ∀ e c, w (ix2 e c) = ((wr e c : ℝ) : EReal))
    (b : Fin 2) (h : Fin 8) (t : Fin 4096) (d : Fin 64) :
    proj x w (ix4 b h t d) = ((projR xr wr b t (col h d) : ℝ) : EReal) := by
  rw [proj_apply]
  unfold projR
  rw [Cert.LibERealSum.coe_sum]
  exact Finset.sum_congr rfl fun c _ => by rw [hx, hw, EReal.coe_mul]

/-- A score of real inputs is the real score. -/
theorem scores_real (x : FVec Ideal S2x4096x512 .f32) (xr : Fin 2 → Fin 4096 → Fin 512 → ℝ)
    (hx : ∀ b t c, x (ix3 b t c) = ((xr b t c : ℝ) : EReal))
    (wq wk : FVec Ideal S512x512 .f32) (wqr wkr : Fin 512 → Fin 512 → ℝ)
    (hq : ∀ e c, wq (ix2 e c) = ((wqr e c : ℝ) : EReal)) (hk : ∀ e c, wk (ix2 e c) = ((wkr e c : ℝ) : EReal))
    (b : Fin 2) (h : Fin 8) (t s : Fin 4096) :
    scores (proj x wq) (proj x wk) (ix4 b h t s) = ((scoreR xr wqr wkr b h t s : ℝ) : EReal) := by
  rw [scores_apply, sqrt_64]
  unfold scoreR
  rw [← Cert.LibERealSum.div_coe_coe _ (by norm_num : (8 : ℝ) ≠ 0)]
  refine congrArg (Ideal.div · _) ?_
  rw [Cert.LibERealSum.coe_sum]
  exact Finset.sum_congr rfl fun d _ => by
    rw [proj_real x xr hx wq wqr hq, proj_real x xr hx wk wkr hk, EReal.coe_mul]

/-- The context of a row of real scores against real values: the weighted average at shift zero, whatever real the row
    maximum is. -/
theorem ctx_of_real (S : FVec Ideal S2x8x4096x4096 .f32) (V : FVec Ideal S2x8x4096x64 .f32)
    (sR vR : Fin 4096 → ℝ) (b : Fin 2) (t : Fin 4096) (h : Fin 8) (d : Fin 64)
    (hS : ∀ k, S (ix4 b h t k) = ((sR k : ℝ) : EReal)) (hV : ∀ k, V (ix4 b h k d) = ((vR k : ℝ) : EReal)) :
    ctx (probs (expo S)) V (ix3 b t (col h d))
      = (((∑ k : Fin 4096, Real.exp (sR k) * vR k) / ∑ k : Fin 4096, Real.exp (sR k) : ℝ) : EReal) := by
  obtain ⟨M, hM⟩ : ∃ M : ℝ, rowMax S (ix3 b h t) = ((M : ℝ) : EReal) := by
    rw [rowMax_eq_fold, show (fun k : Fin 4096 => S (ix4 b h t k)) = fun k => ((sR k : ℝ) : EReal) from funext hS]
    exact fold_max_coe_exists sR Finset.univ Finset.univ_nonempty
  have hE : ∀ k, expo S (ix4 b h t k) = ((Real.exp (sR k - M) : ℝ) : EReal) := fun k => by
    rw [expo_apply, hM, hS, ← EReal.coe_sub, Ideal.exp_coe]
  have hL : rowSum (expo S) (ix3 b h t) = ((∑ k : Fin 4096, Real.exp (sR k - M) : ℝ) : EReal) := by
    rw [rowSum_apply, Cert.LibERealSum.coe_sum]
    exact Finset.sum_congr rfl fun k _ => hE k
  have hLpos : (0 : ℝ) < ∑ k : Fin 4096, Real.exp (sR k - M) :=
    Finset.sum_pos (fun k _ => Real.exp_pos _) Finset.univ_nonempty
  have hP : ∀ k, probs (expo S) (ix4 b h t k)
      = ((Real.exp (sR k - M) / ∑ j : Fin 4096, Real.exp (sR j - M) : ℝ) : EReal) := fun k => by
    rw [probs_apply, hE, hL, Cert.LibERealSum.div_coe_coe _ hLpos.ne']
  rw [ctx_apply, ← Cert.LibSoftmaxShift.softmax_ref sR vR M, Cert.LibERealSum.coe_sum]
  exact Finset.sum_congr rfl fun s _ => by rw [hP, hV, EReal.coe_mul]

/-- The reference's context of real inputs is the real model's. -/
theorem ctx_real (x : FVec Ideal S2x4096x512 .f32) (wq wk wv : FVec Ideal S512x512 .f32)
    (xr : Fin 2 → Fin 4096 → Fin 512 → ℝ) (wqr wkr wvr : Fin 512 → Fin 512 → ℝ)
    (hx : ∀ b t c, x (ix3 b t c) = ((xr b t c : ℝ) : EReal)) (hq : ∀ e c, wq (ix2 e c) = ((wqr e c : ℝ) : EReal))
    (hk : ∀ e c, wk (ix2 e c) = ((wkr e c : ℝ) : EReal)) (hv : ∀ e c, wv (ix2 e c) = ((wvr e c : ℝ) : EReal))
    (b : Fin 2) (t : Fin 4096) (h : Fin 8) (d : Fin 64) :
    ctx (probs (expo (scores (proj x wq) (proj x wk)))) (proj x wv) (ix3 b t (col h d))
      = ((ctxR xr wqr wkr wvr b t h d : ℝ) : EReal) := by
  rw [ctx_of_real _ _ (fun s => scoreR xr wqr wkr b h t s) (fun s => projR xr wvr b s (col h d)) b t h d
    (fun k => scores_real x xr hx wq wk wqr wkr hq hk b h t k) (fun k => proj_real x xr hx wv wvr hv b h k d)]
  unfold ctxR
  simp only [sub_zero]

/-- The reference's result at `(b, t, e)` for real inputs to the attention part: the row model of the output projection
    of the real context plus the residual. -/
theorem ref_apply (x : FVec Ideal S2x4096x512 .f32) (wq wk wv wo : FVec Ideal S512x512 .f32) (g bt : FVec Ideal S512 .f32)
    (xr : Fin 2 → Fin 4096 → Fin 512 → ℝ) (wqr wkr wvr : Fin 512 → Fin 512 → ℝ)
    (hx : ∀ b t c, x (ix3 b t c) = ((xr b t c : ℝ) : EReal)) (hq : ∀ e c, wq (ix2 e c) = ((wqr e c : ℝ) : EReal))
    (hk : ∀ e c, wk (ix2 e c) = ((wkr e c : ℝ) : EReal)) (hv : ∀ e c, wv (ix2 e c) = ((wvr e c : ℝ) : EReal))
    (b : Fin 2) (t : Fin 4096) (e : Fin 512) :
    refTerm x wq wk wv wo g bt (ix3 b t e)
      = Cert.Model.lnRow (fun k : Fin 512 =>
          (∑ c : Fin 512, ((Cert.Model.ctxR xr wqr wkr wvr b t ⟨c.val / 64, by omega⟩ ⟨c.val % 64, by omega⟩ : ℝ) : EReal)
              * wo (ix2 k c)) + x (ix3 b t k)) e (g (ix1 e)) (bt (ix1 e)) := by
  rw [ref_layout]
  refine congrArg (fun y => lnRow y e (g (ix1 e)) (bt (ix1 e)))
    (funext fun k => congrArg (· + x (ix3 b t k)) (Finset.sum_congr rfl fun c _ => congrArg (· * wo (ix2 k c)) ?_))
  have hc : col ⟨c.val / 64, by omega⟩ ⟨c.val % 64, by omega⟩ = c :=
    Fin.ext (by show 64 * (c.val / 64) + c.val % 64 = c.val; omega)
  have h := ctx_real x wq wk wv xr wqr wkr wvr hx hq hk hv b t ⟨c.val / 64, by omega⟩ ⟨c.val % 64, by omega⟩
  rw [hc] at h
  exact h

end Cert.ReferenceIdeal.RefRun

end
-- ==== Proof.KI.Finite.lean ====
/-
  Real inputs from the precondition.

  The precondition says, of each of the seven float arrays, that every entry x satisfies |x| < +∞, all these
  conditions joined by "and" into one bit that is 1.  Over the extended reals |x| is max x (−x), and +∞ is the value of
  the bit pattern 0x7F800000; |x| < +∞ then says that x is neither +∞ nor −∞, that is, x is a real number.  So under
  the precondition every entry of every input array is (the coercion of) a real, and the entries can be named by real
  functions of the coordinates.
-/
import proofs.«129024_j24481313587606_2_alg».proof.Pre_finite_inputs
import Idealize.ShloMosaic.Lib.ReduceAll
import Idealize.ShloMosaic.Lib.ValueIdx

noncomputable section

namespace Cert.KernelIdeal.Finite

open Idealize.ShloMosaic Idealize.ShloMosaic.ValueIdx
open Cert.Pre_finite_inputs

/-- The scalar shape has one index. -/
instance subsingleton_S_ : Subsingleton S_.Idx := ⟨fun a b => funext fun d => d.elim0⟩

/-- The bit pattern 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  have h1 : x ≠ ⊤ := fun e => by rw [e] at hlt; exact absurd hlt (by simp)
  have h2 : x ≠ ⊥ := fun e => by rw [e] at hlt; exact absurd hlt (by simp)
  exact ⟨x.toReal, (EReal.coe_toReal h1 h2).symm⟩

/-- One array's condition: if "all entries have absolute value below +∞", computed as a reduction by "and" into one
    bit, is 1, then every entry is a real. -/
theorem all_real {s : Shape} {axes : List (Fin s.rank)} (a : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] bc (constant (F := Ideal) S_ .f32 0x7F800000#32))) init hr hu j
        = 1#1) :
    ∀ i, ∃ r : ℝ, a i = (r : EReal) := fun i =>
  real_of_abs_lt_inf (a i) (Host.reduce_andi_all _ init hr hu j e i)

variable [Facts]

/-- Under the precondition every entry of each of the seven input arrays is a real. -/
theorem real_of_pre (a0 : FVec Ideal S2x4096x512 .f32) (a1 a2 a3 a4 : FVec Ideal S512x512 .f32)
    (a5 a6 : FVec Ideal S512 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ix0
  dsimp only [fn, fn_part1, Idealize.ShloMosaic.andi] at h0
  simp only [IntOp.andi_eq_one] at h0
  obtain ⟨⟨⟨⟨⟨⟨e0, e1⟩, e2⟩, e3⟩, e4⟩, e5⟩, e6⟩ := h0
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6⟩

omit [Facts] in
/-- The entries of a rank-3 array of reals, named by a real function of the three coordinates. -/
theorem exists_real3 {n0 n1 n2 : ℕ} (a : FVec Ideal ⟨3, ![n0, n1, n2]⟩ .f32) (h : ∀ i, ∃ r : ℝ, a i = (r : EReal)) :
    ∃ xr : Fin n0 → Fin n1 → Fin n2 → ℝ, ∀ b t c, a (ix3 b t c) = ((xr b t c : ℝ) : EReal) :=
  ⟨fun b t c => Classical.choose (h (ix3 b t c)), fun b t c => Classical.choose_spec (h (ix3 b t c))⟩

omit [Facts] in
/-- The entries of a rank-2 array of reals, named by a real function of the two coordinates. -/
theorem exists_real2 {n0 n1 : ℕ} (a : FVec Ideal ⟨2, ![n0, n1]⟩ .f32) (h : ∀ i, ∃ r : ℝ, a i = (r : EReal)) :
    ∃ wr : Fin n0 → Fin n1 → ℝ, ∀ e c, a (ix2 e c) = ((wr e c : ℝ) : EReal) :=
  ⟨fun e c => Classical.choose (h (ix2 e c)), fun e c => Classical.choose_spec (h (ix2 e c))⟩

omit [Facts] in
/-- The entries of a rank-1 array of reals, named by a real function of the coordinate. -/
theorem exists_real1 {n0 : ℕ} (a : FVec Ideal ⟨1, ![n0]⟩ .f32) (h : ∀ i, ∃ r : ℝ, a i = (r : EReal)) :
    ∃ gr : Fin n0 → ℝ, ∀ c, a (ix1 c) = ((gr c : ℝ) : EReal) :=
  ⟨fun c => Classical.choose (h (ix1 c)), fun c => Classical.choose_spec (h (ix1 c))⟩

end Cert.KernelIdeal.Finite

end
-- ==== Proof.Final.lean ====
/-
  The algebraic claim from the two value statements.

  The kernel's run ends with every buffer of the TensorCore at the contents the run's last boundary lists; the
  reference's run ends with its result at one pure term of its seven arguments and the arguments unchanged.  The claim
  asks for one array v0 that is the result of both runs, from memories that agree on the arguments.  The array is the
  reference's term at the kernel's arguments.  That the kernel's result is this array is an entry-by-entry statement:
  under the precondition every input entry is a real number, so the activations and the three attention weight matrices
  are named by real functions of the coordinates; with these, entry (b, t, e) of the kernel's result and entry (b, t, e)
  of the reference's term are both the same row normalisation of the same row — the real attention context against the
  output weights plus the activation.  These two entry statements are the hypotheses here; everything else — the
  array, the two runs, the agreement of the memories, the real inputs — is done below.
-/
import proofs.«129024_j24481313587606_2_alg».proof.Defs
import proofs.«129024_j24481313587606_2_alg».proof.Proof.Gen.KernelIdeal
import proofs.«129024_j24481313587606_2_alg».proof.Proof.Gen.ReferenceIdeal
import proofs.«129024_j24481313587606_2_alg».proof.Proof.Gen.Pre_finite_inputs
import proofs.«129024_j24481313587606_2_alg».proof.Proof.KI.Assembly
import proofs.«129024_j24481313587606_2_alg».proof.Proof.KI.Finite
import proofs.«129024_j24481313587606_2_alg».proof.Proof.RefRun
import proofs.«129024_j24481313587606_2_alg».proof.Proof.Model
import proofs.«129024_j24481313587606_2_alg».proof.Proof.ModelLN
import Idealize.ShloMosaic.Lib.ValueIdx

noncomputable section

namespace Cert.Final

open Idealize.ShloMosaic Idealize.ShloMosaic.TcCoe Idealize.ShloMosaic.ValueIdx Idealize.SL.Sem

/-- The row that both programs normalise at (b, t), from real attention inputs: entry k is the real attention context
    of row (b, t) against row k of the output weights, plus the activation. Column cc of the context is feature
    cc mod 64 of head cc div 64. -/
def outRow (xr : Fin 2 → Fin 4096 → Fin 512 → ℝ) (wqr wkr wvr : Fin 512 → Fin 512 → ℝ)
    (x : (⟨3, ![2, 4096, 512]⟩ : Shape).Idx → EReal) (wo : (⟨2, ![512, 512]⟩ : Shape).Idx → EReal)
    (b : Fin 2) (t : Fin 4096) : Fin 512 → EReal :=
  fun k : Fin 512 =>
    (∑ cc : Fin 512, ((Cert.Model.ctxR xr wqr wkr wvr b t ⟨cc.val / 64, by omega⟩ ⟨cc.val % 64, by omega⟩ : ℝ) : EReal)
        * wo (ix2 k cc)) + x (ix3 b t k)

/-- The kernel's value statement: for real attention inputs, entry (b, t, e) of the result the kernel's run leaves is
    the normalisation of the row above. -/
abbrev KernelValue : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (xr : Fin 2 → Fin 4096 → Fin 512 → ℝ) (wqr wkr wvr : Fin 512 → Fin 512 → ℝ)
    (_ : ∀ b t k, (m ((c.tc : Thread Cert.KernelIdeal.nD Cert.KernelIdeal.τ).loc Cert.KernelIdeal.main_arg0)
        : (⟨3, ![2, 4096, 512]⟩ : Shape).Idx → EReal) (ix3 b t k) = ((xr b t k : ℝ) : EReal))
    (_ : ∀ e k, (m ((c.tc : Thread Cert.KernelIdeal.nD Cert.KernelIdeal.τ).loc Cert.KernelIdeal.main_arg1)
        : (⟨2, ![512, 512]⟩ : Shape).Idx → EReal) (ix2 e k) = ((wqr e k : ℝ) : EReal))
    (_ : ∀ e k, (m ((c.tc : Thread Cert.KernelIdeal.nD Cert.KernelIdeal.τ).loc Cert.KernelIdeal.main_arg2)
        : (⟨2, ![512, 512]⟩ : Shape).Idx → EReal) (ix2 e k) = ((wkr e k : ℝ) : EReal))
    (_ : ∀ e k, (m ((c.tc : Thread Cert.KernelIdeal.nD Cert.KernelIdeal.τ).loc Cert.KernelIdeal.main_arg3)
        : (⟨2, ![512, 512]⟩ : Shape).Idx → EReal) (ix2 e k) = ((wvr e k : ℝ) : EReal))
    (b : Fin 2) (t : Fin 4096) (e : Fin 512),
    (Cert.KernelIdeal.Hand.W6 m ρ c (Proc.devRef .tc Cert.KernelIdeal.main_v14)
        : (⟨3, ![2, 4096, 512]⟩ : Shape).Idx → EReal) (ix3 b t e)
      = Cert.Model.lnRow
          (outRow xr wqr wkr wvr
            (m ((c.tc : Thread Cert.KernelIdeal.nD Cert.KernelIdeal.τ).loc Cert.KernelIdeal.main_arg0))
            (m ((c.tc : Thread Cert.KernelIdeal.nD Cert.KernelIdeal.τ).loc Cert.KernelIdeal.main_arg4)) b t) e
          ((m ((c.tc : Thread Cert.KernelIdeal.nD Cert.KernelIdeal.τ).loc Cert.KernelIdeal.main_arg5)
            : (⟨1, ![512]⟩ : Shape).Idx → EReal) (ix1 e))
          ((m ((c.tc : Thread Cert.KernelIdeal.nD Cert.KernelIdeal.τ).loc Cert.KernelIdeal.main_arg6)
            : (⟨1, ![512]⟩ : Shape).Idx → EReal) (ix1 e))

/-- The reference's value statement: for real attention inputs, entry (b, t, e) of the reference's term is the
    normalisation of the same row. -/
abbrev RefValue : Prop :=
  ∀ (x : (⟨3, ![2, 4096, 512]⟩ : Shape).Idx → EReal) (wq wk wv wo : (⟨2, ![512, 512]⟩ : Shape).Idx → EReal)
    (g bt : (⟨1, ![512]⟩ : Shape).Idx → EReal)
    (xr : Fin 2 → Fin 4096 → Fin 512 → ℝ) (wqr wkr wvr : Fin 512 → Fin 512 → ℝ)
    (_ : ∀ b t k, x (ix3 b t k) = ((xr b t k : ℝ) : EReal)) (_ : ∀ e k, wq (ix2 e k) = ((wqr e k : ℝ) : EReal))
    (_ : ∀ e k, wk (ix2 e k) = ((wkr e k : ℝ) : EReal)) (_ : ∀ e k, wv (ix2 e k) = ((wvr e k : ℝ) : EReal))
    (b : Fin 2) (t : Fin 4096) (e : Fin 512),
    (Cert.ReferenceIdeal.RefRun.refTerm x wq wk wv wo g bt : (⟨3, ![2, 4096, 512]⟩ : Shape).Idx → EReal) (ix3 b t e)
      = Cert.Model.lnRow (outRow xr wqr wkr wvr x wo b t) e (g (ix1 e)) (bt (ix1 e))

/-- Under the precondition the kernel's result array is the reference's term at the kernel's arguments. -/
theorem result_eq_refTerm (hK : KernelValue) (hR : RefValue)
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Hand.W6 m ρ c (Proc.devRef .tc Cert.KernelIdeal.main_v14)
        : (⟨3, ![2, 4096, 512]⟩ : Shape).Idx → EReal)
      = Cert.ReferenceIdeal.RefRun.refTerm
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  obtain ⟨r0, r1, r2, r3, -, -, -⟩ := Cert.KernelIdeal.Finite.real_of_pre _ _ _ _ _ _ _ (hpre c)
  obtain ⟨xr, hx⟩ := Cert.KernelIdeal.Finite.exists_real3 _ r0
  obtain ⟨wqr, hq⟩ := Cert.KernelIdeal.Finite.exists_real2 _ r1
  obtain ⟨wkr, hk⟩ := Cert.KernelIdeal.Finite.exists_real2 _ r2
  obtain ⟨wvr, hv⟩ := Cert.KernelIdeal.Finite.exists_real2 _ r3
  funext i
  obtain ⟨b, t, e, rfl⟩ : ∃ b t e, i = ix3 b t e := ⟨i 0, i 1, i 2, eq_ix3 i⟩
  exact (hK m ρ c xr wqr wkr wvr hx hq hk hv b t e).trans (hR _ _ _ _ _ _ _ xr wqr wkr wvr hx hq hk hv b t e).symm

/-- The algebraic claim: from memories that agree on the arguments both programs run, end with the same result array —
    the reference's term at the kernel's arguments — and leave their arguments unchanged. -/
theorem algebraic_of (hK : KernelValue) (hR : RefValue) : Cert.algebraic_KernelIdeal_ReferenceIdeal := by
  intro m ρ m' ρ' hpre hagree
  refine ⟨fun c => Cert.ReferenceIdeal.RefRun.refTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (Cert.KernelIdeal.Hand.run_all (F := Ideal) m ρ).mono fun r h c =>
      ⟨(h c _ (Cert.KernelIdeal.Hand.mem_uc Cert.KernelIdeal.main_v14 (by decide))).trans (result_eq_refTerm hK hR m ρ hpre c),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c)⟩
  · exact (Cert.ReferenceIdeal.RefRun.run m' ρ').mono fun r h c =>
      ⟨(h c).1.trans (by
          rw [(hagree c).1, (hagree c).2.1, (hagree c).2.2.1, (hagree c).2.2.2.1, (hagree c).2.2.2.2.1,
            (hagree c).2.2.2.2.2.1, (hagree c).2.2.2.2.2.2]), (h c).2⟩

end Cert.Final

end
-- ==== Proof.lean ====
/-
  Multi-head attention with a residual connection and a layer normalisation: the kernel, its reading over the extended
  reals, and the reference; the five claims.

  The three programs take the activations x (2 batches of 4096 rows of 512 features), four 512 × 512 weight matrices
  (rows are output features) and two parameter vectors of length 512.  Each computes the projections Q, K, V of the
  rows; per batch and per head (8 heads of 64 features) the scores of every query row against every key row, the head's
  features contracted and the result divided by 8; the context, the average of the value rows weighted by the
  exponentials of the scores; the context against the output weights, plus the activation; and the layer normalisation
  of each such row — mean and variance over the 512 entries, (y − mean) · rsqrt(variance + ε), scaled and shifted by the
  two parameter vectors.  The kernel does this in three tiled passes: the projections; the attention, which visits the
  4096 key rows in 8 blocks of 512 and keeps for each query row a running maximum, the sum of the weights and the
  weighted sums of the values, all restated at the new maximum before a block is added, and divides once at the end;
  the output projection with the residual and the normalisation.  The reference forms the full score array, subtracts
  each row's maximum, exponentiates, normalises the weights and then averages.

  The claims.  Each program runs to the end from every memory, and its seven argument arrays end as they began: for the
  kernel, at the bit-exact values and over the extended reals, this is read off the run through its three regions and
  the host operations between them, every buffer ending at the contents the last boundary lists, none of which touches
  an argument; for the reference, off the fold of its operations.  The kernel over the extended reals is the kernel's
  own text, no operation rewritten.  The algebraic claim: under the precondition every input entry is a real number;
  then the blockwise average with a running maximum is, row by row, the quotient of the weighted sum by the sum of the
  weights at any shift, which is also what the reference's normalised weights give; so the two contexts are the same
  real array, the rows the two programs normalise are equal, and both normalise them by the same operations in the
  same order.  Hence the kernel's result is the reference's term at the kernel's arguments, entry by entry, and from
  memories agreeing on the arguments both runs end with that array.
-/
import proofs.«129024_j24481313587606_2_alg».proof.Defs
import proofs.«129024_j24481313587606_2_alg».proof.Proof.Gen.Kernel
import proofs.«129024_j24481313587606_2_alg».proof.Proof.Gen.KernelIdeal
import proofs.«129024_j24481313587606_2_alg».proof.Proof.Gen.ReferenceIdeal
import proofs.«129024_j24481313587606_2_alg».proof.Proof.Gen.Pre_finite_inputs
import proofs.«129024_j24481313587606_2_alg».proof.Proof.K.Assembly
import proofs.«129024_j24481313587606_2_alg».proof.Proof.KI.Assembly
import proofs.«129024_j24481313587606_2_alg».proof.Proof.KI.KernelValue
import proofs.«129024_j24481313587606_2_alg».proof.Proof.KI.CtxValue
import proofs.«129024_j24481313587606_2_alg».proof.Proof.RefRun
import proofs.«129024_j24481313587606_2_alg».proof.Proof.RefRead
import proofs.«129024_j24481313587606_2_alg».proof.Proof.Final

noncomputable section

namespace Cert.Proof

open Idealize.ShloMosaic Idealize.ShloMosaic.TcCoe Idealize.ShloMosaic.ValueIdx Idealize.SL.Sem

/-- The reference's term at an entry, for real attention inputs: the normalisation of the row built from the real
    attention context. -/
theorem refValue : Cert.Final.RefValue :=
  fun x wq wk wv wo g bt xr wqr wkr wvr hx hq hk hv b t e =>
    Cert.ReferenceIdeal.RefRun.ref_apply x wq wk wv wo g bt xr wqr wkr wvr hx hq hk hv b t e

/-- The kernel's result at an entry, for real attention inputs: the attention pass leaves the real attention context,
    and the last pass normalises the row built from it. -/
theorem kernelValue : Cert.Final.KernelValue :=
  fun m ρ c xr wqr wkr wvr hx hq hk hv b t e =>
    Cert.KernelIdeal.Hand.kernel_apply m ρ c xr wqr wkr wvr
      (fun b t cc => Cert.KernelIdeal.Hand.ctx_kernel m ρ c xr wqr wkr wvr hx hq hk hv b t cc) b t e

/-- The five claims. -/
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => (Cert.ReferenceIdeal.RefRun.run m ρ).mono (fun _ h c => (h c).2),
    trivial,
    Cert.Final.algebraic_of kernelValue refValue⟩

end Cert.Proof

end
